-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_tau" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048 : Shape := ⟨1, ![2048]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) (main_arg1 : FVec F S2048x512 .f32) (main_arg2 : IVec S2048 32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S2048x512 : Shape := ⟨2, ![2048, 512]⟩
abbrev S2048 : Shape := ⟨1, ![2048]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S512x512 : Shape := ⟨2, ![512, 512]⟩
abbrev S512x1 : Shape := ⟨2, ![512, 1]⟩
abbrev S1x512 : Shape := ⟨2, ![1, 512]⟩
abbrev S512 : Shape := ⟨1, ![512]⟩

abbrev nBuf : Space → Nat
  | .hbm => 20
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048, .i32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S4096x512, .f32⟩
  | .hbm, ⟨10, _⟩ => ⟨S4096x512, .f32⟩
  | .hbm, ⟨11, _⟩ => ⟨S4096x512, .bf16⟩
  | .hbm, ⟨12, _⟩ => ⟨S4096, .i32⟩
  | .hbm, ⟨13, _⟩ => ⟨S4096x1, .i32⟩
  | .hbm, ⟨14, _⟩ => ⟨S1x4096, .i32⟩
  | .hbm, ⟨15, _⟩ => ⟨S4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512, .f32⟩
  | .local _ .vmem, ⟨9, _⟩ => ⟨S512, .f32⟩
  | .local _ .vmem, ⟨10, _⟩ => ⟨S512x1, .f32⟩
  | .local _ .vmem, ⟨11, _⟩ => ⟨S512x1, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_22 : BitVec 32 := 0#32
  let v48 : BitVec 1 := Scalar.cmpi .ne v47 c0_i32_22
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  concatenates_S2048x512_S2048x512_S4096x512_d0 : Shape.Concatenates [S2048x512, S2048x512] S4096x512 0
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  bitsLt_bf16_f32 : FTy.bits .bf16 < FTy.bits .f32
  concatenates_S2048_S2048_S4096_d0 : Shape.Concatenates [S2048, S2048] S4096 0
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  shapeCasts_S512x1_S512 : S512x1.ShapeCasts S512
  inb_S512_S512_0 : ∀ a, (![0] : Fin 1 → Nat) a + S512.size a ≤ S512.size a
  h_S512 : 0 < S512.numel
  reducesTo_S4096_S_d0 : S4096.ReducesTo [0] S_
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .bf16 = 32 ∨ (Rect.block (s := S4096x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S4096.size a
  hwx0_4 : ∀ i : grid0.Coords, EltTy.bits .f32 = 32 ∨ (Rect.block (s := S4096) S512.size (cc0_transform_4 i) (hinb0_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v7) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x512 : Shape := ⟨2, ![2048, 512]⟩
abbrev S2048 : Shape := ⟨1, ![2048]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S512x4096 : Shape := ⟨2, ![512, 4096]⟩
abbrev S4096x4096 : Shape := ⟨2, ![4096, 4096]⟩
abbrev S1x4096 : Shape := ⟨2, ![1, 4096]⟩

abbrev nBuf : Space → Nat
  | .hbm => 52
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048, .i32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S4096x512, .f32⟩
  | .hbm, ⟨10, _⟩ => ⟨S4096x512, .f32⟩
  | .hbm, ⟨11, _⟩ => ⟨S4096, .i32⟩
  | .hbm, ⟨12, _⟩ => ⟨S512x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x1, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4096x4096, .i32⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S4096x4096, .i1⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  concatenates_S2048x512_S2048x512_S4096x512_d0 : Shape.Concatenates [S2048x512, S2048x512] S4096x512 0
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  concatenates_S2048_S2048_S4096_d0 : Shape.Concatenates [S2048, S2048] S4096 0
  transposes_S4096x512_S512x4096_1_0 : S4096x512.Transposes [1, 0] S512x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.KBShared.lean ====
/-
  The supervised-contrastive kernel's frame, part one: what every case of the body shares.

  The grid is 8 × 8: point t = (ri, ci) handles row block ri against column block ci. The body resets its two
  running sums (numerator, denominator: the scratch columns) at ci = 0, adds the block's masked and unmasked
  row sums at every point, and at ci = 7 writes the row block's losses into the output block. So a point is in
  one of three cases, by t mod 8: first column block (reset, no output), a middle one (neither), the last one
  (output stored). Here: the array contents the region finds (the host operations before it applied to the
  launch memory), a window's block read off them, the two conditions decided over the grid, where the output
  window is idle, and the scratch columns as owned memrefs.
-/
import proofs.«163814_j80650895884987_1_alg».proof.Proof.Gen.Kernel.Launch
import proofs.«163814_j80650895884987_1_alg».proof.Proof.Gen.Kernel.Skeleton
import proofs.«163814_j80650895884987_1_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev V₀ (c : Dev nD) : Valuation τ sig (Elt F) := fun b => m (c, b)
/-- after the twelve host operations before the region; -/
abbrev VH (c : Dev nD) : Valuation τ sig (Elt F) := StableHlo.after hostOps0 (V₀ m c)
/-- and the same read at a TensorCore reference. -/
abbrev V (c : Dev nD) (b : Ref sig .tc) : Buf (Elt F) ((c : Thread nD τ).loc b) := VH m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions, over the grid -/

/-- "This is the first column block" (the reset's condition), from the grid coordinates. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)

/-- "This is the last column block" (the output store's condition). -/
abbrev cond2 (i : grid0.Coords) : Prop := k0_cond2 i = 1#1
theorem hcond2 : ∀ t : Fin cfg0.N, cond2 (grid0.coords t) ↔ t.val % 8 = 7 :=
  (by decide +kernel : ∀ t : Fin grid0.N, cond2 (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Off the last column block the output window is idle and not written back; -/
theorem idle4 : ∀ t : Fin cfg0.N, ¬cond2 (grid0.coords t) → cfg0.idle 4 (grid0.coords t) = true := by decide +kernel
theorem noFlush4 : ∀ t : Fin cfg0.N, ¬cond2 (grid0.coords t) → (cfg0.win 4).flush t = false := by decide +kernel
/-- on it, live. -/
theorem live4 : ∀ t : Fin cfg0.N, cond2 (grid0.coords t) → cfg0.idle 4 (grid0.coords t) = false := by decide +kernel

/-! ## The memrefs the body is called with -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512 .f32 := win0_4.stage (cfg0.slots t 4)
abbrev hs4 (t : Fin cfg0.N) : (ms4 t).IsWhole := hstage0_4 ((cfg0.slots t 4).cast nbuf0_4)
/-- The two running sums: whole scoped buffers of the kernel's own. -/
abbrev scN : Memref sig .tc .vmem S512x1 .f32 := Memref.whole cc0_scratch0
abbrev scD : Memref sig .tc .vmem S512x1 .f32 := Memref.whole cc0_scratch1
/-- One staging buffer of the output window, and the scratch columns, as views through which contents are stated. -/
abbrev VO : View sig .tc .vmem S512 .f32 := (Memref.whole cc0_stg4_0 : Memref sig .tc .vmem S512 .f32).view
abbrev VN : View sig .tc .vmem S512x1 .f32 := (scN).view
abbrev VD : View sig .tc .vmem S512x1 .f32 := (scD).view

/-- The scoped buffers no window stages are the two running sums, each owned whole at some contents. -/
theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) scN fullShare d) ∗ (∃ d, owns (c : Thread nD τ) scD fullShare d)) := by
  rw [scopedRest0_eq]; simp only [scN, scD, owns_whole]; rfl

end Cert.Kernel.Hand

end
-- ==== Proof.KBRunA.lean ====
/-
  The body at a point of the FIRST column block: it resets both running sums to zero, then adds this block's
  row sums. Whatever the running sums held before is overwritten, so they are taken at any contents.
-/
import proofs.«163814_j80650895884987_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The pieces the first-block case leaves in the two running sums, with the body's triple. -/
noncomputable def runA (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : cond1 i) (hc2 : ¬cond2 i)
    (x0 : Vec F S512x512 .bf16) (x1 : Vec F S512x512 .bf16) (x2 : Vec F S512x1 .i32) (x3 : Vec F S1x512 .i32) :
    Σ' (LN : List (View.Piece (Elt F) S512x1 .f32)), { LD : List (View.Piece (Elt F) S512x1 .f32) //
      ∀ (xo : Vec F S512 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo
            ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xo
                ∗ (∃ f, a7.view.loc (c : Thread nD τ) ↦[a7.view.set]{fullShare} a7.view.writes (Elt F) f LN)
                ∗ (∃ f, a8.view.loc (c : Thread nD τ) ↦[a8.view.set]{fullShare} a8.view.writes (Elt F) f LD)) -∗ K ⟨⟩))
          ⊢ wp frame (wpE (defs₀ (F := F)) Variants.none c none) E (cc0__supcon_kernel i a2 ha2 a3 ha3 a4 ha4 a5 ha5 a6 ha6 a7 ha7 a8 ha8) K } := by
  refine ⟨?_, ?_, fun xo E K => ?run⟩
  case run =>
    rw [cc0__supcon_kernel_eq_skeleton]; unfold cc0__supcon_kernel_skel
    rw [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%dn, %fn, -, HN⟩, ⟨%dd, %fd, -, HD⟩, Hk⟩
    obtain rfl := ha2.eq_unread hf0; obtain rfl := ha3.eq_unread hf1; obtain rfl := ha4.eq_unread hf2
    obtain rfl := ha5.eq_unread hf3; obtain rfl := ha6.eq_unread hf4
    sl_exec (disch := first | exact hc1 | exact hc2)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [HN]
    · iexists _; iexact HN
    iexists _; iexact HD

end Cert.Kernel.Hand

end
-- ==== Proof.KBRunB.lean ====
/-
  The body at a point of a MIDDLE column block (neither the first nor the last): it loads the two feature
  blocks, the two label blocks and both running sums, and stores each running sum plus this block's row sums.
  Stated on any whole memrefs: the inputs come back as they were, the output buffer untouched, and each running
  sum holds the pieces the stores wrote.
-/
import proofs.«163814_j80650895884987_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The pieces the middle case leaves in the two running sums, with the body's triple. -/
noncomputable def runB (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : ¬cond2 i)
    (x0 : Vec F S512x512 .bf16) (x1 : Vec F S512x512 .bf16) (x2 : Vec F S512x1 .i32) (x3 : Vec F S1x512 .i32)
    (xn : Vec F S512x1 .f32) (xd : Vec F S512x1 .f32) :
    Σ' (LN : List (View.Piece (Elt F) S512x1 .f32)), { LD : List (View.Piece (Elt F) S512x1 .f32) //
      ∀ (xo : Vec F S512 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo
            ∗ owns (c : Thread nD τ) a7 fullShare xn ∗ owns (c : Thread nD τ) a8 fullShare xd
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xo
                ∗ (∃ f, a7.view.loc (c : Thread nD τ) ↦[a7.view.set]{fullShare} a7.view.writes (Elt F) f LN)
                ∗ (∃ f, a8.view.loc (c : Thread nD τ) ↦[a8.view.set]{fullShare} a8.view.writes (Elt F) f LD)) -∗ K ⟨⟩))
          ⊢ wp frame (wpE (defs₀ (F := F)) Variants.none c none) E (cc0__supcon_kernel i a2 ha2 a3 ha3 a4 ha4 a5 ha5 a6 ha6 a7 ha7 a8 ha8) K } := by
  refine ⟨?_, ?_, fun xo E K => ?run⟩
  case run =>
    rw [cc0__supcon_kernel_eq_skeleton]; unfold cc0__supcon_kernel_skel
    rw [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fn, %hfn, HN⟩, ⟨%fd, %hfd, HD⟩, Hk⟩
    obtain rfl := ha2.eq_unread hf0; obtain rfl := ha3.eq_unread hf1; obtain rfl := ha4.eq_unread hf2
    obtain rfl := ha5.eq_unread hf3; obtain rfl := ha6.eq_unread hf4; obtain rfl := ha7.eq_unread hfn; obtain rfl := ha8.eq_unread hfd
    sl_exec (disch := first | exact hc1 | exact hc2)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [HN]
    · iexists _; iexact HN
    iexists _; iexact HD

end Cert.Kernel.Hand

end
-- ==== Proof.KBRunC.lean ====
/-
  The body at a point of the LAST column block: it adds this block's row sums to the running sums and then
  stores the row block's losses, computed from the finished sums, into the output block. The output buffer is
  taken at any contents: the store covers it.
-/
import proofs.«163814_j80650895884987_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The pieces the last-block case leaves in the output block and the two running sums, with the body's triple. -/
noncomputable def runC (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i)
    (x0 : Vec F S512x512 .bf16) (x1 : Vec F S512x512 .bf16) (x2 : Vec F S512x1 .i32) (x3 : Vec F S1x512 .i32)
    (xn : Vec F S512x1 .f32) (xd : Vec F S512x1 .f32) :
    Σ' (LO : List (View.Piece (Elt F) S512 .f32)) (LN : List (View.Piece (Elt F) S512x1 .f32)), { LD : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d)
            ∗ owns (c : Thread nD τ) a7 fullShare xn ∗ owns (c : Thread nD τ) a8 fullShare xd
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LN)
                ∗ (∃ f, a8.view.loc (c : Thread nD τ) ↦[a8.view.set]{fullShare} a8.view.writes (Elt F) f LD)) -∗ K ⟨⟩))
          ⊢ wp frame (wpE (defs₀ (F := F)) Variants.none c none) E (cc0__supcon_kernel i a2 ha2 a3 ha3 a4 ha4 a5 ha5 a6 ha6 a7 ha7 a8 ha8) K } := by
  refine ⟨?_, ?_, ?_, fun E K => ?run⟩
  case run =>
    rw [cc0__supcon_kernel_eq_skeleton]; unfold cc0__supcon_kernel_skel
    rw [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fn, %hfn, HN⟩, ⟨%fd, %hfd, HD⟩, Hk⟩
    obtain rfl := ha2.eq_unread hf0; obtain rfl := ha3.eq_unread hf1; obtain rfl := ha4.eq_unread hf2
    obtain rfl := ha5.eq_unread hf3; obtain rfl := ha7.eq_unread hfn; obtain rfl := ha8.eq_unread hfd
    sl_exec (disch := first | exact hc1 | exact hc2)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; iexact H4
    isplitl [HN]
    · iexists _; iexact HN
    iexists _; iexact HD

end Cert.Kernel.Hand

end
-- ==== Proof.KBData.lean ====
/-
  The supervised-contrastive kernel's frame, part two: what the buffers hold after each point, the proof data of
  the one pipeline, and the body's obligation at every point.

  After the body at point t the numerator and denominator columns hold the running sums over the column blocks
  0 … (t mod 8) of t's row block: the first-block case starts them, every later point adds to what the point
  before left. The output block is stored at the last column block only, from the finished sums; elsewhere the
  output window is idle and its buffer is handed back as it was found.
-/
import proofs.«163814_j80650895884987_1_alg».proof.Proof.KBRunA
import proofs.«163814_j80650895884987_1_alg».proof.Proof.KBRunB
import proofs.«163814_j80650895884987_1_alg».proof.Proof.KBRunC
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces case A writes into the numerator sums cover it. -/
theorem covNA (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : cond1 i) (hc2 : ¬cond2 i) (x0 : Vec F S512x512 .bf16) (x1 : Vec F S512x512 .bf16) (x2 : Vec F S512x1 .i32) (x3 : Vec F S1x512 .i32) (y : S512x1.Idx) :
    ∃ pc ∈ (runA c i a2 ha2 a3 ha3 a4 ha4 a5 ha5 a6 ha6 a7 ha7 a8 ha8 hc1 hc2 x0 x1 x2 x3).1, y ∈ pc.1.set :=
  View.cover_of_tiledL (runA c i a2 ha2 a3 ha3 a4 ha4 a5 ha5 a6 ha6 a7 ha7 a8 ha8 hc1 hc2 x0 x1 x2 x3).1 S512x1.size (by sl_kernel_rfl) y

/-- What case A leaves there: its pieces read back. -/
def outNA (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : cond1 i) (hc2 : ¬cond2 i) (x0 : Vec F S512x512 .bf16) (x1 : Vec F S512x512 .bf16) (x2 : Vec F S512x1 .i32) (x3 : Vec F S1x512 .i32) : Vec F S512x1 .f32 :=
  VN.read (Elt F) (VN.writes (Elt F) VN.junk (runA c i a2 ha2 a3 ha3 a4 ha4 a5 ha5 a6 ha6 a7 ha7 a8 ha8 hc1 hc2 x0 x1 x2 x3).1)

/-- The pieces case A writes into the denominator sums cover it. -/
theorem covDA (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : cond1 i) (hc2 : ¬cond2 i) (x0 : Vec F S512x512 .bf16) (x1 : Vec F S512x512 .bf16) (x2 : Vec F S512x1 .i32) (x3 : Vec F S1x512 .i32) (y : S512x1.Idx) :
    ∃ pc ∈ (runA c i a2 ha2 a3 ha3 a4 ha4 a5 ha5 a6 ha6 a7 ha7 a8 ha8 hc1 hc2 x0 x1 x2 x3).2.1, y ∈ pc.1.set :=
  View.cover_of_tiledL (runA c i a2 ha2 a3 ha3 a4 ha4 a5 ha5 a6 ha6 a7 ha7 a8 ha8 hc1 hc2 x0 x1 x2 x3).2.1 S512x1.size (by sl_kernel_rfl) y

/-- What case A leaves there: its pieces read back. -/
def outDA (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : cond1 i) (hc2 : ¬cond2 i) (x0 : Vec F S512x512 .bf16) (x1 : Vec F S512x512 .bf16) (x2 : Vec F S512x1 .i32) (x3 : Vec F S1x512 .i32) : Vec F S512x1 .f32 :=
  VD.read (Elt F) (VD.writes (Elt F) VD.junk (runA c i a2 ha2 a3 ha3 a4 ha4 a5 ha5 a6 ha6 a7 ha7 a8 ha8 hc1 hc2 x0 x1 x2 x3).2.1)

/-- The pieces case B writes into the numerator sums cover it. -/
theorem covNB (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : ¬cond2 i) (x0 : Vec F S512x512 .bf16) (x1 : Vec F S512x512 .bf16) (x2 : Vec F S512x1 .i32) (x3 : Vec F S1x512 .i32) (xn : Vec F S512x1 .f32) (xd : Vec F S512x1 .f32) (y : S512x1.Idx) :
    ∃ pc ∈ (runB c i a2 ha2 a3 ha3 a4 ha4 a5 ha5 a6 ha6 a7 ha7 a8 ha8 hc1 hc2 x0 x1 x2 x3 xn xd).1, y ∈ pc.1.set :=
  View.cover_of_tiledL (runB c i a2 ha2 a3 ha3 a4 ha4 a5 ha5 a6 ha6 a7 ha7 a8 ha8 hc1 hc2 x0 x1 x2 x3 xn xd).1 S512x1.size (by sl_kernel_rfl) y

/-- What case B leaves there: its pieces read back. -/
def outNB (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : ¬cond2 i) (x0 : Vec F S512x512 .bf16) (x1 : Vec F S512x512 .bf16) (x2 : Vec F S512x1 .i32) (x3 : Vec F S1x512 .i32) (xn : Vec F S512x1 .f32) (xd : Vec F S512x1 .f32) : Vec F S512x1 .f32 :=
  VN.read (Elt F) (VN.writes (Elt F) VN.junk (runB c i a2 ha2 a3 ha3 a4 ha4 a5 ha5 a6 ha6 a7 ha7 a8 ha8 hc1 hc2 x0 x1 x2 x3 xn xd).1)

/-- The pieces case B writes into the denominator sums cover it. -/
theorem covDB (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : ¬cond2 i) (x0 : Vec F S512x512 .bf16) (x1 : Vec F S512x512 .bf16) (x2 : Vec F S512x1 .i32) (x3 : Vec F S1x512 .i32) (xn : Vec F S512x1 .f32) (xd : Vec F S512x1 .f32) (y : S512x1.Idx) :
    ∃ pc ∈ (runB c i a2 ha2 a3 ha3 a4 ha4 a5 ha5 a6 ha6 a7 ha7 a8 ha8 hc1 hc2 x0 x1 x2 x3 xn xd).2.1, y ∈ pc.1.set :=
  View.cover_of_tiledL (runB c i a2 ha2 a3 ha3 a4 ha4 a5 ha5 a6 ha6 a7 ha7 a8 ha8 hc1 hc2 x0 x1 x2 x3 xn xd).2.1 S512x1.size (by sl_kernel_rfl) y

/-- What case B leaves there: its pieces read back. -/
def outDB (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : ¬cond2 i) (x0 : Vec F S512x512 .bf16) (x1 : Vec F S512x512 .bf16) (x2 : Vec F S512x1 .i32) (x3 : Vec F S1x512 .i32) (xn : Vec F S512x1 .f32) (xd : Vec F S512x1 .f32) : Vec F S512x1 .f32 :=
  VD.read (Elt F) (VD.writes (Elt F) VD.junk (runB c i a2 ha2 a3 ha3 a4 ha4 a5 ha5 a6 ha6 a7 ha7 a8 ha8 hc1 hc2 x0 x1 x2 x3 xn xd).2.1)

/-- The pieces case C writes into the output block cover it. -/
theorem covOC (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i) (x0 : Vec F S512x512 .bf16) (x1 : Vec F S512x512 .bf16) (x2 : Vec F S512x1 .i32) (x3 : Vec F S1x512 .i32) (xn : Vec F S512x1 .f32) (xd : Vec F S512x1 .f32) (y : S512.Idx) :
    ∃ pc ∈ (runC c i a2 ha2 a3 ha3 a4 ha4 a5 ha5 a6 ha6 a7 ha7 a8 ha8 hc1 hc2 x0 x1 x2 x3 xn xd).1, y ∈ pc.1.set :=
  View.cover_of_tiledL (runC c i a2 ha2 a3 ha3 a4 ha4 a5 ha5 a6 ha6 a7 ha7 a8 ha8 hc1 hc2 x0 x1 x2 x3 xn xd).1 S512.size (by sl_kernel_rfl) y

/-- What case C leaves there: its pieces read back. -/
def outOC (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i) (x0 : Vec F S512x512 .bf16) (x1 : Vec F S512x512 .bf16) (x2 : Vec F S512x1 .i32) (x3 : Vec F S1x512 .i32) (xn : Vec F S512x1 .f32) (xd : Vec F S512x1 .f32) : Vec F S512 .f32 :=
  VO.read (Elt F) (VO.writes (Elt F) VO.junk (runC c i a2 ha2 a3 ha3 a4 ha4 a5 ha5 a6 ha6 a7 ha7 a8 ha8 hc1 hc2 x0 x1 x2 x3 xn xd).1)

/-- The pieces case C writes into the numerator sums cover it. -/
theorem covNC (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i) (x0 : Vec F S512x512 .bf16) (x1 : Vec F S512x512 .bf16) (x2 : Vec F S512x1 .i32) (x3 : Vec F S1x512 .i32) (xn : Vec F S512x1 .f32) (xd : Vec F S512x1 .f32) (y : S512x1.Idx) :
    ∃ pc ∈ (runC c i a2 ha2 a3 ha3 a4 ha4 a5 ha5 a6 ha6 a7 ha7 a8 ha8 hc1 hc2 x0 x1 x2 x3 xn xd).2.1, y ∈ pc.1.set :=
  View.cover_of_tiledL (runC c i a2 ha2 a3 ha3 a4 ha4 a5 ha5 a6 ha6 a7 ha7 a8 ha8 hc1 hc2 x0 x1 x2 x3 xn xd).2.1 S512x1.size (by sl_kernel_rfl) y

/-- What case C leaves there: its pieces read back. -/
def outNC (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i) (x0 : Vec F S512x512 .bf16) (x1 : Vec F S512x512 .bf16) (x2 : Vec F S512x1 .i32) (x3 : Vec F S1x512 .i32) (xn : Vec F S512x1 .f32) (xd : Vec F S512x1 .f32) : Vec F S512x1 .f32 :=
  VN.read (Elt F) (VN.writes (Elt F) VN.junk (runC c i a2 ha2 a3 ha3 a4 ha4 a5 ha5 a6 ha6 a7 ha7 a8 ha8 hc1 hc2 x0 x1 x2 x3 xn xd).2.1)

/-- The pieces case C writes into the denominator sums cover it. -/
theorem covDC (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i) (x0 : Vec F S512x512 .bf16) (x1 : Vec F S512x512 .bf16) (x2 : Vec F S512x1 .i32) (x3 : Vec F S1x512 .i32) (xn : Vec F S512x1 .f32) (xd : Vec F S512x1 .f32) (y : S512x1.Idx) :
    ∃ pc ∈ (runC c i a2 ha2 a3 ha3 a4 ha4 a5 ha5 a6 ha6 a7 ha7 a8 ha8 hc1 hc2 x0 x1 x2 x3 xn xd).2.2.1, y ∈ pc.1.set :=
  View.cover_of_tiledL (runC c i a2 ha2 a3 ha3 a4 ha4 a5 ha5 a6 ha6 a7 ha7 a8 ha8 hc1 hc2 x0 x1 x2 x3 xn xd).2.2.1 S512x1.size (by sl_kernel_rfl) y

/-- What case C leaves there: its pieces read back. -/
def outDC (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i) (x0 : Vec F S512x512 .bf16) (x1 : Vec F S512x512 .bf16) (x2 : Vec F S512x1 .i32) (x3 : Vec F S1x512 .i32) (xn : Vec F S512x1 .f32) (xd : Vec F S512x1 .f32) : Vec F S512x1 .f32 :=
  VD.read (Elt F) (VD.writes (Elt F) VD.junk (runC c i a2 ha2 a3 ha3 a4 ha4 a5 ha5 a6 ha6 a7 ha7 a8 ha8 hc1 hc2 x0 x1 x2 x3 xn xd).2.2.1)

/-! ## What the buffers hold after each point -/

/-- The output block, the numerator sums and the denominator sums after the body at position `n`: the case the
    position is in (by `n mod 8`), run on the point's input blocks and, past the first column block, on the sums the
    position before left. Where the output window is idle its component is a placeholder nothing reads. -/
def outsAt (c : Dev nD) : (n : ℕ) → n < cfg0.N → Vec F S512 .f32 × Vec F S512x1 .f32 × Vec F S512x1 .f32
  | 0, hn => (VO.read (Elt F) VO.junk, outNA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scN (Memref.isWhole_whole _) scD (Memref.isWhole_whole _) ((hcond1 ⟨0, hn⟩).mpr (Nat.zero_mod _)) (fun h => (fun h => by (try dsimp only at h); omega) ((hcond2 ⟨0, hn⟩).mp h)) (iblk m c 0 ⟨0, hn⟩) (iblk m c 1 ⟨0, hn⟩) (iblk m c 2 ⟨0, hn⟩) (iblk m c 3 ⟨0, hn⟩), outDA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scN (Memref.isWhole_whole _) scD (Memref.isWhole_whole _) ((hcond1 ⟨0, hn⟩).mpr (Nat.zero_mod _)) (fun h => (fun h => by (try dsimp only at h); omega) ((hcond2 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h7 : (n + 1) % 8 = 7 then
        False.elim (by omega)
      else
        (VO.read (Elt F) VO.junk, outNA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) ((hcond1 ⟨n + 1, hn⟩).mpr h0) (fun h => h7 ((hcond2 ⟨n + 1, hn⟩).mp h)) (iblk m c 0 ⟨n + 1, hn⟩) (iblk m c 1 ⟨n + 1, hn⟩) (iblk m c 2 ⟨n + 1, hn⟩) (iblk m c 3 ⟨n + 1, hn⟩), outDA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) ((hcond1 ⟨n + 1, hn⟩).mpr h0) (fun h => h7 ((hcond2 ⟨n + 1, hn⟩).mp h)) (iblk m c 0 ⟨n + 1, hn⟩) (iblk m c 1 ⟨n + 1, hn⟩) (iblk m c 2 ⟨n + 1, hn⟩) (iblk m c 3 ⟨n + 1, hn⟩))
    else
      if h7 : (n + 1) % 8 = 7 then
        (outOC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) (fun h => h0 ((hcond1 ⟨n + 1, hn⟩).mp h)) ((hcond2 ⟨n + 1, hn⟩).mpr h7) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, outNC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) (fun h => h0 ((hcond1 ⟨n + 1, hn⟩).mp h)) ((hcond2 ⟨n + 1, hn⟩).mpr h7) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, outDC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) (fun h => h0 ((hcond1 ⟨n + 1, hn⟩).mp h)) ((hcond2 ⟨n + 1, hn⟩).mpr h7) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)
      else
        (VO.read (Elt F) VO.junk, outNB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) (fun h => h0 ((hcond1 ⟨n + 1, hn⟩).mp h)) (fun h => h7 ((hcond2 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, outDB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) (fun h => h0 ((hcond1 ⟨n + 1, hn⟩).mp h)) (fun h => h7 ((hcond2 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)

theorem outsAt_A (c : Dev nD) (t : Fin cfg0.N) (h0 : t.val % 8 = 0) (h7 : ¬t.val % 8 = 7) :
    outsAt m c t.val t.isLt = (VO.read (Elt F) VO.junk, outNA c (grid0.coords t) (ms0 t) (hs0 t) (ms1 t) (hs1 t) (ms2 t) (hs2 t) (ms3 t) (hs3 t) (ms4 t) (hs4 t) scN (Memref.isWhole_whole _) scD (Memref.isWhole_whole _) ((hcond1 t).mpr h0) (fun h => h7 ((hcond2 t).mp h)) (iblk m c 0 t) (iblk m c 1 t) (iblk m c 2 t) (iblk m c 3 t), outDA c (grid0.coords t) (ms0 t) (hs0 t) (ms1 t) (hs1 t) (ms2 t) (hs2 t) (ms3 t) (hs3 t) (ms4 t) (hs4 t) scN (Memref.isWhole_whole _) scD (Memref.isWhole_whole _) ((hcond1 t).mpr h0) (fun h => h7 ((hcond2 t).mp h)) (iblk m c 0 t) (iblk m c 1 t) (iblk m c 2 t) (iblk m c 3 t)) := by
  obtain ⟨n, hn⟩ := t
  cases n with
  | zero => exact rfl
  | succ n => exact (dif_pos h0).trans ((dif_neg h7).trans rfl)

theorem outsAt_B (c : Dev nD) (t : Fin cfg0.N) (h0 : ¬t.val % 8 = 0) (h7 : ¬t.val % 8 = 7) :
    outsAt m c t.val t.isLt = (VO.read (Elt F) VO.junk, outNB c (grid0.coords t) (ms0 t) (hs0 t) (ms1 t) (hs1 t) (ms2 t) (hs2 t) (ms3 t) (hs3 t) (ms4 t) (hs4 t) scN (Memref.isWhole_whole _) scD (Memref.isWhole_whole _) (fun h => h0 ((hcond1 t).mp h)) (fun h => h7 ((hcond2 t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, outDB c (grid0.coords t) (ms0 t) (hs0 t) (ms1 t) (hs1 t) (ms2 t) (hs2 t) (ms3 t) (hs3 t) (ms4 t) (hs4 t) scN (Memref.isWhole_whole _) scD (Memref.isWhole_whole _) (fun h => h0 ((hcond1 t).mp h)) (fun h => h7 ((hcond2 t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h7).trans rfl)

theorem outsAt_C (c : Dev nD) (t : Fin cfg0.N) (h0 : ¬t.val % 8 = 0) (h7 : t.val % 8 = 7) :
    outsAt m c t.val t.isLt = (outOC c (grid0.coords t) (ms0 t) (hs0 t) (ms1 t) (hs1 t) (ms2 t) (hs2 t) (ms3 t) (hs3 t) (ms4 t) (hs4 t) scN (Memref.isWhole_whole _) scD (Memref.isWhole_whole _) (fun h => h0 ((hcond1 t).mp h)) ((hcond2 t).mpr h7) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, outNC c (grid0.coords t) (ms0 t) (hs0 t) (ms1 t) (hs1 t) (ms2 t) (hs2 t) (ms3 t) (hs3 t) (ms4 t) (hs4 t) scN (Memref.isWhole_whole _) scD (Memref.isWhole_whole _) (fun h => h0 ((hcond1 t).mp h)) ((hcond2 t).mpr h7) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, outDC c (grid0.coords t) (ms0 t) (hs0 t) (ms1 t) (hs1 t) (ms2 t) (hs2 t) (ms3 t) (hs3 t) (ms4 t) (hs4 t) scN (Memref.isWhole_whole _) scD (Memref.isWhole_whole _) (fun h => h0 ((hcond1 t).mp h)) ((hcond2 t).mpr h7) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h7).trans rfl)

/-- The invariant before position `n`: before the first point both running sums at anything; afterwards each at
    what the point before left. -/
def PhiS (c : Dev nD) : (n : ℕ) → n ≤ cfg0.N → sProp 𝕄
  | 0, _ => iprop((∃ d, owns (c : Thread nD τ) scN fullShare d) ∗ (∃ d, owns (c : Thread nD τ) scD fullShare d))
  | n + 1, hn => iprop(owns (c : Thread nD τ) scN fullShare ((outsAt m c n hn).2.1) ∗ owns (c : Thread nD τ) scD fullShare ((outsAt m c n hn).2.2))

theorem PhiS_zero (c : Dev nD) (n : ℕ) (h : n ≤ cfg0.N) (hz : n = 0) :
    PhiS m c n h = iprop((∃ d, owns (c : Thread nD τ) scN fullShare d) ∗ (∃ d, owns (c : Thread nD τ) scD fullShare d)) := by
  subst hz; rfl

theorem PhiS_succ (c : Dev nD) (n : ℕ) (hn : n < cfg0.N) :
    PhiS m c (n + 1) hn = iprop(owns (c : Thread nD τ) scN fullShare ((outsAt m c n hn).2.1) ∗ owns (c : Thread nD τ) scD fullShare ((outsAt m c n hn).2.2)) := rfl

theorem PhiS_pos (c : Dev nD) (n : ℕ) (h : n ≤ cfg0.N) (hz : n ≠ 0) :
    PhiS m c n h = iprop(owns (c : Thread nD τ) scN fullShare ((outsAt m c (n - 1) (by omega)).2.1) ∗ owns (c : Thread nD τ) scD fullShare ((outsAt m c (n - 1) (by omega)).2.2)) := by
  cases n with
  | zero => exact absurd rfl hz
  | succ n => rfl

/-! ## The pipeline's proof data -/

/-- The proof data on core `c`: the arrays as the region finds them; after the body each input's buffer at its
    block and the output's at `outsAt`; the invariant `PhiS`; nothing owed. The two feature windows read ONE array:
    each holds half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.Kernel.Hand

end
-- ==== Proof.KBBody.lean ====
/-
  The supervised-contrastive kernel's frame, part three: the body's obligation. At every point the inputs'
  buffers hold their blocks; the point's position modulo 8 says which of the three cases it is in; that case's
  run applies, handing back the running sums at this point's contents and, at the last column block, the output
  block covered by the store.
-/
import proofs.«163814_j80650895884987_1_alg».proof.Proof.KBData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 8 = 0
  · have h7 : ¬t.val % 8 = 7 := by omega
    rw [Dat.leavesExact_idle (dats m 0 c) 4 t (idle4 t (fun h => h7 ((hcond2 t).mp h))) (noFlush4 t (fun h => h7 ((hcond2 t).mp h)))]
    rw [outsAt_A m c t h0 h7]
    unfold outNA outDA; (try dsimp only)
    by_cases hz : t.val = 0
    · rw [PhiS_castSucc m c t, PhiS_zero m c _ _ hz]
      iintro ⟨⟨HN, HD⟩, Ho, ⟨%d0, H0⟩, ⟨%d1, H1⟩, ⟨%d2, H2⟩, ⟨%d3, H3⟩, ⟨%d4, H4⟩⟩
      iapply ((runA c (grid0.coords t) (ms0 t) (hs0 t) (ms1 t) (hs1 t) (ms2 t) (hs2 t) (ms3 t) (hs3 t) (ms4 t) (hs4 t) scN (Memref.isWhole_whole _) scD (Memref.isWhole_whole _) ((hcond1 t).mpr h0) (fun h => h7 ((hcond2 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HN]; · iexact HN
      isplitl [HD]; · iexact HD
      iintro ⟨H0, H1, H2, H3, H4, ⟨%en, HN⟩, ⟨%ed, HD⟩⟩
      isplitl [HN HD]
      · isplitl [HN]
        · unfold owns; iexists _; isplitr
          swap; · iexact HN
          ipureintro; exact View.read_writes_of_cover _ _ _ _ _ (covNA c _ _ _ _ _ _ _ _ _ _ _ _ _ _ _ _ _ _ _ _ _)
        unfold owns; iexists _; isplitr
        swap; · iexact HD
        ipureintro; exact View.read_writes_of_cover _ _ _ _ _ (covDA c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HN, HD⟩, Ho, ⟨%d0, H0⟩, ⟨%d1, H1⟩, ⟨%d2, H2⟩, ⟨%d3, H3⟩, ⟨%d4, H4⟩⟩
      iapply ((runA c (grid0.coords t) (ms0 t) (hs0 t) (ms1 t) (hs1 t) (ms2 t) (hs2 t) (ms3 t) (hs3 t) (ms4 t) (hs4 t) scN (Memref.isWhole_whole _) scD (Memref.isWhole_whole _) ((hcond1 t).mpr h0) (fun h => h7 ((hcond2 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HN]; · iexists _; iexact HN
      isplitl [HD]; · iexists _; iexact HD
      iintro ⟨H0, H1, H2, H3, H4, ⟨%en, HN⟩, ⟨%ed, HD⟩⟩
      isplitl [HN HD]
      · isplitl [HN]
        · unfold owns; iexists _; isplitr
          swap; · iexact HN
          ipureintro; exact View.read_writes_of_cover _ _ _ _ _ (covNA c _ _ _ _ _ _ _ _ _ _ _ _ _ _ _ _ _ _ _ _ _)
        unfold owns; iexists _; isplitr
        swap; · iexact HD
        ipureintro; exact View.read_writes_of_cover _ _ _ _ _ (covDA c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h7 : t.val % 8 = 7
    · rw [show (dats m 0 c).leavesExact 4 t = owns (c : Thread nD τ) (ms4 t) fullShare ((dats m 0 c).after 4 t) from by
        unfold Dat.leavesExact; rw [live4 t ((hcond2 t).mpr h7)], after4]
      rw [outsAt_C m c t h0 h7]
      unfold outOC outNC outDC; (try dsimp only)
      rw [PhiS_castSucc m c t, PhiS_pos m c _ _ hz]
      iintro ⟨⟨HN, HD⟩, Ho, ⟨%d0, H0⟩, ⟨%d1, H1⟩, ⟨%d2, H2⟩, ⟨%d3, H3⟩, ⟨%d4, H4⟩⟩
      iapply ((runC c (grid0.coords t) (ms0 t) (hs0 t) (ms1 t) (hs1 t) (ms2 t) (hs2 t) (ms3 t) (hs3 t) (ms4 t) (hs4 t) scN (Memref.isWhole_whole _) scD (Memref.isWhole_whole _) (fun h => h0 ((hcond1 t).mp h)) ((hcond2 t).mpr h7) (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HN]; · iexact HN
      isplitl [HD]; · iexact HD
      iintro ⟨H0, H1, H2, H3, ⟨%e4, H4⟩, ⟨%en, HN⟩, ⟨%ed, HD⟩⟩
      isplitl [HN HD]
      · isplitl [HN]
        · unfold owns; iexists _; isplitr
          swap; · iexact HN
          ipureintro; exact View.read_writes_of_cover _ _ _ _ _ (covNC c _ _ _ _ _ _ _ _ _ _ _ _ _ _ _ _ _ _ _ _ _ _ _)
        unfold owns; iexists _; isplitr
        swap; · iexact HD
        ipureintro; exact View.read_writes_of_cover _ _ _ _ _ (covDC c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (covOC c _ _ _ _ _ _ _ _ _ _ _ _ _ _ _ _ _ _ _ _ _ _ _)
    · rw [Dat.leavesExact_idle (dats m 0 c) 4 t (idle4 t (fun h => h7 ((hcond2 t).mp h))) (noFlush4 t (fun h => h7 ((hcond2 t).mp h)))]
      rw [outsAt_B m c t h0 h7]
      unfold outNB outDB; (try dsimp only)
      rw [PhiS_castSucc m c t, PhiS_pos m c _ _ hz]
      iintro ⟨⟨HN, HD⟩, Ho, ⟨%d0, H0⟩, ⟨%d1, H1⟩, ⟨%d2, H2⟩, ⟨%d3, H3⟩, ⟨%d4, H4⟩⟩
      iapply ((runB c (grid0.coords t) (ms0 t) (hs0 t) (ms1 t) (hs1 t) (ms2 t) (hs2 t) (ms3 t) (hs3 t) (ms4 t) (hs4 t) scN (Memref.isWhole_whole _) scD (Memref.isWhole_whole _) (fun h => h0 ((hcond1 t).mp h)) (fun h => h7 ((hcond2 t).mp h)) (iblk m c 0 t) (iblk m c 1 t) (iblk m c 2 t) (iblk m c 3 t) _ _).2.2 _ Set.univ _)
      isplitl [H0]; · iexact H0
      isplitl [H1]; · iexact H1
      isplitl [H2]; · iexact H2
      isplitl [H3]; · iexact H3
      isplitl [H4]; · iexact H4
      isplitl [HN]; · iexact HN
      isplitl [HD]; · iexact HD
      iintro ⟨H0, H1, H2, H3, H4, ⟨%en, HN⟩, ⟨%ed, HD⟩⟩
      isplitl [HN HD]
      · isplitl [HN]
        · unfold owns; iexists _; isplitr
          swap; · iexact HN
          ipureintro; exact View.read_writes_of_cover _ _ _ _ _ (covNB c _ _ _ _ _ _ _ _ _ _ _ _ _ _ _ _ _ _ _ _ _ _ _)
        unfold owns; iexists _; isplitr
        swap; · iexact HD
        ipureintro; exact View.read_writes_of_cover _ _ _ _ _ (covDB c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBLaunch.lean ====
/-
  The supervised-contrastive kernel's frame, part four: the launch. @main is twelve host operations (the row
  normalisation and the label columns), the kernel region, and four host operations (the mean of the per-row
  losses); it is run as that list of three segments. The region's two feature windows read ONE array (the
  normalised features, once by row block and once by column block): its full share is dealt in two halves at
  the region's entry and joined again at its exit, where the array holds what it held. After the region the
  result array holds the blocks the last-column-block points wrote; the four closing operations run on that.
-/
import proofs.«163814_j80650895884987_1_alg».proof.Proof.KBBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is all of the certificate's. -/
abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The unscoped buffers when the region is left: as it found them, but the result array at what the write-backs
    made of it. -/
def V1 (c : Dev nD) : Valuation τ sig (Elt F) :=
  Function.update (VH m c) (Proc.devRef .tc main_v11) ((dats m 0 c).arrAt 4 cfg0.N)

theorem V1_v11 (c : Dev nD) : V1 m c (Proc.devRef .tc main_v11) = (dats m 0 c).arrAt 4 cfg0.N := by
  unfold V1; exact Function.update_self _ _ _
theorem V1_ne (c : Dev nD) (b : Ref sig .tc) (hb : b ≠ main_v11) : V1 m c (Proc.devRef .tc b) = VH m c (Proc.devRef .tc b) := by
  unfold V1; exact Function.update_of_ne (fun h => hb (Proc.devRef_injective _ h)) _ _

/-- The host operations after the region, over the unscoped buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (V1 m) R

/-- The buffers behind the windows' arrays, listed: the normalised features (read by two windows), the two label
    columns, the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v7) ↦{fullShare} W main_v7) ∗ (((c : Thread nD τ).loc main_v9) ↦{fullShare} W main_v9)
          ∗ (((c : Thread nD τ).loc main_v10) ↦{fullShare} W main_v10) ∗ (((c : Thread nD τ).loc main_v11) ↦{fullShare} W main_v11)) := by
  unfold Pipeline.arrBufs
  exact bigSep_eq_bigSepL_of_eq [main_v7, main_v9, main_v10, main_v11] (by decide) (by decide) _

/-- The pipeline's arrays, window by window at its share. -/
theorem arrays_eq5 (c : Dev nD) (G : (w : Fin cfg0.W) → Buf (Elt F) ((cfg0.win w).arr.view.loc (c : Thread nD τ))) :
    ((dats m 0 c).arrays G : sProp 𝕄)
      = iprop((((c : Thread nD τ).loc main_v7) ↦{fullShare.left} G 0) ∗ (((c : Thread nD τ).loc main_v7) ↦{fullShare.right} G 1)
          ∗ (((c : Thread nD τ).loc main_v9) ↦{fullShare} G 2) ∗ (((c : Thread nD τ).loc main_v10) ↦{fullShare} G 3)
          ∗ (((c : Thread nD τ).loc main_v11) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-! ## The region's entry and exit -/

/-- ENTRY: the buffers behind the arrays, each whole at the full share, make the pipeline's arrays at entry — the
    normalised features' full share dealt in two halves, one per feature window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq5]
  iintro ⟨H7, H9, H10, H11⟩
  ihave H7' := (pointsTo_share (PosShare.mem_left_op_right fullShare)).1 $$ H7
  icases H7' with ⟨H7l, H7r⟩
  isplitl [H7l]; · iexact H7l
  isplitl [H7r]; · iexact H7r
  isplitl [H9]; · iexact H9
  isplitl [H10]; · iexact H10
  iexact H11

/-- Off the windows' arrays the exit contents are the entry contents. -/
theorem rest_V1 (c : Dev nD) :
    (Pipeline.unscopedRest (Ix := Unit) (Name := ℕ) (U := UR sig nD τ) (Lvl := ℕ) spec0 c (fun b => V1 m c b) : sProp 𝕄)
      = Pipeline.unscopedRest spec0 c (V m c) := by
  unfold Pipeline.unscopedRest
  exact bigSep_congr fun b hb => by
    dsimp only
    rw [V1_ne m c b (fun h => (Finset.mem_sdiff.mp hb).2 (h ▸ Finset.mem_image.mpr ⟨4, Finset.mem_univ _, rfl⟩))]

/-- EXIT: the pipeline's arrays after the last point are the buffers behind them at the exit contents — the two
    halves of the normalised features, both still at the entry contents, joined. -/
theorem hjoin (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => V1 m c b) := by
  rw [arrBufs_eq, arrays_eq5]
  rw [V1_ne m c main_v7 (by decide), V1_ne m c main_v9 (by decide), V1_ne m c main_v10 (by decide), V1_v11]
  rw [(dats m 0 c).arrAt_in 0 rfl, (dats m 0 c).arrAt_in 1 rfl, (dats m 0 c).arrAt_in 2 rfl, (dats m 0 c).arrAt_in 3 rfl]
  iintro ⟨H7l, H7r, H9, H10, H11⟩
  ihave H7 := (pointsTo_share (f := V m c main_v7) (PosShare.mem_left_op_right fullShare)).2 $$ [H7l H7r]
  · isplitl [H7l]; · iexact H7l
    iexact H7r
  isplitl [H7]; · iexact H7
  isplitl [H9]; · iexact H9
  isplitl [H10]; · iexact H10
  iexact H11

-- `iapply` of a launch lemma stated over the pinned configuration unifies only when unification may unfold plain
-- definitions in a metavariable's type
set_option backward.isDefEq.respectTransparency.types false in
/-- THE REGION: the decided layout, no semaphore of the kernel's own, the body obligation; entered from what the
    opening host operations left, left with the result array at what the write-backs made of it. Nothing enters the
    invariant but the two running sums (scoped: they arrive with the region); every buffer no window stages bypasses it. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (VH m c) ∗ R c)
  post c := iprop(StableHlo.held (c : Thread nD τ) (Pipeline.ucRefs τ sig) (V1 m c) ∗ R c)
  X c := iprop(emp)
  Y c := iprop(emp)
  Z c := Pipeline.unscopedRest spec0 c (V m c)
  hentry c := by
    rw [show StableHlo.held (c : Thread nD τ) (Pipeline.ucRefs τ sig) (VH m c) = unscopedBufs c (V m c) from (Pipeline.unscopedBufs_held c _).symm]
    rw [Pipeline.unscopedBufs_split₀ cfgs 0 winFacts₀0.arr_unscoped c (V m c)]
    iintro ⟨⟨⟨Ha, Hr⟩, HO⟩, -, -⟩
    ihave Ha' := (hsplit m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = PhiS m c 0 (Nat.zero_le _) from rfl, PhiS_zero m c 0 _ rfl, ← scopedRest_owns]
    iintro ⟨-, -, Hr⟩; iexact Hr
  hout c := by
    rw [show (dats m 0 c).Φ (Fin.last cfg0.N) = PhiS m c (Fin.last cfg0.N).val (Nat.le_of_lt_succ (Fin.last cfg0.N).isLt) from rfl,
      PhiS_pos m c _ _ (by rw [Fin.val_last]; have : cfg0.N = 64 := N_0; omega), scopedRest_owns,
      Pipeline.ownSems0_none (nD := nD) (τ := τ) (sig := sig) (Ix := Unit) (Val := Elt F) (Name := ℕ) (U := UR sig nD τ) (Lvl := ℕ) c]
    iintro ⟨HN, HD⟩
    isplitr; · iempintro
    isplitr; · iempintro
    isplitl [HN]; · iexists _; iexact HN
    iexists _; iexact HD
  hexit c := by
    rw [show StableHlo.held (c : Thread nD τ) (Pipeline.ucRefs τ sig) (V1 m c) = unscopedBufs c (fun b => V1 m c b) from (Pipeline.unscopedBufs_held c _).symm]
    rw [Pipeline.unscopedBufs_split₀ cfgs 0 winFacts₀0.arr_unscoped c (fun b => V1 m c b), rest_V1]
    iintro ⟨Ha, HO, -, Hr⟩
    ihave Ha' := (hjoin m c) $$ Ha
    imodintro
    isplitr [HO]
    · isplitl [Ha']; · iexact Ha'
      iexact Hr
    · unfold Pipeline.Dat.owesAt Pipeline.owesWithin
      icases HO with ⟨%W, -, HO⟩; iexists W; iexact HO

/-! ## The run -/

/-- The launch element: the pipeline library's at the staging cells. -/
def u₀ : UR sig nD τ := initOf (Pipeline.cells cfgs cellOf_inj) (Pipeline.launchToks cfgs cellOf_inj)

/-- Every unscoped buffer of core `c` at the end: the closing host operations applied to what the region left. -/
def VEnd (c : Dev nD) : Valuation τ sig (Elt F) := StableHlo.after hostOps1 (V1 m c)

set_option backward.isDefEq.respectTransparency.types false in
/-- At the compiled mesh, from any memory with zero counters: every weakly fair execution of @main on the TensorCores
    terminates, nothing faulting, and every final state has every unscoped buffer at `VEnd`. -/
theorem run_main : θ_run defs (onTc (τ := τ) (main (F := F))) (s₀ m ρ)
    (fun r => ∀ c : Dev nD, ∀ b ∈ Pipeline.ucRefs τ sig, r.2.mem (((c : Thread nD τ)).1, b) = VEnd m c b) :=
  Pipeline.θ_run_regions_kit (pcfgs (F := F)) adm (dats m) () cellOf_inj EP defs₀ 𝒱₀ L lv m ρ main [.host (seg0 m), .region (reg0 m), .host (seg1 m)]
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (VEnd m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = VEnd m c b)
    (hfin := fun c s' => by
      unfold StableHlo.held
      iintro ⟨Hh, HSI⟩
      ihave Hr := (pointsTo_read_all (nD := nD) (τ := τ) (sig := sig) (Ix := Unit) (Val := Elt F) (Name := ℕ) (U := UR sig nD τ) (Lvl := ℕ) (Pipeline.ucRefs τ sig) (fun b => (((c : Thread nD τ)).1, b)) (VEnd m c) s') $$ [Hh HSI]
      · isplitl [Hh] <;> iassumption
      icases Hr with ⟨%ha, HSI⟩
      imodintro
      isplitr; · ipureintro; exact ha
      iexact HSI)
    (hQ := fun _ h => h)

/-! ## What the run's post says of the arguments and the result -/

theorem not_written0 (b : Ref sig .tc) (hb : b ≠ main_v0 ∧ b ≠ main_v1 ∧ b ≠ main_cst ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10) :
    ∀ op ∈ (hostOps0 : List (HloOp τ sig (Elt F))), Proc.devRef .tc b ∉ op.writes := by
  obtain ⟨h0, h1, h2, h3, h4, h5, h6, h7, h8, h9, h10, h11⟩ := hb
  intro op hop
  simp only [List.mem_cons, List.mem_nil_iff, or_false] at hop
  rcases hop with rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

theorem not_written1 (b : Ref sig .tc) (hb : b ≠ main_cst_0 ∧ b ≠ main_v12 ∧ b ≠ main_cst_1 ∧ b ≠ main_v13) :
    ∀ op ∈ (hostOps1 : List (HloOp τ sig (Elt F))), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.binary_writes, StableHlo.nullary_writes, StableHlo.reshape_writes, Finset.mem_singleton] <;>
    exact StableHlo.devRef_ne_of_ne ‹_›

theorem mem_ucRefs (b : Ref sig .tc) (hb : b.isScoped = false) : Proc.devRef .tc b ∈ Pipeline.ucRefs τ sig :=
  Finset.mem_filter.mpr ⟨Finset.mem_map.mpr ⟨b, Finset.mem_univ _, rfl⟩, by simp [hb]⟩

/-- An argument reaches the end as launched: no host operation writes it and it is no window's array. -/
theorem VEnd_arg (c : Dev nD) (b : Ref sig .tc) (h0 : b ≠ main_v0 ∧ b ≠ main_v1 ∧ b ≠ main_cst ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10)
    (h1 : b ≠ main_cst_0 ∧ b ≠ main_v12 ∧ b ≠ main_cst_1 ∧ b ≠ main_v13) (h11 : b ≠ main_v11) :
    VEnd m c (Proc.devRef .tc b) = m ((c : Thread nD τ).loc b) := by
  unfold VEnd
  rw [StableHlo.after_of_forall_not_mem hostOps1 _ (not_written1 b h1), V1_ne m c b h11]
  exact StableHlo.after_of_forall_not_mem hostOps0 (V₀ m c) (not_written0 b h0)

/-- THE FRAME: @main runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_ucRefs main_arg0 rfl)).trans (VEnd_arg m c main_arg0 (by decide) (by decide) (by decide)),
     (h c _ (mem_ucRefs main_arg1 rfl)).trans (VEnd_arg m c main_arg1 (by decide) (by decide) (by decide)),
     (h c _ (mem_ucRefs main_arg2 rfl)).trans (VEnd_arg m c main_arg2 (by decide) (by decide) (by decide))⟩) (run_main m ρ)

end Cert.Kernel.Hand

end
-- ==== Proof.KIShared.lean ====
/-
  The supervised-contrastive kernel's frame, part one: what every case of the body shares.

  The grid is 8 × 8: point t = (ri, ci) handles row block ri against column block ci. The body resets its two
  running sums (numerator, denominator: the scratch columns) at ci = 0, adds the block's masked and unmasked
  row sums at every point, and at ci = 7 writes the row block's losses into the output block. So a point is in
  one of three cases, by t mod 8: first column block (reset, no output), a middle one (neither), the last one
  (output stored). Here: the array contents the region finds (the host operations before it applied to the
  launch memory), a window's block read off them, the two conditions decided over the grid, where the output
  window is idle, and the scratch columns as owned memrefs.
-/
import proofs.«163814_j80650895884987_1_alg».proof.Proof.Gen.KernelIdeal.Launch
import proofs.«163814_j80650895884987_1_alg».proof.Proof.Gen.KernelIdeal.Skeleton
import proofs.«163814_j80650895884987_1_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev V₀ (c : Dev nD) : Valuation τ sig (Elt F) := fun b => m (c, b)
/-- after the twelve host operations before the region; -/
abbrev VH (c : Dev nD) : Valuation τ sig (Elt F) := StableHlo.after hostOps0 (V₀ m c)
/-- and the same read at a TensorCore reference. -/
abbrev V (c : Dev nD) (b : Ref sig .tc) : Buf (Elt F) ((c : Thread nD τ).loc b) := VH m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions, over the grid -/

/-- "This is the first column block" (the reset's condition), from the grid coordinates. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)

/-- "This is the last column block" (the output store's condition). -/
abbrev cond2 (i : grid0.Coords) : Prop := k0_cond2 i = 1#1
theorem hcond2 : ∀ t : Fin cfg0.N, cond2 (grid0.coords t) ↔ t.val % 8 = 7 :=
  (by decide +kernel : ∀ t : Fin grid0.N, cond2 (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Off the last column block the output window is idle and not written back; -/
theorem idle4 : ∀ t : Fin cfg0.N, ¬cond2 (grid0.coords t) → cfg0.idle 4 (grid0.coords t) = true := by decide +kernel
theorem noFlush4 : ∀ t : Fin cfg0.N, ¬cond2 (grid0.coords t) → (cfg0.win 4).flush t = false := by decide +kernel
/-- on it, live. -/
theorem live4 : ∀ t : Fin cfg0.N, cond2 (grid0.coords t) → cfg0.idle 4 (grid0.coords t) = false := by decide +kernel

/-! ## The memrefs the body is called with -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512 .f32 := win0_4.stage (cfg0.slots t 4)
abbrev hs4 (t : Fin cfg0.N) : (ms4 t).IsWhole := hstage0_4 ((cfg0.slots t 4).cast nbuf0_4)
/-- The two running sums: whole scoped buffers of the kernel's own. -/
abbrev scN : Memref sig .tc .vmem S512x1 .f32 := Memref.whole cc0_scratch0
abbrev scD : Memref sig .tc .vmem S512x1 .f32 := Memref.whole cc0_scratch1
/-- One staging buffer of the output window, and the scratch columns, as views through which contents are stated. -/
abbrev VO : View sig .tc .vmem S512 .f32 := (Memref.whole cc0_stg4_0 : Memref sig .tc .vmem S512 .f32).view
abbrev VN : View sig .tc .vmem S512x1 .f32 := (scN).view
abbrev VD : View sig .tc .vmem S512x1 .f32 := (scD).view

/-- The scoped buffers no window stages are the two running sums, each owned whole at some contents. -/
theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) scN fullShare d) ∗ (∃ d, owns (c : Thread nD τ) scD fullShare d)) := by
  rw [scopedRest0_eq]; simp only [scN, scD, owns_whole]; rfl

end Cert.KernelIdeal.Hand

end
-- ==== Proof.KIRunA.lean ====
/-
  The body at a point of the FIRST column block: it resets both running sums to zero, then adds this block's
  row sums. Whatever the running sums held before is overwritten, so they are taken at any contents.
-/
import proofs.«163814_j80650895884987_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces the first-block case leaves in the two running sums, with the body's triple. -/
noncomputable def runA (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : cond1 i) (hc2 : ¬cond2 i)
    (x0 : Vec F S512x512 .bf16) (x1 : Vec F S512x512 .bf16) (x2 : Vec F S512x1 .i32) (x3 : Vec F S1x512 .i32) :
    Σ' (LN : List (View.Piece (Elt F) S512x1 .f32)), { LD : List (View.Piece (Elt F) S512x1 .f32) //
      ∀ (xo : Vec F S512 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo
            ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xo
                ∗ (∃ f, a7.view.loc (c : Thread nD τ) ↦[a7.view.set]{fullShare} a7.view.writes (Elt F) f LN)
                ∗ (∃ f, a8.view.loc (c : Thread nD τ) ↦[a8.view.set]{fullShare} a8.view.writes (Elt F) f LD)) -∗ K ⟨⟩))
          ⊢ wp frame (wpE (defs₀ (F := F)) Variants.none c none) E (cc0__supcon_kernel i a2 ha2 a3 ha3 a4 ha4 a5 ha5 a6 ha6 a7 ha7 a8 ha8) K } := by
  refine ⟨?_, ?_, fun xo E K => ?run⟩
  case run =>
    rw [cc0__supcon_kernel_eq_skeleton]; unfold cc0__supcon_kernel_skel
    rw [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%dn, %fn, -, HN⟩, ⟨%dd, %fd, -, HD⟩, Hk⟩
    obtain rfl := ha2.eq_unread hf0; obtain rfl := ha3.eq_unread hf1; obtain rfl := ha4.eq_unread hf2
    obtain rfl := ha5.eq_unread hf3; obtain rfl := ha6.eq_unread hf4
    sl_exec (disch := first | exact hc1 | exact hc2)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [HN]
    · iexists _; iexact HN
    iexists _; iexact HD

end Cert.KernelIdeal.Hand

end
-- ==== Proof.KIRunB.lean ====
/-
  The body at a point of a MIDDLE column block (neither the first nor the last): it loads the two feature
  blocks, the two label blocks and both running sums, and stores each running sum plus this block's row sums.
  Stated on any whole memrefs: the inputs come back as they were, the output buffer untouched, and each running
  sum holds the pieces the stores wrote.
-/
import proofs.«163814_j80650895884987_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces the middle case leaves in the two running sums, with the body's triple. -/
noncomputable def runB (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : ¬cond2 i)
    (x0 : Vec F S512x512 .bf16) (x1 : Vec F S512x512 .bf16) (x2 : Vec F S512x1 .i32) (x3 : Vec F S1x512 .i32)
    (xn : Vec F S512x1 .f32) (xd : Vec F S512x1 .f32) :
    Σ' (LN : List (View.Piece (Elt F) S512x1 .f32)), { LD : List (View.Piece (Elt F) S512x1 .f32) //
      ∀ (xo : Vec F S512 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo
            ∗ owns (c : Thread nD τ) a7 fullShare xn ∗ owns (c : Thread nD τ) a8 fullShare xd
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xo
                ∗ (∃ f, a7.view.loc (c : Thread nD τ) ↦[a7.view.set]{fullShare} a7.view.writes (Elt F) f LN)
                ∗ (∃ f, a8.view.loc (c : Thread nD τ) ↦[a8.view.set]{fullShare} a8.view.writes (Elt F) f LD)) -∗ K ⟨⟩))
          ⊢ wp frame (wpE (defs₀ (F := F)) Variants.none c none) E (cc0__supcon_kernel i a2 ha2 a3 ha3 a4 ha4 a5 ha5 a6 ha6 a7 ha7 a8 ha8) K } := by
  refine ⟨?_, ?_, fun xo E K => ?run⟩
  case run =>
    rw [cc0__supcon_kernel_eq_skeleton]; unfold cc0__supcon_kernel_skel
    rw [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fn, %hfn, HN⟩, ⟨%fd, %hfd, HD⟩, Hk⟩
    obtain rfl := ha2.eq_unread hf0; obtain rfl := ha3.eq_unread hf1; obtain rfl := ha4.eq_unread hf2
    obtain rfl := ha5.eq_unread hf3; obtain rfl := ha6.eq_unread hf4; obtain rfl := ha7.eq_unread hfn; obtain rfl := ha8.eq_unread hfd
    sl_exec (disch := first | exact hc1 | exact hc2)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [HN]
    · iexists _; iexact HN
    iexists _; iexact HD

end Cert.KernelIdeal.Hand

end
-- ==== Proof.KIRunC.lean ====
/-
  The body at a point of the LAST column block: it adds this block's row sums to the running sums and then
  stores the row block's losses, computed from the finished sums, into the output block. The output buffer is
  taken at any contents: the store covers it.
-/
import proofs.«163814_j80650895884987_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces the last-block case leaves in the output block and the two running sums, with the body's triple. -/
noncomputable def runC (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i)
    (x0 : Vec F S512x512 .bf16) (x1 : Vec F S512x512 .bf16) (x2 : Vec F S512x1 .i32) (x3 : Vec F S1x512 .i32)
    (xn : Vec F S512x1 .f32) (xd : Vec F S512x1 .f32) :
    Σ' (LO : List (View.Piece (Elt F) S512 .f32)) (LN : List (View.Piece (Elt F) S512x1 .f32)), { LD : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d)
            ∗ owns (c : Thread nD τ) a7 fullShare xn ∗ owns (c : Thread nD τ) a8 fullShare xd
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LN)
                ∗ (∃ f, a8.view.loc (c : Thread nD τ) ↦[a8.view.set]{fullShare} a8.view.writes (Elt F) f LD)) -∗ K ⟨⟩))
          ⊢ wp frame (wpE (defs₀ (F := F)) Variants.none c none) E (cc0__supcon_kernel i a2 ha2 a3 ha3 a4 ha4 a5 ha5 a6 ha6 a7 ha7 a8 ha8) K } := by
  refine ⟨?_, ?_, ?_, fun E K => ?run⟩
  case run =>
    rw [cc0__supcon_kernel_eq_skeleton]; unfold cc0__supcon_kernel_skel
    rw [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fn, %hfn, HN⟩, ⟨%fd, %hfd, HD⟩, Hk⟩
    obtain rfl := ha2.eq_unread hf0; obtain rfl := ha3.eq_unread hf1; obtain rfl := ha4.eq_unread hf2
    obtain rfl := ha5.eq_unread hf3; obtain rfl := ha7.eq_unread hfn; obtain rfl := ha8.eq_unread hfd
    sl_exec (disch := first | exact hc1 | exact hc2)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; iexact H4
    isplitl [HN]
    · iexists _; iexact HN
    iexists _; iexact HD

end Cert.KernelIdeal.Hand

end
-- ==== Proof.KIData.lean ====
/-
  The supervised-contrastive kernel's frame, part two: what the buffers hold after each point, the proof data of
  the one pipeline, and the body's obligation at every point.

  After the body at point t the numerator and denominator columns hold the running sums over the column blocks
  0 … (t mod 8) of t's row block: the first-block case starts them, every later point adds to what the point
  before left. The output block is stored at the last column block only, from the finished sums; elsewhere the
  output window is idle and its buffer is handed back as it was found.
-/
import proofs.«163814_j80650895884987_1_alg».proof.Proof.KIRunA
import proofs.«163814_j80650895884987_1_alg».proof.Proof.KIRunB
import proofs.«163814_j80650895884987_1_alg».proof.Proof.KIRunC
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pieces case A writes into the numerator sums cover it. -/
theorem covNA (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : cond1 i) (hc2 : ¬cond2 i) (x0 : Vec F S512x512 .bf16) (x1 : Vec F S512x512 .bf16) (x2 : Vec F S512x1 .i32) (x3 : Vec F S1x512 .i32) (y : S512x1.Idx) :
    ∃ pc ∈ (runA c i a2 ha2 a3 ha3 a4 ha4 a5 ha5 a6 ha6 a7 ha7 a8 ha8 hc1 hc2 x0 x1 x2 x3).1, y ∈ pc.1.set :=
  View.cover_of_tiledL (runA c i a2 ha2 a3 ha3 a4 ha4 a5 ha5 a6 ha6 a7 ha7 a8 ha8 hc1 hc2 x0 x1 x2 x3).1 S512x1.size (by sl_kernel_rfl) y

/-- What case A leaves there: its pieces read back. -/
def outNA (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : cond1 i) (hc2 : ¬cond2 i) (x0 : Vec F S512x512 .bf16) (x1 : Vec F S512x512 .bf16) (x2 : Vec F S512x1 .i32) (x3 : Vec F S1x512 .i32) : Vec F S512x1 .f32 :=
  VN.read (Elt F) (VN.writes (Elt F) VN.junk (runA c i a2 ha2 a3 ha3 a4 ha4 a5 ha5 a6 ha6 a7 ha7 a8 ha8 hc1 hc2 x0 x1 x2 x3).1)

/-- The pieces case A writes into the denominator sums cover it. -/
theorem covDA (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : cond1 i) (hc2 : ¬cond2 i) (x0 : Vec F S512x512 .bf16) (x1 : Vec F S512x512 .bf16) (x2 : Vec F S512x1 .i32) (x3 : Vec F S1x512 .i32) (y : S512x1.Idx) :
    ∃ pc ∈ (runA c i a2 ha2 a3 ha3 a4 ha4 a5 ha5 a6 ha6 a7 ha7 a8 ha8 hc1 hc2 x0 x1 x2 x3).2.1, y ∈ pc.1.set :=
  View.cover_of_tiledL (runA c i a2 ha2 a3 ha3 a4 ha4 a5 ha5 a6 ha6 a7 ha7 a8 ha8 hc1 hc2 x0 x1 x2 x3).2.1 S512x1.size (by sl_kernel_rfl) y

/-- What case A leaves there: its pieces read back. -/
def outDA (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : cond1 i) (hc2 : ¬cond2 i) (x0 : Vec F S512x512 .bf16) (x1 : Vec F S512x512 .bf16) (x2 : Vec F S512x1 .i32) (x3 : Vec F S1x512 .i32) : Vec F S512x1 .f32 :=
  VD.read (Elt F) (VD.writes (Elt F) VD.junk (runA c i a2 ha2 a3 ha3 a4 ha4 a5 ha5 a6 ha6 a7 ha7 a8 ha8 hc1 hc2 x0 x1 x2 x3).2.1)

/-- The pieces case B writes into the numerator sums cover it. -/
theorem covNB (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : ¬cond2 i) (x0 : Vec F S512x512 .bf16) (x1 : Vec F S512x512 .bf16) (x2 : Vec F S512x1 .i32) (x3 : Vec F S1x512 .i32) (xn : Vec F S512x1 .f32) (xd : Vec F S512x1 .f32) (y : S512x1.Idx) :
    ∃ pc ∈ (runB c i a2 ha2 a3 ha3 a4 ha4 a5 ha5 a6 ha6 a7 ha7 a8 ha8 hc1 hc2 x0 x1 x2 x3 xn xd).1, y ∈ pc.1.set :=
  View.cover_of_tiledL (runB c i a2 ha2 a3 ha3 a4 ha4 a5 ha5 a6 ha6 a7 ha7 a8 ha8 hc1 hc2 x0 x1 x2 x3 xn xd).1 S512x1.size (by sl_kernel_rfl) y

/-- What case B leaves there: its pieces read back. -/
def outNB (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : ¬cond2 i) (x0 : Vec F S512x512 .bf16) (x1 : Vec F S512x512 .bf16) (x2 : Vec F S512x1 .i32) (x3 : Vec F S1x512 .i32) (xn : Vec F S512x1 .f32) (xd : Vec F S512x1 .f32) : Vec F S512x1 .f32 :=
  VN.read (Elt F) (VN.writes (Elt F) VN.junk (runB c i a2 ha2 a3 ha3 a4 ha4 a5 ha5 a6 ha6 a7 ha7 a8 ha8 hc1 hc2 x0 x1 x2 x3 xn xd).1)

/-- The pieces case B writes into the denominator sums cover it. -/
theorem covDB (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : ¬cond2 i) (x0 : Vec F S512x512 .bf16) (x1 : Vec F S512x512 .bf16) (x2 : Vec F S512x1 .i32) (x3 : Vec F S1x512 .i32) (xn : Vec F S512x1 .f32) (xd : Vec F S512x1 .f32) (y : S512x1.Idx) :
    ∃ pc ∈ (runB c i a2 ha2 a3 ha3 a4 ha4 a5 ha5 a6 ha6 a7 ha7 a8 ha8 hc1 hc2 x0 x1 x2 x3 xn xd).2.1, y ∈ pc.1.set :=
  View.cover_of_tiledL (runB c i a2 ha2 a3 ha3 a4 ha4 a5 ha5 a6 ha6 a7 ha7 a8 ha8 hc1 hc2 x0 x1 x2 x3 xn xd).2.1 S512x1.size (by sl_kernel_rfl) y

/-- What case B leaves there: its pieces read back. -/
def outDB (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : ¬cond2 i) (x0 : Vec F S512x512 .bf16) (x1 : Vec F S512x512 .bf16) (x2 : Vec F S512x1 .i32) (x3 : Vec F S1x512 .i32) (xn : Vec F S512x1 .f32) (xd : Vec F S512x1 .f32) : Vec F S512x1 .f32 :=
  VD.read (Elt F) (VD.writes (Elt F) VD.junk (runB c i a2 ha2 a3 ha3 a4 ha4 a5 ha5 a6 ha6 a7 ha7 a8 ha8 hc1 hc2 x0 x1 x2 x3 xn xd).2.1)

/-- The pieces case C writes into the output block cover it. -/
theorem covOC (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i) (x0 : Vec F S512x512 .bf16) (x1 : Vec F S512x512 .bf16) (x2 : Vec F S512x1 .i32) (x3 : Vec F S1x512 .i32) (xn : Vec F S512x1 .f32) (xd : Vec F S512x1 .f32) (y : S512.Idx) :
    ∃ pc ∈ (runC c i a2 ha2 a3 ha3 a4 ha4 a5 ha5 a6 ha6 a7 ha7 a8 ha8 hc1 hc2 x0 x1 x2 x3 xn xd).1, y ∈ pc.1.set :=
  View.cover_of_tiledL (runC c i a2 ha2 a3 ha3 a4 ha4 a5 ha5 a6 ha6 a7 ha7 a8 ha8 hc1 hc2 x0 x1 x2 x3 xn xd).1 S512.size (by sl_kernel_rfl) y

/-- What case C leaves there: its pieces read back. -/
def outOC (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i) (x0 : Vec F S512x512 .bf16) (x1 : Vec F S512x512 .bf16) (x2 : Vec F S512x1 .i32) (x3 : Vec F S1x512 .i32) (xn : Vec F S512x1 .f32) (xd : Vec F S512x1 .f32) : Vec F S512 .f32 :=
  VO.read (Elt F) (VO.writes (Elt F) VO.junk (runC c i a2 ha2 a3 ha3 a4 ha4 a5 ha5 a6 ha6 a7 ha7 a8 ha8 hc1 hc2 x0 x1 x2 x3 xn xd).1)

/-- The pieces case C writes into the numerator sums cover it. -/
theorem covNC (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i) (x0 : Vec F S512x512 .bf16) (x1 : Vec F S512x512 .bf16) (x2 : Vec F S512x1 .i32) (x3 : Vec F S1x512 .i32) (xn : Vec F S512x1 .f32) (xd : Vec F S512x1 .f32) (y : S512x1.Idx) :
    ∃ pc ∈ (runC c i a2 ha2 a3 ha3 a4 ha4 a5 ha5 a6 ha6 a7 ha7 a8 ha8 hc1 hc2 x0 x1 x2 x3 xn xd).2.1, y ∈ pc.1.set :=
  View.cover_of_tiledL (runC c i a2 ha2 a3 ha3 a4 ha4 a5 ha5 a6 ha6 a7 ha7 a8 ha8 hc1 hc2 x0 x1 x2 x3 xn xd).2.1 S512x1.size (by sl_kernel_rfl) y

/-- What case C leaves there: its pieces read back. -/
def outNC (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i) (x0 : Vec F S512x512 .bf16) (x1 : Vec F S512x512 .bf16) (x2 : Vec F S512x1 .i32) (x3 : Vec F S1x512 .i32) (xn : Vec F S512x1 .f32) (xd : Vec F S512x1 .f32) : Vec F S512x1 .f32 :=
  VN.read (Elt F) (VN.writes (Elt F) VN.junk (runC c i a2 ha2 a3 ha3 a4 ha4 a5 ha5 a6 ha6 a7 ha7 a8 ha8 hc1 hc2 x0 x1 x2 x3 xn xd).2.1)

/-- The pieces case C writes into the denominator sums cover it. -/
theorem covDC (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i) (x0 : Vec F S512x512 .bf16) (x1 : Vec F S512x512 .bf16) (x2 : Vec F S512x1 .i32) (x3 : Vec F S1x512 .i32) (xn : Vec F S512x1 .f32) (xd : Vec F S512x1 .f32) (y : S512x1.Idx) :
    ∃ pc ∈ (runC c i a2 ha2 a3 ha3 a4 ha4 a5 ha5 a6 ha6 a7 ha7 a8 ha8 hc1 hc2 x0 x1 x2 x3 xn xd).2.2.1, y ∈ pc.1.set :=
  View.cover_of_tiledL (runC c i a2 ha2 a3 ha3 a4 ha4 a5 ha5 a6 ha6 a7 ha7 a8 ha8 hc1 hc2 x0 x1 x2 x3 xn xd).2.2.1 S512x1.size (by sl_kernel_rfl) y

/-- What case C leaves there: its pieces read back. -/
def outDC (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i) (x0 : Vec F S512x512 .bf16) (x1 : Vec F S512x512 .bf16) (x2 : Vec F S512x1 .i32) (x3 : Vec F S1x512 .i32) (xn : Vec F S512x1 .f32) (xd : Vec F S512x1 .f32) : Vec F S512x1 .f32 :=
  VD.read (Elt F) (VD.writes (Elt F) VD.junk (runC c i a2 ha2 a3 ha3 a4 ha4 a5 ha5 a6 ha6 a7 ha7 a8 ha8 hc1 hc2 x0 x1 x2 x3 xn xd).2.2.1)

/-! ## What the buffers hold after each point -/

/-- The output block, the numerator sums and the denominator sums after the body at position `n`: the case the
    position is in (by `n mod 8`), run on the point's input blocks and, past the first column block, on the sums the
    position before left. Where the output window is idle its component is a placeholder nothing reads. -/
def outsAt (c : Dev nD) : (n : ℕ) → n < cfg0.N → Vec F S512 .f32 × Vec F S512x1 .f32 × Vec F S512x1 .f32
  | 0, hn => (VO.read (Elt F) VO.junk, outNA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scN (Memref.isWhole_whole _) scD (Memref.isWhole_whole _) ((hcond1 ⟨0, hn⟩).mpr (Nat.zero_mod _)) (fun h => (fun h => by (try dsimp only at h); omega) ((hcond2 ⟨0, hn⟩).mp h)) (iblk m c 0 ⟨0, hn⟩) (iblk m c 1 ⟨0, hn⟩) (iblk m c 2 ⟨0, hn⟩) (iblk m c 3 ⟨0, hn⟩), outDA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scN (Memref.isWhole_whole _) scD (Memref.isWhole_whole _) ((hcond1 ⟨0, hn⟩).mpr (Nat.zero_mod _)) (fun h => (fun h => by (try dsimp only at h); omega) ((hcond2 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h7 : (n + 1) % 8 = 7 then
        False.elim (by omega)
      else
        (VO.read (Elt F) VO.junk, outNA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) ((hcond1 ⟨n + 1, hn⟩).mpr h0) (fun h => h7 ((hcond2 ⟨n + 1, hn⟩).mp h)) (iblk m c 0 ⟨n + 1, hn⟩) (iblk m c 1 ⟨n + 1, hn⟩) (iblk m c 2 ⟨n + 1, hn⟩) (iblk m c 3 ⟨n + 1, hn⟩), outDA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) ((hcond1 ⟨n + 1, hn⟩).mpr h0) (fun h => h7 ((hcond2 ⟨n + 1, hn⟩).mp h)) (iblk m c 0 ⟨n + 1, hn⟩) (iblk m c 1 ⟨n + 1, hn⟩) (iblk m c 2 ⟨n + 1, hn⟩) (iblk m c 3 ⟨n + 1, hn⟩))
    else
      if h7 : (n + 1) % 8 = 7 then
        (outOC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) (fun h => h0 ((hcond1 ⟨n + 1, hn⟩).mp h)) ((hcond2 ⟨n + 1, hn⟩).mpr h7) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, outNC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) (fun h => h0 ((hcond1 ⟨n + 1, hn⟩).mp h)) ((hcond2 ⟨n + 1, hn⟩).mpr h7) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, outDC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) (fun h => h0 ((hcond1 ⟨n + 1, hn⟩).mp h)) ((hcond2 ⟨n + 1, hn⟩).mpr h7) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)
      else
        (VO.read (Elt F) VO.junk, outNB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) (fun h => h0 ((hcond1 ⟨n + 1, hn⟩).mp h)) (fun h => h7 ((hcond2 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, outDB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) (fun h => h0 ((hcond1 ⟨n + 1, hn⟩).mp h)) (fun h => h7 ((hcond2 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)

theorem outsAt_A (c : Dev nD) (t : Fin cfg0.N) (h0 : t.val % 8 = 0) (h7 : ¬t.val % 8 = 7) :
    outsAt m c t.val t.isLt = (VO.read (Elt F) VO.junk, outNA c (grid0.coords t) (ms0 t) (hs0 t) (ms1 t) (hs1 t) (ms2 t) (hs2 t) (ms3 t) (hs3 t) (ms4 t) (hs4 t) scN (Memref.isWhole_whole _) scD (Memref.isWhole_whole _) ((hcond1 t).mpr h0) (fun h => h7 ((hcond2 t).mp h)) (iblk m c 0 t) (iblk m c 1 t) (iblk m c 2 t) (iblk m c 3 t), outDA c (grid0.coords t) (ms0 t) (hs0 t) (ms1 t) (hs1 t) (ms2 t) (hs2 t) (ms3 t) (hs3 t) (ms4 t) (hs4 t) scN (Memref.isWhole_whole _) scD (Memref.isWhole_whole _) ((hcond1 t).mpr h0) (fun h => h7 ((hcond2 t).mp h)) (iblk m c 0 t) (iblk m c 1 t) (iblk m c 2 t) (iblk m c 3 t)) := by
  obtain ⟨n, hn⟩ := t
  cases n with
  | zero => exact rfl
  | succ n => exact (dif_pos h0).trans ((dif_neg h7).trans rfl)

theorem outsAt_B (c : Dev nD) (t : Fin cfg0.N) (h0 : ¬t.val % 8 = 0) (h7 : ¬t.val % 8 = 7) :
    outsAt m c t.val t.isLt = (VO.read (Elt F) VO.junk, outNB c (grid0.coords t) (ms0 t) (hs0 t) (ms1 t) (hs1 t) (ms2 t) (hs2 t) (ms3 t) (hs3 t) (ms4 t) (hs4 t) scN (Memref.isWhole_whole _) scD (Memref.isWhole_whole _) (fun h => h0 ((hcond1 t).mp h)) (fun h => h7 ((hcond2 t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, outDB c (grid0.coords t) (ms0 t) (hs0 t) (ms1 t) (hs1 t) (ms2 t) (hs2 t) (ms3 t) (hs3 t) (ms4 t) (hs4 t) scN (Memref.isWhole_whole _) scD (Memref.isWhole_whole _) (fun h => h0 ((hcond1 t).mp h)) (fun h => h7 ((hcond2 t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h7).trans rfl)

theorem outsAt_C (c : Dev nD) (t : Fin cfg0.N) (h0 : ¬t.val % 8 = 0) (h7 : t.val % 8 = 7) :
    outsAt m c t.val t.isLt = (outOC c (grid0.coords t) (ms0 t) (hs0 t) (ms1 t) (hs1 t) (ms2 t) (hs2 t) (ms3 t) (hs3 t) (ms4 t) (hs4 t) scN (Memref.isWhole_whole _) scD (Memref.isWhole_whole _) (fun h => h0 ((hcond1 t).mp h)) ((hcond2 t).mpr h7) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, outNC c (grid0.coords t) (ms0 t) (hs0 t) (ms1 t) (hs1 t) (ms2 t) (hs2 t) (ms3 t) (hs3 t) (ms4 t) (hs4 t) scN (Memref.isWhole_whole _) scD (Memref.isWhole_whole _) (fun h => h0 ((hcond1 t).mp h)) ((hcond2 t).mpr h7) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, outDC c (grid0.coords t) (ms0 t) (hs0 t) (ms1 t) (hs1 t) (ms2 t) (hs2 t) (ms3 t) (hs3 t) (ms4 t) (hs4 t) scN (Memref.isWhole_whole _) scD (Memref.isWhole_whole _) (fun h => h0 ((hcond1 t).mp h)) ((hcond2 t).mpr h7) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h7).trans rfl)

/-- The invariant before position `n`: before the first point both running sums at anything; afterwards each at
    what the point before left. -/
def PhiS (c : Dev nD) : (n : ℕ) → n ≤ cfg0.N → sProp 𝕄
  | 0, _ => iprop((∃ d, owns (c : Thread nD τ) scN fullShare d) ∗ (∃ d, owns (c : Thread nD τ) scD fullShare d))
  | n + 1, hn => iprop(owns (c : Thread nD τ) scN fullShare ((outsAt m c n hn).2.1) ∗ owns (c : Thread nD τ) scD fullShare ((outsAt m c n hn).2.2))

theorem PhiS_zero (c : Dev nD) (n : ℕ) (h : n ≤ cfg0.N) (hz : n = 0) :
    PhiS m c n h = iprop((∃ d, owns (c : Thread nD τ) scN fullShare d) ∗ (∃ d, owns (c : Thread nD τ) scD fullShare d)) := by
  subst hz; rfl

theorem PhiS_succ (c : Dev nD) (n : ℕ) (hn : n < cfg0.N) :
    PhiS m c (n + 1) hn = iprop(owns (c : Thread nD τ) scN fullShare ((outsAt m c n hn).2.1) ∗ owns (c : Thread nD τ) scD fullShare ((outsAt m c n hn).2.2)) := rfl

theorem PhiS_pos (c : Dev nD) (n : ℕ) (h : n ≤ cfg0.N) (hz : n ≠ 0) :
    PhiS m c n h = iprop(owns (c : Thread nD τ) scN fullShare ((outsAt m c (n - 1) (by omega)).2.1) ∗ owns (c : Thread nD τ) scD fullShare ((outsAt m c (n - 1) (by omega)).2.2)) := by
  cases n with
  | zero => exact absurd rfl hz
  | succ n => rfl

/-! ## The pipeline's proof data -/

/-- The proof data on core `c`: the arrays as the region finds them; after the body each input's buffer at its
    block and the output's at `outsAt`; the invariant `PhiS`; nothing owed. The two feature windows read ONE array:
    each holds half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.KernelIdeal.Hand

end
-- ==== Proof.KIBody.lean ====
/-
  The supervised-contrastive kernel's frame, part three: the body's obligation. At every point the inputs'
  buffers hold their blocks; the point's position modulo 8 says which of the three cases it is in; that case's
  run applies, handing back the running sums at this point's contents and, at the last column block, the output
  block covered by the store.
-/
import proofs.«163814_j80650895884987_1_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 8 = 0
  · have h7 : ¬t.val % 8 = 7 := by omega
    rw [Dat.leavesExact_idle (dats m 0 c) 4 t (idle4 t (fun h => h7 ((hcond2 t).mp h))) (noFlush4 t (fun h => h7 ((hcond2 t).mp h)))]
    rw [outsAt_A m c t h0 h7]
    unfold outNA outDA; (try dsimp only)
    by_cases hz : t.val = 0
    · rw [PhiS_castSucc m c t, PhiS_zero m c _ _ hz]
      iintro ⟨⟨HN, HD⟩, Ho, ⟨%d0, H0⟩, ⟨%d1, H1⟩, ⟨%d2, H2⟩, ⟨%d3, H3⟩, ⟨%d4, H4⟩⟩
      iapply ((runA c (grid0.coords t) (ms0 t) (hs0 t) (ms1 t) (hs1 t) (ms2 t) (hs2 t) (ms3 t) (hs3 t) (ms4 t) (hs4 t) scN (Memref.isWhole_whole _) scD (Memref.isWhole_whole _) ((hcond1 t).mpr h0) (fun h => h7 ((hcond2 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HN]; · iexact HN
      isplitl [HD]; · iexact HD
      iintro ⟨H0, H1, H2, H3, H4, ⟨%en, HN⟩, ⟨%ed, HD⟩⟩
      isplitl [HN HD]
      · isplitl [HN]
        · unfold owns; iexists _; isplitr
          swap; · iexact HN
          ipureintro; exact View.read_writes_of_cover _ _ _ _ _ (covNA c _ _ _ _ _ _ _ _ _ _ _ _ _ _ _ _ _ _ _ _ _)
        unfold owns; iexists _; isplitr
        swap; · iexact HD
        ipureintro; exact View.read_writes_of_cover _ _ _ _ _ (covDA c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HN, HD⟩, Ho, ⟨%d0, H0⟩, ⟨%d1, H1⟩, ⟨%d2, H2⟩, ⟨%d3, H3⟩, ⟨%d4, H4⟩⟩
      iapply ((runA c (grid0.coords t) (ms0 t) (hs0 t) (ms1 t) (hs1 t) (ms2 t) (hs2 t) (ms3 t) (hs3 t) (ms4 t) (hs4 t) scN (Memref.isWhole_whole _) scD (Memref.isWhole_whole _) ((hcond1 t).mpr h0) (fun h => h7 ((hcond2 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HN]; · iexists _; iexact HN
      isplitl [HD]; · iexists _; iexact HD
      iintro ⟨H0, H1, H2, H3, H4, ⟨%en, HN⟩, ⟨%ed, HD⟩⟩
      isplitl [HN HD]
      · isplitl [HN]
        · unfold owns; iexists _; isplitr
          swap; · iexact HN
          ipureintro; exact View.read_writes_of_cover _ _ _ _ _ (covNA c _ _ _ _ _ _ _ _ _ _ _ _ _ _ _ _ _ _ _ _ _)
        unfold owns; iexists _; isplitr
        swap; · iexact HD
        ipureintro; exact View.read_writes_of_cover _ _ _ _ _ (covDA c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h7 : t.val % 8 = 7
    · rw [show (dats m 0 c).leavesExact 4 t = owns (c : Thread nD τ) (ms4 t) fullShare ((dats m 0 c).after 4 t) from by
        unfold Dat.leavesExact; rw [live4 t ((hcond2 t).mpr h7)], after4]
      rw [outsAt_C m c t h0 h7]
      unfold outOC outNC outDC; (try dsimp only)
      rw [PhiS_castSucc m c t, PhiS_pos m c _ _ hz]
      iintro ⟨⟨HN, HD⟩, Ho, ⟨%d0, H0⟩, ⟨%d1, H1⟩, ⟨%d2, H2⟩, ⟨%d3, H3⟩, ⟨%d4, H4⟩⟩
      iapply ((runC c (grid0.coords t) (ms0 t) (hs0 t) (ms1 t) (hs1 t) (ms2 t) (hs2 t) (ms3 t) (hs3 t) (ms4 t) (hs4 t) scN (Memref.isWhole_whole _) scD (Memref.isWhole_whole _) (fun h => h0 ((hcond1 t).mp h)) ((hcond2 t).mpr h7) (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HN]; · iexact HN
      isplitl [HD]; · iexact HD
      iintro ⟨H0, H1, H2, H3, ⟨%e4, H4⟩, ⟨%en, HN⟩, ⟨%ed, HD⟩⟩
      isplitl [HN HD]
      · isplitl [HN]
        · unfold owns; iexists _; isplitr
          swap; · iexact HN
          ipureintro; exact View.read_writes_of_cover _ _ _ _ _ (covNC c _ _ _ _ _ _ _ _ _ _ _ _ _ _ _ _ _ _ _ _ _ _ _)
        unfold owns; iexists _; isplitr
        swap; · iexact HD
        ipureintro; exact View.read_writes_of_cover _ _ _ _ _ (covDC c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (covOC c _ _ _ _ _ _ _ _ _ _ _ _ _ _ _ _ _ _ _ _ _ _ _)
    · rw [Dat.leavesExact_idle (dats m 0 c) 4 t (idle4 t (fun h => h7 ((hcond2 t).mp h))) (noFlush4 t (fun h => h7 ((hcond2 t).mp h)))]
      rw [outsAt_B m c t h0 h7]
      unfold outNB outDB; (try dsimp only)
      rw [PhiS_castSucc m c t, PhiS_pos m c _ _ hz]
      iintro ⟨⟨HN, HD⟩, Ho, ⟨%d0, H0⟩, ⟨%d1, H1⟩, ⟨%d2, H2⟩, ⟨%d3, H3⟩, ⟨%d4, H4⟩⟩
      iapply ((runB c (grid0.coords t) (ms0 t) (hs0 t) (ms1 t) (hs1 t) (ms2 t) (hs2 t) (ms3 t) (hs3 t) (ms4 t) (hs4 t) scN (Memref.isWhole_whole _) scD (Memref.isWhole_whole _) (fun h => h0 ((hcond1 t).mp h)) (fun h => h7 ((hcond2 t).mp h)) (iblk m c 0 t) (iblk m c 1 t) (iblk m c 2 t) (iblk m c 3 t) _ _).2.2 _ Set.univ _)
      isplitl [H0]; · iexact H0
      isplitl [H1]; · iexact H1
      isplitl [H2]; · iexact H2
      isplitl [H3]; · iexact H3
      isplitl [H4]; · iexact H4
      isplitl [HN]; · iexact HN
      isplitl [HD]; · iexact HD
      iintro ⟨H0, H1, H2, H3, H4, ⟨%en, HN⟩, ⟨%ed, HD⟩⟩
      isplitl [HN HD]
      · isplitl [HN]
        · unfold owns; iexists _; isplitr
          swap; · iexact HN
          ipureintro; exact View.read_writes_of_cover _ _ _ _ _ (covNB c _ _ _ _ _ _ _ _ _ _ _ _ _ _ _ _ _ _ _ _ _ _ _)
        unfold owns; iexists _; isplitr
        swap; · iexact HD
        ipureintro; exact View.read_writes_of_cover _ _ _ _ _ (covDB c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
/-
  The supervised-contrastive kernel's frame, part four: the launch. @main is twelve host operations (the row
  normalisation and the label columns), the kernel region, and four host operations (the mean of the per-row
  losses); it is run as that list of three segments. The region's two feature windows read ONE array (the
  normalised features, once by row block and once by column block): its full share is dealt in two halves at
  the region's entry and joined again at its exit, where the array holds what it held. After the region the
  result array holds the blocks the last-column-block points wrote; the four closing operations run on that.
-/
import proofs.«163814_j80650895884987_1_alg».proof.Proof.KIBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline library's algebra is all of the certificate's. -/
abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The unscoped buffers when the region is left: as it found them, but the result array at what the write-backs
    made of it. -/
def V1 (c : Dev nD) : Valuation τ sig (Elt F) :=
  Function.update (VH m c) (Proc.devRef .tc main_v11) ((dats m 0 c).arrAt 4 cfg0.N)

theorem V1_v11 (c : Dev nD) : V1 m c (Proc.devRef .tc main_v11) = (dats m 0 c).arrAt 4 cfg0.N := by
  unfold V1; exact Function.update_self _ _ _
theorem V1_ne (c : Dev nD) (b : Ref sig .tc) (hb : b ≠ main_v11) : V1 m c (Proc.devRef .tc b) = VH m c (Proc.devRef .tc b) := by
  unfold V1; exact Function.update_of_ne (fun h => hb (Proc.devRef_injective _ h)) _ _

/-- The host operations after the region, over the unscoped buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (V1 m) R

/-- The buffers behind the windows' arrays, listed: the normalised features (read by two windows), the two label
    columns, the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v7) ↦{fullShare} W main_v7) ∗ (((c : Thread nD τ).loc main_v9) ↦{fullShare} W main_v9)
          ∗ (((c : Thread nD τ).loc main_v10) ↦{fullShare} W main_v10) ∗ (((c : Thread nD τ).loc main_v11) ↦{fullShare} W main_v11)) := by
  unfold Pipeline.arrBufs
  exact bigSep_eq_bigSepL_of_eq [main_v7, main_v9, main_v10, main_v11] (by decide) (by decide) _

/-- The pipeline's arrays, window by window at its share. -/
theorem arrays_eq5 (c : Dev nD) (G : (w : Fin cfg0.W) → Buf (Elt F) ((cfg0.win w).arr.view.loc (c : Thread nD τ))) :
    ((dats m 0 c).arrays G : sProp 𝕄)
      = iprop((((c : Thread nD τ).loc main_v7) ↦{fullShare.left} G 0) ∗ (((c : Thread nD τ).loc main_v7) ↦{fullShare.right} G 1)
          ∗ (((c : Thread nD τ).loc main_v9) ↦{fullShare} G 2) ∗ (((c : Thread nD τ).loc main_v10) ↦{fullShare} G 3)
          ∗ (((c : Thread nD τ).loc main_v11) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-! ## The region's entry and exit -/

/-- ENTRY: the buffers behind the arrays, each whole at the full share, make the pipeline's arrays at entry — the
    normalised features' full share dealt in two halves, one per feature window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq5]
  iintro ⟨H7, H9, H10, H11⟩
  ihave H7' := (pointsTo_share (PosShare.mem_left_op_right fullShare)).1 $$ H7
  icases H7' with ⟨H7l, H7r⟩
  isplitl [H7l]; · iexact H7l
  isplitl [H7r]; · iexact H7r
  isplitl [H9]; · iexact H9
  isplitl [H10]; · iexact H10
  iexact H11

/-- Off the windows' arrays the exit contents are the entry contents. -/
theorem rest_V1 (c : Dev nD) :
    (Pipeline.unscopedRest (Ix := Unit) (Name := ℕ) (U := UR sig nD τ) (Lvl := ℕ) spec0 c (fun b => V1 m c b) : sProp 𝕄)
      = Pipeline.unscopedRest spec0 c (V m c) := by
  unfold Pipeline.unscopedRest
  exact bigSep_congr fun b hb => by
    dsimp only
    rw [V1_ne m c b (fun h => (Finset.mem_sdiff.mp hb).2 (h ▸ Finset.mem_image.mpr ⟨4, Finset.mem_univ _, rfl⟩))]

/-- EXIT: the pipeline's arrays after the last point are the buffers behind them at the exit contents — the two
    halves of the normalised features, both still at the entry contents, joined. -/
theorem hjoin (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => V1 m c b) := by
  rw [arrBufs_eq, arrays_eq5]
  rw [V1_ne m c main_v7 (by decide), V1_ne m c main_v9 (by decide), V1_ne m c main_v10 (by decide), V1_v11]
  rw [(dats m 0 c).arrAt_in 0 rfl, (dats m 0 c).arrAt_in 1 rfl, (dats m 0 c).arrAt_in 2 rfl, (dats m 0 c).arrAt_in 3 rfl]
  iintro ⟨H7l, H7r, H9, H10, H11⟩
  ihave H7 := (pointsTo_share (f := V m c main_v7) (PosShare.mem_left_op_right fullShare)).2 $$ [H7l H7r]
  · isplitl [H7l]; · iexact H7l
    iexact H7r
  isplitl [H7]; · iexact H7
  isplitl [H9]; · iexact H9
  isplitl [H10]; · iexact H10
  iexact H11

-- `iapply` of a launch lemma stated over the pinned configuration unifies only when unification may unfold plain
-- definitions in a metavariable's type
set_option backward.isDefEq.respectTransparency.types false in
/-- THE REGION: the decided layout, no semaphore of the kernel's own, the body obligation; entered from what the
    opening host operations left, left with the result array at what the write-backs made of it. Nothing enters the
    invariant but the two running sums (scoped: they arrive with the region); every buffer no window stages bypasses it. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (VH m c) ∗ R c)
  post c := iprop(StableHlo.held (c : Thread nD τ) (Pipeline.ucRefs τ sig) (V1 m c) ∗ R c)
  X c := iprop(emp)
  Y c := iprop(emp)
  Z c := Pipeline.unscopedRest spec0 c (V m c)
  hentry c := by
    rw [show StableHlo.held (c : Thread nD τ) (Pipeline.ucRefs τ sig) (VH m c) = unscopedBufs c (V m c) from (Pipeline.unscopedBufs_held c _).symm]
    rw [Pipeline.unscopedBufs_split₀ cfgs 0 winFacts₀0.arr_unscoped c (V m c)]
    iintro ⟨⟨⟨Ha, Hr⟩, HO⟩, -, -⟩
    ihave Ha' := (hsplit m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = PhiS m c 0 (Nat.zero_le _) from rfl, PhiS_zero m c 0 _ rfl, ← scopedRest_owns]
    iintro ⟨-, -, Hr⟩; iexact Hr
  hout c := by
    rw [show (dats m 0 c).Φ (Fin.last cfg0.N) = PhiS m c (Fin.last cfg0.N).val (Nat.le_of_lt_succ (Fin.last cfg0.N).isLt) from rfl,
      PhiS_pos m c _ _ (by rw [Fin.val_last]; have : cfg0.N = 64 := N_0; omega), scopedRest_owns,
      Pipeline.ownSems0_none (nD := nD) (τ := τ) (sig := sig) (Ix := Unit) (Val := Elt F) (Name := ℕ) (U := UR sig nD τ) (Lvl := ℕ) c]
    iintro ⟨HN, HD⟩
    isplitr; · iempintro
    isplitr; · iempintro
    isplitl [HN]; · iexists _; iexact HN
    iexists _; iexact HD
  hexit c := by
    rw [show StableHlo.held (c : Thread nD τ) (Pipeline.ucRefs τ sig) (V1 m c) = unscopedBufs c (fun b => V1 m c b) from (Pipeline.unscopedBufs_held c _).symm]
    rw [Pipeline.unscopedBufs_split₀ cfgs 0 winFacts₀0.arr_unscoped c (fun b => V1 m c b), rest_V1]
    iintro ⟨Ha, HO, -, Hr⟩
    ihave Ha' := (hjoin m c) $$ Ha
    imodintro
    isplitr [HO]
    · isplitl [Ha']; · iexact Ha'
      iexact Hr
    · unfold Pipeline.Dat.owesAt Pipeline.owesWithin
      icases HO with ⟨%W, -, HO⟩; iexists W; iexact HO

/-! ## The run -/

/-- The launch element: the pipeline library's at the staging cells. -/
def u₀ : UR sig nD τ := initOf (Pipeline.cells cfgs cellOf_inj) (Pipeline.launchToks cfgs cellOf_inj)

/-- Every unscoped buffer of core `c` at the end: the closing host operations applied to what the region left. -/
def VEnd (c : Dev nD) : Valuation τ sig (Elt F) := StableHlo.after hostOps1 (V1 m c)

set_option backward.isDefEq.respectTransparency.types false in
/-- At the compiled mesh, from any memory with zero counters: every weakly fair execution of @main on the TensorCores
    terminates, nothing faulting, and every final state has every unscoped buffer at `VEnd`. -/
theorem run_main : θ_run defs (onTc (τ := τ) (main (F := F))) (s₀ m ρ)
    (fun r => ∀ c : Dev nD, ∀ b ∈ Pipeline.ucRefs τ sig, r.2.mem (((c : Thread nD τ)).1, b) = VEnd m c b) :=
  Pipeline.θ_run_regions_kit (pcfgs (F := F)) adm (dats m) () cellOf_inj EP defs₀ 𝒱₀ L lv m ρ main [.host (seg0 m), .region (reg0 m), .host (seg1 m)]
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (VEnd m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = VEnd m c b)
    (hfin := fun c s' => by
      unfold StableHlo.held
      iintro ⟨Hh, HSI⟩
      ihave Hr := (pointsTo_read_all (nD := nD) (τ := τ) (sig := sig) (Ix := Unit) (Val := Elt F) (Name := ℕ) (U := UR sig nD τ) (Lvl := ℕ) (Pipeline.ucRefs τ sig) (fun b => (((c : Thread nD τ)).1, b)) (VEnd m c) s') $$ [Hh HSI]
      · isplitl [Hh] <;> iassumption
      icases Hr with ⟨%ha, HSI⟩
      imodintro
      isplitr; · ipureintro; exact ha
      iexact HSI)
    (hQ := fun _ h => h)

/-! ## What the run's post says of the arguments and the result -/

theorem not_written0 (b : Ref sig .tc) (hb : b ≠ main_v0 ∧ b ≠ main_v1 ∧ b ≠ main_cst ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10) :
    ∀ op ∈ (hostOps0 : List (HloOp τ sig (Elt F))), Proc.devRef .tc b ∉ op.writes := by
  obtain ⟨h0, h1, h2, h3, h4, h5, h6, h7, h8, h9, h10, h11⟩ := hb
  intro op hop
  simp only [List.mem_cons, List.mem_nil_iff, or_false] at hop
  rcases hop with rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

theorem not_written1 (b : Ref sig .tc) (hb : b ≠ main_cst_0 ∧ b ≠ main_v12 ∧ b ≠ main_cst_1 ∧ b ≠ main_v13) :
    ∀ op ∈ (hostOps1 : List (HloOp τ sig (Elt F))), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.binary_writes, StableHlo.nullary_writes, StableHlo.reshape_writes, Finset.mem_singleton] <;>
    exact StableHlo.devRef_ne_of_ne ‹_›

theorem mem_ucRefs (b : Ref sig .tc) (hb : b.isScoped = false) : Proc.devRef .tc b ∈ Pipeline.ucRefs τ sig :=
  Finset.mem_filter.mpr ⟨Finset.mem_map.mpr ⟨b, Finset.mem_univ _, rfl⟩, by simp [hb]⟩

/-- An argument reaches the end as launched: no host operation writes it and it is no window's array. -/
theorem VEnd_arg (c : Dev nD) (b : Ref sig .tc) (h0 : b ≠ main_v0 ∧ b ≠ main_v1 ∧ b ≠ main_cst ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10)
    (h1 : b ≠ main_cst_0 ∧ b ≠ main_v12 ∧ b ≠ main_cst_1 ∧ b ≠ main_v13) (h11 : b ≠ main_v11) :
    VEnd m c (Proc.devRef .tc b) = m ((c : Thread nD τ).loc b) := by
  unfold VEnd
  rw [StableHlo.after_of_forall_not_mem hostOps1 _ (not_written1 b h1), V1_ne m c b h11]
  exact StableHlo.after_of_forall_not_mem hostOps0 (V₀ m c) (not_written0 b h0)

/-- THE FRAME: @main runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_ucRefs main_arg0 rfl)).trans (VEnd_arg m c main_arg0 (by decide) (by decide) (by decide)),
     (h c _ (mem_ucRefs main_arg1 rfl)).trans (VEnd_arg m c main_arg1 (by decide) (by decide) (by decide)),
     (h c _ (mem_ucRefs main_arg2 rfl)).trans (VEnd_arg m c main_arg2 (by decide) (by decide) (by decide))⟩) (run_main m ρ)

end Cert.KernelIdeal.Hand

end
-- ==== Proof.KIPieces.lean ====
/-
  The supervised-contrastive kernel's frame, part five: what each case's stores leave, as the body's own
  arithmetic. Every store of the body covers its whole buffer, so what a buffer holds after a case is the payload of
  the last store into it: the running sums plus this block's row sums (from zero, at the first column block), and at
  the last column block the losses computed from the finished sums.
-/
import proofs.«163814_j80650895884987_1_alg».proof.Proof.KIData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a <;> rfl

theorem outNB_eq (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : ¬cond2 i) (x0 : Vec F S512x512 .bf16) (x1 : Vec F S512x512 .bf16) (x2 : Vec F S512x1 .i32) (x3 : Vec F S1x512 .i32) (xn : Vec F S512x1 .f32) (xd : Vec F S512x1 .f32) :
    outNB c i a2 ha2 a3 ha3 a4 ha4 a5 ha5 a6 ha6 a7 ha7 a8 ha8 hc1 hc2 x0 x1 x2 x3 xn xd = k0_pay1 (k0_pay7 i x0 x1 x2 x3 xn) := by
  unfold outNB
  rw [View.read_writes_eq_canon _ _ _ (covNB c i a2 ha2 a3 ha3 a4 ha4 a5 ha5 a6 ha6 a7 ha7 a8 ha8 hc1 hc2 x0 x1 x2 x3 xn xd)]
  unfold runB
  dsimp only
  sl_unfold_words
  rw [View.canon_unit_zero hz2]
  simp only [View.readAt_eq_ld, ha2.read_unread, ha3.read_unread, ha4.read_unread, ha5.read_unread, ha6.read_unread, ha7.read_unread, ha8.read_unread,
    View.ld_unit_zero (S := S512x512) hz2, View.ld_unit_zero (S := S512x1) hz2, View.ld_unit_zero (S := S1x512) hz2, View.ld_unit_zero (S := S512) hz1,
    View.readCov_unit_zero (S := S512x1) _ hz2]

theorem outDB_eq (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : ¬cond2 i) (x0 : Vec F S512x512 .bf16) (x1 : Vec F S512x512 .bf16) (x2 : Vec F S512x1 .i32) (x3 : Vec F S1x512 .i32) (xn : Vec F S512x1 .f32) (xd : Vec F S512x1 .f32) :
    outDB c i a2 ha2 a3 ha3 a4 ha4 a5 ha5 a6 ha6 a7 ha7 a8 ha8 hc1 hc2 x0 x1 x2 x3 xn xd = k0_pay2 (k0_pay6 x0 x1) xd := by
  unfold outDB
  rw [View.read_writes_eq_canon _ _ _ (covDB c i a2 ha2 a3 ha3 a4 ha4 a5 ha5 a6 ha6 a7 ha7 a8 ha8 hc1 hc2 x0 x1 x2 x3 xn xd)]
  unfold runB
  dsimp only
  sl_unfold_words
  rw [View.canon_unit_zero hz2]
  simp only [View.readAt_eq_ld, ha2.read_unread, ha3.read_unread, ha4.read_unread, ha5.read_unread, ha6.read_unread, ha7.read_unread, ha8.read_unread,
    View.ld_unit_zero (S := S512x512) hz2, View.ld_unit_zero (S := S512x1) hz2, View.ld_unit_zero (S := S1x512) hz2, View.ld_unit_zero (S := S512) hz1,
    View.readCov_unit_zero (S := S512x1) _ hz2]

theorem outNC_eq (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i) (x0 : Vec F S512x512 .bf16) (x1 : Vec F S512x512 .bf16) (x2 : Vec F S512x1 .i32) (x3 : Vec F S1x512 .i32) (xn : Vec F S512x1 .f32) (xd : Vec F S512x1 .f32) :
    outNC c i a2 ha2 a3 ha3 a4 ha4 a5 ha5 a6 ha6 a7 ha7 a8 ha8 hc1 hc2 x0 x1 x2 x3 xn xd = k0_pay1 (k0_pay7 i x0 x1 x2 x3 xn) := by
  unfold outNC
  rw [View.read_writes_eq_canon _ _ _ (covNC c i a2 ha2 a3 ha3 a4 ha4 a5 ha5 a6 ha6 a7 ha7 a8 ha8 hc1 hc2 x0 x1 x2 x3 xn xd)]
  unfold runC
  dsimp only
  sl_unfold_words
  rw [View.canon_unit_zero hz2]
  simp only [View.readAt_eq_ld, ha2.read_unread, ha3.read_unread, ha4.read_unread, ha5.read_unread, ha6.read_unread, ha7.read_unread, ha8.read_unread,
    View.ld_unit_zero (S := S512x512) hz2, View.ld_unit_zero (S := S512x1) hz2, View.ld_unit_zero (S := S1x512) hz2, View.ld_unit_zero (S := S512) hz1,
    View.readCov_unit_zero (S := S512x1) _ hz2]

theorem outDC_eq (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i) (x0 : Vec F S512x512 .bf16) (x1 : Vec F S512x512 .bf16) (x2 : Vec F S512x1 .i32) (x3 : Vec F S1x512 .i32) (xn : Vec F S512x1 .f32) (xd : Vec F S512x1 .f32) :
    outDC c i a2 ha2 a3 ha3 a4 ha4 a5 ha5 a6 ha6 a7 ha7 a8 ha8 hc1 hc2 x0 x1 x2 x3 xn xd = k0_pay2 (k0_pay6 x0 x1) xd := by
  unfold outDC
  rw [View.read_writes_eq_canon _ _ _ (covDC c i a2 ha2 a3 ha3 a4 ha4 a5 ha5 a6 ha6 a7 ha7 a8 ha8 hc1 hc2 x0 x1 x2 x3 xn xd)]
  unfold runC
  dsimp only
  sl_unfold_words
  rw [View.canon_unit_zero hz2]
  simp only [View.readAt_eq_ld, ha2.read_unread, ha3.read_unread, ha4.read_unread, ha5.read_unread, ha6.read_unread, ha7.read_unread, ha8.read_unread,
    View.ld_unit_zero (S := S512x512) hz2, View.ld_unit_zero (S := S512x1) hz2, View.ld_unit_zero (S := S1x512) hz2, View.ld_unit_zero (S := S512) hz1,
    View.readCov_unit_zero (S := S512x1) _ hz2]

theorem outOC_eq (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : ¬cond1 i) (hc2 : cond2 i) (x0 : Vec F S512x512 .bf16) (x1 : Vec F S512x512 .bf16) (x2 : Vec F S512x1 .i32) (x3 : Vec F S1x512 .i32) (xn : Vec F S512x1 .f32) (xd : Vec F S512x1 .f32) :
    outOC c i a2 ha2 a3 ha3 a4 ha4 a5 ha5 a6 ha6 a7 ha7 a8 ha8 hc1 hc2 x0 x1 x2 x3 xn xd = k0_pay3 (k0_pay1 (k0_pay7 i x0 x1 x2 x3 xn)) (k0_pay2 (k0_pay6 x0 x1) xd) := by
  unfold outOC
  rw [View.read_writes_eq_canon _ _ _ (covOC c i a2 ha2 a3 ha3 a4 ha4 a5 ha5 a6 ha6 a7 ha7 a8 ha8 hc1 hc2 x0 x1 x2 x3 xn xd)]
  unfold runC
  dsimp only
  sl_unfold_words
  rw [View.canon_unit_zero hz1]
  simp only [View.readAt_eq_ld, ha2.read_unread, ha3.read_unread, ha4.read_unread, ha5.read_unread, ha6.read_unread, ha7.read_unread, ha8.read_unread,
    View.ld_unit_zero (S := S512x512) hz2, View.ld_unit_zero (S := S512x1) hz2, View.ld_unit_zero (S := S1x512) hz2, View.ld_unit_zero (S := S512) hz1,
    View.readCov_unit_zero (S := S512x1) _ hz2]

theorem outNA_eq (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : cond1 i) (hc2 : ¬cond2 i) (x0 : Vec F S512x512 .bf16) (x1 : Vec F S512x512 .bf16) (x2 : Vec F S512x1 .i32) (x3 : Vec F S1x512 .i32) :
    outNA c i a2 ha2 a3 ha3 a4 ha4 a5 ha5 a6 ha6 a7 ha7 a8 ha8 hc1 hc2 x0 x1 x2 x3 = k0_pay1 (k0_pay7 i x0 x1 x2 x3 (k0_pay4 (F := F))) := by
  unfold outNA
  rw [View.read_writes_eq_canon _ _ _ (covNA c i a2 ha2 a3 ha3 a4 ha4 a5 ha5 a6 ha6 a7 ha7 a8 ha8 hc1 hc2 x0 x1 x2 x3)]
  unfold runA
  dsimp only
  sl_unfold_words
  rw [View.canon_cons_unit_zero hz2]
  simp only [View.readAt_eq_ld, ha2.read_unread, ha3.read_unread, ha4.read_unread, ha5.read_unread, ha6.read_unread, ha7.read_unread, ha8.read_unread,
    View.ld_unit_zero (S := S512x512) hz2, View.ld_unit_zero (S := S512x1) hz2, View.ld_unit_zero (S := S1x512) hz2, View.ld_unit_zero (S := S512) hz1,
    View.readCov_unit_zero (S := S512x1) _ hz2]

theorem outDA_eq (c : Dev nD) (i : grid0.Coords) (a2 : Memref sig .tc .vmem S512x512 .bf16) (ha2 : a2.IsWhole) (a3 : Memref sig .tc .vmem S512x512 .bf16) (ha3 : a3.IsWhole) (a4 : Memref sig .tc .vmem S512x1 .i32) (ha4 : a4.IsWhole) (a5 : Memref sig .tc .vmem S1x512 .i32) (ha5 : a5.IsWhole) (a6 : Memref sig .tc .vmem S512 .f32) (ha6 : a6.IsWhole) (a7 : Memref sig .tc .vmem S512x1 .f32) (ha7 : a7.IsWhole) (a8 : Memref sig .tc .vmem S512x1 .f32) (ha8 : a8.IsWhole) (hc1 : cond1 i) (hc2 : ¬cond2 i) (x0 : Vec F S512x512 .bf16) (x1 : Vec F S512x512 .bf16) (x2 : Vec F S512x1 .i32) (x3 : Vec F S1x512 .i32) :
    outDA c i a2 ha2 a3 ha3 a4 ha4 a5 ha5 a6 ha6 a7 ha7 a8 ha8 hc1 hc2 x0 x1 x2 x3 = k0_pay2 (k0_pay6 x0 x1) (k0_pay5 (F := F)) := by
  unfold outDA
  rw [View.read_writes_eq_canon _ _ _ (covDA c i a2 ha2 a3 ha3 a4 ha4 a5 ha5 a6 ha6 a7 ha7 a8 ha8 hc1 hc2 x0 x1 x2 x3)]
  unfold runA
  dsimp only
  sl_unfold_words
  rw [View.canon_cons_unit_zero hz2]
  simp only [View.readAt_eq_ld, ha2.read_unread, ha3.read_unread, ha4.read_unread, ha5.read_unread, ha6.read_unread, ha7.read_unread, ha8.read_unread,
    View.ld_unit_zero (S := S512x512) hz2, View.ld_unit_zero (S := S512x1) hz2, View.ld_unit_zero (S := S1x512) hz2, View.ld_unit_zero (S := S512) hz1,
    View.readCov_unit_zero (S := S512x1) _ hz2]

end Cert.KernelIdeal.Hand

end
-- ==== Proof.Spec.lean ====
/-
  The supervised contrastive loss, stated over plain coordinates on the extended reals.

  The 2048 rows of each of the two feature arrays are stacked into 4096 rows of 512 entries, and every row is
  divided by its Euclidean norm. The similarity of rows r and c is their inner product; its exponential after
  division by the temperature is the weight e r c. Row r's numerator sums the weights of the columns that carry
  r's label and are not r itself, its denominator sums every column's weight, and its loss is minus the logarithm
  of their stabilised quotient. The result is the mean of the 4096 losses.

  Every operation is the exact one on the extended reals: the quotients are `Ideal.div`, the square root,
  exponential and logarithm are `Ideal.sqrt`, `Ideal.exp`, `Ideal.log`. The float literals (the temperature, the
  stabiliser, the count 4096) stay as the words they are spelt with; a sum's initial zero is absorbed
  (0 + s = s), so each sum below is the bare sum.
-/
import Idealize.ShloMosaic.PureOps.Ideal
import Idealize.ShloMosaic.Lib.ValueIdx

noncomputable section

open scoped BigOperators

namespace Cert.Spec

open Idealize.ShloMosaic Idealize.ShloMosaic.ValueIdx

/-- Entry (r, k) of the two feature arrays stacked: rows 0 … 2047 are the first array's, rows 2048 … 4095 the
    second's, 2048 rows down. -/
def z0 (a0 a1 : (⟨2, ![2048, 512]⟩ : Shape).Idx → EReal) (r : Fin 4096) (k : Fin 512) : EReal :=
  if h : r.val < 2048 then a0 (ix2 (⟨r.val, h⟩ : Fin 2048) k)
  else a1 (ix2 (⟨r.val - 2048, by have := r.isLt; omega⟩ : Fin 2048) k)

/-- The Euclidean norm of stacked row r: the square root of the sum of the squares of its 512 entries. -/
def nrm (a0 a1 : (⟨2, ![2048, 512]⟩ : Shape).Idx → EReal) (r : Fin 4096) : EReal :=
  Ideal.sqrt (∑ k : Fin 512, z0 a0 a1 r k * z0 a0 a1 r k)

/-- Entry (r, k) of the normalised rows: the stacked entry divided by its row's norm. -/
def z (a0 a1 : (⟨2, ![2048, 512]⟩ : Shape).Idx → EReal) (r : Fin 4096) (k : Fin 512) : EReal :=
  Ideal.div (z0 a0 a1 r k) (nrm a0 a1 r)

/-- The label of stacked row r: the labels repeated, row r and row r + 2048 carrying the same one. -/
def lab2 (lab : (⟨1, ![2048]⟩ : Shape).Idx → BitVec 32) (r : Fin 4096) : BitVec 32 :=
  if h : r.val < 2048 then lab (ix1 (⟨r.val, h⟩ : Fin 2048))
  else lab (ix1 (⟨r.val - 2048, by have := r.isLt; omega⟩ : Fin 2048))

/-- The similarity of rows r and c: the inner product of the two normalised rows. -/
def sim (a0 a1 : (⟨2, ![2048, 512]⟩ : Shape).Idx → EReal) (r c : Fin 4096) : EReal :=
  ∑ k : Fin 512, z a0 a1 r k * z a0 a1 c k

/-- The weight of the pair (r, c): the exponential of the similarity divided by the temperature, the f32 word
    0x3D8F5C29 (the float nearest 0.07). -/
def e (a0 a1 : (⟨2, ![2048, 512]⟩ : Shape).Idx → EReal) (r c : Fin 4096) : EReal :=
  Ideal.exp (Ideal.div (sim a0 a1 r c) (Ideal.ofBits .f32 0x3D8F5C29#32))

/-- Column c is a positive of row r: the two rows carry the same label and are different rows. -/
def mask (lab : (⟨1, ![2048]⟩ : Shape).Idx → BitVec 32) (r c : Fin 4096) : Prop :=
  lab2 lab r = lab2 lab c ∧ r ≠ c

instance (lab : (⟨1, ![2048]⟩ : Shape).Idx → BitVec 32) (r c : Fin 4096) : Decidable (mask lab r c) :=
  inferInstanceAs (Decidable (_ ∧ _))

/-- Row r's numerator: the sum of the weights of its positives (the other columns count as 0). -/
def num (a0 a1 : (⟨2, ![2048, 512]⟩ : Shape).Idx → EReal) (lab : (⟨1, ![2048]⟩ : Shape).Idx → BitVec 32)
    (r : Fin 4096) : EReal :=
  ∑ c : Fin 4096, if mask lab r c then e a0 a1 r c else 0

/-- Row r's denominator: the sum of the weights of all 4096 columns, r itself among them. -/
def den (a0 a1 : (⟨2, ![2048, 512]⟩ : Shape).Idx → EReal) (r : Fin 4096) : EReal :=
  ∑ c : Fin 4096, e a0 a1 r c

/-- Row r's loss: minus the logarithm of numerator over (denominator + ε), plus ε; ε is the f32 word
    0x322BCC77 (the float nearest 1e-8). -/
def loss (a0 a1 : (⟨2, ![2048, 512]⟩ : Shape).Idx → EReal) (lab : (⟨1, ![2048]⟩ : Shape).Idx → BitVec 32)
    (r : Fin 4096) : EReal :=
  -(Ideal.log (Ideal.div (num a0 a1 lab r) (den a0 a1 r + Ideal.ofBits .f32 0x322BCC77#32)
      + Ideal.ofBits .f32 0x322BCC77#32))

/-- The result: the sum of the 4096 rows' losses divided by the f32 word 0x45800000 (4096.0). -/
def result (a0 a1 : (⟨2, ![2048, 512]⟩ : Shape).Idx → EReal) (lab : (⟨1, ![2048]⟩ : Shape).Idx → BitVec 32) : EReal :=
  Ideal.div (∑ r : Fin 4096, loss a0 a1 lab r) (Ideal.ofBits .f32 0x45800000#32)

end Cert.Spec

end
-- ==== Proof.LibBlockSum.lean ====
/-
  GENERAL LEMMAS (Mathlib only; no program is imported).

  A sum over the first `n * b` naturals taken block by block: the index is `b * s + k` with `s < n` the block and
  `k < b` the place inside it. Only commutativity and associativity of `+` are used, so the law holds in every
  commutative additive monoid, the extended reals (with their two infinities) included. It is what joins a
  contraction accumulated in `n` blocks of `b` places with the same contraction taken whole.
-/
import Mathlib.Algebra.BigOperators.Fin

namespace Cert.BlockSum

open Finset

/-- `∑_{s < n} ∑_{k < b} f (b·s + k) = ∑_{K < n·b} f K`: by induction on the number of blocks, the last block split off
    the end of the range. -/
theorem sum_range_blocks {M : Type*} [AddCommMonoid M] (b : ℕ) (f : ℕ → M) :
    ∀ n : ℕ, ∑ s ∈ range n, ∑ k ∈ range b, f (b * s + k) = ∑ K ∈ range (n * b), f K
  | 0 => by simp
  | n + 1 => by
    rw [sum_range_succ, sum_range_blocks b f n, Nat.succ_mul, sum_range_add, Nat.mul_comm b n]

/-- A sum over `Fin n` of a function of the index's value is the sum over the first `n` naturals. -/
theorem sum_fin_eq_range {M : Type*} [AddCommMonoid M] (n : ℕ) (f : ℕ → M) :
    ∑ k : Fin n, f k.val = ∑ k ∈ range n, f k :=
  Fin.sum_univ_eq_sum_range f n

end Cert.BlockSum
-- ==== Proof.Algebra.lean ====
/-
  Laws on the extended reals that join a sum accumulated block by block with the whole sum, a division by the
  temperature with the product by its reciprocal, and a subtraction from zero with a negation.

  Only commutativity and associativity of + are used for the sums, so no finiteness is asked of the summands: the
  laws hold at the two infinities too. The temperature's word 0x3D8F5C29 denotes the dyadic rational
  9395241 / 2^27 (sign 0, exponent field 123, significand 2^23 + 1006633), which is not zero, so dividing by it is
  multiplying by 134217728 / 9395241 on every extended real.
-/
import Idealize.ShloMosaic.PureOps.Ideal
import proofs.«163814_j80650895884987_1_alg».proof.Proof.LibBlockSum

noncomputable section

open scoped BigOperators

namespace Cert.Spec

open Idealize.ShloMosaic Finset

/-! ## A sum over 4096 columns taken in 8 blocks of 512 -/

section Blocks
variable {M : Type*} [AddCommMonoid M]

/-- A function of the 4096 columns continued by zero to every natural number. -/
def ext (f : Fin 4096 → M) (n : ℕ) : M := if h : n < 4096 then f ⟨n, h⟩ else 0

/-- The sum of f over the columns below 512·j: what the first j blocks contribute. -/
def partialSum (f : Fin 4096 → M) (j : ℕ) : M := ∑ n ∈ range (512 * j), ext f n

/-- No block contributes nothing. -/
theorem partialSum_zero (f : Fin 4096 → M) : partialSum f 0 = 0 := by
  simp [partialSum]

/-- One more block adds the sum of f over that block's 512 columns, column 512·j + c' for c' below 512. -/
theorem partialSum_succ (f : Fin 4096 → M) (j : ℕ) (hj : j < 8) :
    partialSum f (j + 1)
      = partialSum f j + ∑ c' : Fin 512, f ⟨512 * j + c'.val, by have := c'.isLt; omega⟩ := by
  unfold partialSum
  rw [Nat.mul_succ, sum_range_add, ← Cert.BlockSum.sum_fin_eq_range 512 (fun k => ext f (512 * j + k))]
  refine congrArg (_ + ·) (Finset.sum_congr rfl fun c' _ => ?_)
  have hlt : 512 * j + c'.val < 4096 := by have := c'.isLt; omega
  simp only [ext, dif_pos hlt]

/-- The same with the block's sum started from zero, as an accumulation step spells it. -/
theorem partialSum_succ_zero_add (f : Fin 4096 → M) (j : ℕ) (hj : j < 8) :
    partialSum f (j + 1)
      = partialSum f j + (0 + ∑ c' : Fin 512, f ⟨512 * j + c'.val, by have := c'.isLt; omega⟩) := by
  rw [zero_add]; exact partialSum_succ f j hj

/-- All eight blocks give the whole sum. -/
theorem partialSum_eight (f : Fin 4096 → M) : partialSum f 8 = ∑ c : Fin 4096, f c := by
  unfold partialSum
  rw [← Cert.BlockSum.sum_fin_eq_range (512 * 8) (ext f)]
  exact Finset.sum_congr rfl fun c _ => by simp only [ext, dif_pos c.isLt]

/-- … and the whole sum started from zero. -/
theorem partialSum_eight_zero_add (f : Fin 4096 → M) : partialSum f 8 = 0 + ∑ c : Fin 4096, f c := by
  rw [zero_add]; exact partialSum_eight f

/-- The accumulation a_0 = x0, a_{j+1} = a_j + (0 + the j-th block's sum) holds x0 plus the first j blocks' sum at
    every j up to 8 … -/
theorem acc_eq_partialSum (f : Fin 4096 → M) (x0 : M) (a : ℕ → M) (h0 : a 0 = x0)
    (hs : ∀ j (hj : j < 8), a (j + 1)
      = a j + (0 + ∑ c' : Fin 512, f ⟨512 * j + c'.val, by have := c'.isLt; omega⟩)) :
    ∀ j, j ≤ 8 → a j = x0 + partialSum f j
  | 0, _ => by rw [h0, partialSum_zero, add_zero]
  | j + 1, hj => by
    rw [hs j (by omega), acc_eq_partialSum f x0 a h0 hs j (by omega), partialSum_succ_zero_add f j (by omega),
      add_assoc]

/-- … hence x0 plus the whole sum at 8. -/
theorem acc_eight (f : Fin 4096 → M) (x0 : M) (a : ℕ → M) (h0 : a 0 = x0)
    (hs : ∀ j (hj : j < 8), a (j + 1)
      = a j + (0 + ∑ c' : Fin 512, f ⟨512 * j + c'.val, by have := c'.isLt; omega⟩)) :
    a 8 = x0 + ∑ c : Fin 4096, f c := by
  rw [acc_eq_partialSum f x0 a h0 hs 8 le_rfl, partialSum_eight]

/-- The first j blocks' sum is the sum of f over the columns whose number is below 512·j. -/
theorem partialSum_eq_sum_filter (f : Fin 4096 → M) (j : ℕ) (hj : j ≤ 8) :
    partialSum f j = ∑ c : Fin 4096, if c.val < 512 * j then f c else 0 := by
  unfold partialSum
  have e : ∀ c : Fin 4096, (if c.val < 512 * j then f c else 0)
      = (fun n => if n < 512 * j then ext f n else 0) c.val := fun c => by
    simp only [ext, dif_pos c.isLt]
  rw [Finset.sum_congr rfl fun c _ => e c,
    Cert.BlockSum.sum_fin_eq_range 4096 (fun n => if n < 512 * j then ext f n else 0), ← Finset.sum_filter]
  refine Finset.sum_congr ?_ fun _ _ => rfl
  ext n
  simp only [mem_range, mem_filter]
  omega

/-- The whole sum in 8 blocks of 512, as a double sum. -/
theorem sum_blocks (f : Fin 4096 → M) :
    ∑ j : Fin 8, ∑ c' : Fin 512, f ⟨512 * j.val + c'.val, by have := j.isLt; have := c'.isLt; omega⟩
      = ∑ c : Fin 4096, f c := by
  rw [← partialSum_eight f]
  unfold partialSum
  rw [Nat.mul_comm 512 8, ← Cert.BlockSum.sum_range_blocks 512 (ext f) 8,
    ← Cert.BlockSum.sum_fin_eq_range 8 (fun s => ∑ k ∈ range 512, ext f (512 * s + k))]
  refine Finset.sum_congr rfl fun j _ => ?_
  rw [← Cert.BlockSum.sum_fin_eq_range 512 (fun k => ext f (512 * j.val + k))]
  refine Finset.sum_congr rfl fun c' _ => ?_
  have hlt : 512 * j.val + c'.val < 4096 := by have := j.isLt; have := c'.isLt; omega
  simp only [ext, dif_pos hlt]

end Blocks

/-! ## The literals -/

/-- The temperature's word denotes 9395241 / 2^27. -/
theorem ofBits_tau : Ideal.ofBits .f32 0x3D8F5C29#32 = ((9395241 / 134217728 : ℝ) : EReal) := by
  simp [Ideal.ofBits, Ideal.ieee, -EReal.coe_mul]; norm_num

/-- Dividing by the temperature is multiplying by its reciprocal 134217728 / 9395241, on every extended real. -/
theorem div_tau (x : EReal) :
    Ideal.div x (Ideal.ofBits .f32 0x3D8F5C29#32) = x * ((134217728 / 9395241 : ℝ) : EReal) := by
  rw [ofBits_tau, Ideal.div_coe (by norm_num : (9395241 / 134217728 : ℝ) ≠ 0)]
  congr 2
  norm_num

/-- The same read from the product's side. -/
theorem mul_inv_tau (x : EReal) :
    x * ((134217728 / 9395241 : ℝ) : EReal) = Ideal.div x (Ideal.ofBits .f32 0x3D8F5C29#32) :=
  (div_tau x).symm

/-- The count's word denotes 4096. -/
theorem ofBits_4096 : Ideal.ofBits .f32 0x45800000#32 = ((4096 : ℝ) : EReal) := by
  simp [Ideal.ofBits, Ideal.ieee, -EReal.coe_mul]; norm_num

/-- Dividing by 4096 is multiplying by 1 / 4096, on every extended real. -/
theorem div_4096 (x : EReal) :
    Ideal.div x (Ideal.ofBits .f32 0x45800000#32) = x * ((1 / 4096 : ℝ) : EReal) := by
  rw [ofBits_4096, Ideal.div_coe (by norm_num : (4096 : ℝ) ≠ 0)]

/-! ## Zero and negation -/

/-- Subtracting from zero is negating, at the infinities too. -/
theorem zero_sub_eq_neg (x : EReal) : 0 - x = -x := by
  rw [sub_eq_add_neg, zero_add]

/-- The f32 zero word denotes 0. -/
theorem ofBits_zero : Ideal.ofBits .f32 0x00000000#32 = 0 := by
  simp [Ideal.ofBits, Ideal.ieee]

/-- The float subtraction of x from the zero word is the negation of x … -/
theorem subf_zero_word (x : Ideal .f32) :
    FloatOps.subf (F := Ideal) (φ := .f32) (FloatOps.ofBits (F := Ideal) .f32 0x00000000#32) x = -x := by
  rw [Ideal.subf_def, Ideal.ofBits_def, ofBits_zero, zero_sub_eq_neg]

/-- … which is what the host's negation of x is. -/
theorem subf_zero_word_eq_hostNegf (x : Ideal .f32) :
    FloatOps.subf (F := Ideal) (φ := .f32) (FloatOps.ofBits (F := Ideal) .f32 0x00000000#32) x
      = FloatOps.hostNegf (F := Ideal) (φ := .f32) x := by
  rw [subf_zero_word, Ideal.hostNegf_def, Ideal.negf_def]

end Cert.Spec

end
-- ==== Proof.RefValue.lean ====
/-
  The reference program's result, read stage by stage at coordinates, is the specification's function of the
  three argument arrays.

  Each stage of the reference is read at an index through the stage before it: the stacking of the two feature
  arrays (rows below 2048 from the first, the others from the second, 2048 rows down), the row norms (the square
  root of the sum over the 512 entries of the squares, the sum's initial zero dropped), the normalised rows, their
  inner products (the contraction of the normalised array with its own transpose), the weights, the mask bit (the
  two label comparisons, the row and column numbers compared as 32-bit words, which agree exactly when the numbers
  do because both are below 4096), the two row sums over the 4096 columns, the row losses, and their mean.
-/
import proofs.«163814_j80650895884987_1_alg».proof.Proof.Gen.ReferenceIdeal.Read
import proofs.«163814_j80650895884987_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem

variable (x0 x1 : (⟨S2048x512, .f32⟩ : BufTy).Contents (Elt Ideal)) (x2 : (⟨S2048, .i32⟩ : BufTy).Contents (Elt Ideal))

/-! ## The stacked arrays -/

/-- The stacked feature array at (r, k): the first array's row r below 2048, the second's row r − 2048 from there. -/
theorem v0_eq (r : Fin 4096) (k : Fin 512) :
    val_main_v0 (F := Ideal) x0 x1 (ix2 r k) = Cert.Spec.z0 x0 x1 r k := by
  unfold val_main_v0 Cert.Spec.z0
  by_cases h : r.val < 2048
  · rw [dif_pos h]
    exact concatenate_pair_apply_left 0 x0 x1 concatenates_S2048x512_S2048x512_S4096x512_d0 _ rfl _ (fun b => by
      match b with
      | ⟨0, _⟩ => rfl
      | ⟨1, _⟩ => rfl)
  · rw [dif_neg h]
    exact concatenate_pair_apply_right 0 x0 x1 concatenates_S2048x512_S2048x512_S4096x512_d0 _ rfl rfl _
      (fun b hb => by
        match b with
        | ⟨0, _⟩ => exact absurd rfl hb
        | ⟨1, _⟩ => rfl)
      (by show r.val - 2048 + 2048 = r.val; omega)

/-- The stacked labels at r: label r below 2048, label r − 2048 from there. -/
theorem v4_eq (r : Fin 4096) :
    val_main_v4 (F := Ideal) x2 (ix1 r) = Cert.Spec.lab2 x2 r := by
  unfold val_main_v4 Cert.Spec.lab2
  by_cases h : r.val < 2048
  · rw [dif_pos h]
    exact concatenate_pair_apply_left 0 x2 x2 concatenates_S2048_S2048_S4096_d0 _ rfl _ (fun b => by
      match b with
      | ⟨0, _⟩ => rfl)
  · rw [dif_neg h]
    exact concatenate_pair_apply_right 0 x2 x2 concatenates_S2048_S2048_S4096_d0 _ rfl rfl _
      (fun b hb => by
        match b with
        | ⟨0, _⟩ => exact absurd rfl hb)
      (by show r.val - 2048 + 2048 = r.val; omega)

/-! ## The normalised rows and their inner products -/

/-- The norm column at row r: the square root of the sum of the squares of the stacked row's entries. -/
theorem v1_eq (r : Fin 4096) :
    val_main_v1 (F := Ideal) x0 x1 (ix2 r (0 : Fin 1)) = Cert.Spec.nrm x0 x1 r := by
  rw [val_main_v1_apply, val_main_call0_v2_apply, val_main_call0_v1_apply, val_main_call0_cst_apply]
  simp only [val_main_call0_v0_apply, Ideal.hostUnary_sqrt_def, Ideal.ofBits_def, Ideal.mulf_def,
    Ideal.ofBits_zero_f32, zero_add]
  unfold Cert.Spec.nrm
  refine congrArg Ideal.sqrt (Finset.sum_congr rfl fun k _ => ?_)
  have e : idx_main_call0_v1 (idx_main_call0_v2 (ix2 r (0 : Fin 1))) k = ix2 r k :=
    funext fun a => Fin.ext (by match a with | ⟨0, _⟩ => rfl | ⟨1, _⟩ => rfl)
  rw [e, v0_eq]

/-- The normalised array at (r, k): the stacked entry over its row's norm. -/
theorem v3_eq (r : Fin 4096) (k : Fin 512) :
    val_main_v3 (F := Ideal) x0 x1 (ix2 r k) = Cert.Spec.z x0 x1 r k := by
  have e : idx_main_v2 (ix2 r k) = ix2 r (0 : Fin 1) :=
    funext fun a => Fin.ext (by match a with | ⟨0, _⟩ => rfl | ⟨1, _⟩ => rfl)
  rw [val_main_v3_apply, val_main_v2_apply, e, v0_eq, v1_eq]
  rfl

/-- The product of the normalised array with its transpose at (r, c): the inner product of rows r and c. -/
theorem v6_eq (r c : Fin 4096) :
    val_main_v6 (F := Ideal) x0 x1 (ix2 r c) = Cert.Spec.sim x0 x1 r c := by
  rw [val_main_v6_apply]
  unfold Cert.Spec.sim
  refine Finset.sum_congr rfl fun k _ => ?_
  have el : lidx_main_v6 (ix2 r c) k = ix2 r k :=
    funext fun a => Fin.ext (by match a with | ⟨0, _⟩ => rfl | ⟨1, _⟩ => rfl)
  have er : idx_main_v5 (ridx_main_v6 (ix2 r c) k) = ix2 c k :=
    funext fun a => Fin.ext (by match a with | ⟨0, _⟩ => rfl | ⟨1, _⟩ => rfl)
  rw [val_main_v5_apply, el, er, v3_eq, v3_eq]

/-- The weight array at (r, c): the exponential of the inner product over the temperature. -/
theorem v9_eq (r c : Fin 4096) :
    val_main_v9 (F := Ideal) x0 x1 (ix2 r c) = Cert.Spec.e x0 x1 r c := by
  rw [val_main_v9_apply, val_main_v8_apply, val_main_v7_apply, val_main_cst_apply, v6_eq]
  rfl

/-! ## The mask -/

/-- Two numbers below 4096 are equal as 32-bit words exactly when they are equal. -/
theorem ofNat_beq (r c : Fin 4096) : (BitVec.ofNat 32 r.val == BitVec.ofNat 32 c.val) = decide (r = c) := by
  by_cases h : r = c
  · subst h; simp
  · have hne : BitVec.ofNat 32 r.val ≠ BitVec.ofNat 32 c.val := fun heq => by
      have ht := congrArg BitVec.toNat heq
      simp only [BitVec.toNat_ofNat] at ht
      have := r.isLt; have := c.isLt
      exact h (Fin.ext (by omega))
    simp [h, hne]

/-- The mask bit at (r, c) is set exactly when column c is a positive of row r. -/
theorem v21_eq (r c : Fin 4096) :
    val_main_v21 (F := Ideal) x2 (ix2 r c) = if Cert.Spec.mask x2 r c then 1#1 else 0#1 := by
  have e12 : idx_main_v10 (idx_main_v12 (ix2 r c)) = ix1 r :=
    funext fun a => Fin.ext (by match a with | ⟨0, _⟩ => rfl)
  have e13 : idx_main_v11 (idx_main_v13 (ix2 r c)) = ix1 c :=
    funext fun a => Fin.ext (by match a with | ⟨0, _⟩ => rfl)
  rw [val_main_v21_apply, val_main_v14_apply, val_main_v12_apply, val_main_v10_apply, e12, val_main_v13_apply,
    val_main_v11_apply, e13, v4_eq, v4_eq, val_main_v20_apply, val_main_v19_apply, val_main_v18_apply,
    val_main_v15_apply, val_main_v16_apply, val_main_v17_apply, val_main_c_apply]
  show IntOp.andi (BitVec.ofBool (Cert.Spec.lab2 x2 r == Cert.Spec.lab2 x2 c))
      (~~~(BitVec.ofBool (BitVec.ofNat 32 r.val + 0#32 == BitVec.ofNat 32 c.val))) = _
  rw [BitVec.add_zero, ofNat_beq, beq_eq_decide]
  unfold Cert.Spec.mask IntOp.andi
  by_cases h1 : Cert.Spec.lab2 x2 r = Cert.Spec.lab2 x2 c <;> by_cases h2 : r = c <;> simp [h1, h2]

/-- The selected weights at (r, c): the weight at a positive, zero elsewhere. -/
theorem v22_eq (r c : Fin 4096) :
    val_main_v22 (F := Ideal) x0 x1 x2 (ix2 r c)
      = if Cert.Spec.mask x2 r c then Cert.Spec.e x0 x1 r c else 0 := by
  rw [val_main_v22_apply, v21_eq, v9_eq, val_main_call1_v1_apply, val_main_call1_v0_apply, val_main_cst_0_apply,
    Ideal.ofBits_def, Ideal.ofBits_zero_f32]
  unfold Scalar.select
  by_cases h : Cert.Spec.mask x2 r c
  · rw [if_pos h, if_pos h]; exact if_pos (by decide)
  · rw [if_neg h, if_neg h]; exact if_neg (by decide)

/-! ## The row sums, the losses and their mean -/

/-- The numerators at r: the sum over the columns of the selected weights. -/
theorem v23_eq (r : Fin 4096) :
    val_main_v23 (F := Ideal) x0 x1 x2 (ix1 r) = Cert.Spec.num x0 x1 x2 r := by
  rw [val_main_v23_apply, val_main_cst_1_apply, Ideal.ofBits_def, Ideal.ofBits_zero_f32, zero_add]
  unfold Cert.Spec.num
  refine Finset.sum_congr rfl fun c _ => ?_
  have e : idx_main_v23 (ix1 r) c = ix2 r c :=
    funext fun a => Fin.ext (by match a with | ⟨0, _⟩ => rfl | ⟨1, _⟩ => rfl)
  rw [e, v22_eq]

/-- The denominators at r: the sum over the columns of the weights. -/
theorem v24_eq (r : Fin 4096) :
    val_main_v24 (F := Ideal) x0 x1 (ix1 r) = Cert.Spec.den x0 x1 r := by
  rw [val_main_v24_apply, val_main_cst_2_apply, Ideal.ofBits_def, Ideal.ofBits_zero_f32, zero_add]
  unfold Cert.Spec.den
  refine Finset.sum_congr rfl fun c _ => ?_
  have e : idx_main_v24 (ix1 r) c = ix2 r c :=
    funext fun a => Fin.ext (by match a with | ⟨0, _⟩ => rfl | ⟨1, _⟩ => rfl)
  rw [e, v9_eq]

/-- The losses at r. -/
theorem v31_eq (r : Fin 4096) :
    val_main_v31 (F := Ideal) x0 x1 x2 (ix1 r) = Cert.Spec.loss x0 x1 x2 r := by
  rw [val_main_v31_apply, val_main_v30_apply, val_main_v29_apply, val_main_v28_apply, val_main_cst_4_apply,
    val_main_v27_apply, val_main_v26_apply, val_main_v25_apply, val_main_cst_3_apply, v23_eq, v24_eq]
  rfl

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- The reference's result stage is the specification's result, at its one index. -/
theorem val_eq :
    val_main_v33 (F := Ideal) x0 x1 x2 = fun _ => Cert.Spec.result x0 x1 x2 := by
  funext i
  rw [val_main_v33_apply, val_main_v32_apply, val_main_cst_5_apply, val_main_cst_6_apply, Ideal.ofBits_def,
    Ideal.ofBits_def, Ideal.ofBits_zero_f32, zero_add, Ideal.hostDivf_def]
  unfold Cert.Spec.result
  refine congrArg (Ideal.div · _) ?_
  exact Fintype.sum_equiv idxEquiv1 _ _ fun j => by
    rw [eq_ix1 j]; exact v31_eq x0 x1 x2 (j 0)

/-- The reference run's result term is the specification's result of the three argument arrays as the run found
    them, at the result buffer's one index. -/
theorem res_eq (m : (ℓ : Loc nD τ sig) → Buf (Elt Ideal) ℓ) (c : Dev nD) :
    Cert.ReferenceIdeal.Value.res_main_v33 (F := Ideal) m c
      = fun _ => Cert.Spec.result (m ((c.tc : Thread nD τ).loc main_arg0)) (m ((c.tc : Thread nD τ).loc main_arg1))
          (m ((c.tc : Thread nD τ).loc main_arg2)) :=
  (val_main_v33_eq (F := Ideal) m c).trans (val_eq _ _ _)

end Cert.ReferenceIdeal.RefValue

end
-- ==== Proof.KIHost.lean ====
/-
  The host operations around the kernel region, read at coordinates.

  Before the region the two feature arrays are stacked and every row is divided by its Euclidean norm — the same
  operations, on the same arguments, as the first stages of the reference — and the result is narrowed to a
  shorter float format, which on the extended reals changes nothing; the labels are stacked and laid out once as
  a column and once as a row. After the region the 4096 per-row values are summed from zero and divided by the
  count's word: when they are the rows' losses this is the mean loss.
-/
import proofs.«163814_j80650895884987_1_alg».proof.Proof.Gen.KernelIdeal.Launch
import proofs.«163814_j80650895884987_1_alg».proof.Proof.Spec
import proofs.«163814_j80650895884987_1_alg».proof.Proof.Algebra
import proofs.«163814_j80650895884987_1_alg».proof.Proof.RefValue
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.HostValue

open Cert.KernelIdeal Cert.KernelIdeal.Gen Idealize.ShloMosaic Idealize.ShloMosaic.ValueIdx Idealize.ShloMosaic.TcCoe
  Idealize.SL.Sem

/-! ## The terms the host operations compose to -/

/-- The two feature arrays stacked. -/
def stackT (x0 x1 : (⟨S2048x512, .f32⟩ : BufTy).Contents (Elt Ideal)) : (⟨S4096x512, .f32⟩ : BufTy).Contents (Elt Ideal) :=
  concatenate S4096x512 0 [⟨S2048x512, x0⟩, ⟨S2048x512, x1⟩] concatenates_S2048x512_S2048x512_S4096x512_d0

/-- The stacked array with every row divided by its norm, narrowed to the short format. -/
def zT (x0 x1 : (⟨S2048x512, .f32⟩ : BufTy).Contents (Elt Ideal)) : (⟨S4096x512, .bf16⟩ : BufTy).Contents (Elt Ideal) :=
  truncf .bf16 (Host.divf (F := Ideal) (stackT x0 x1)
    (broadcastInDim S4096x512 ![0, 1] bcast_S4096x1_S4096x512_0_1
      (Host.sqrt (F := Ideal) (broadcastInDim S4096x1 ![0] bcast_S4096_S4096x1_0
        (Host.reduceAdd (F := Ideal) (mulf (F := Ideal) (stackT x0 x1) (stackT x0 x1)) (constant (F := Ideal) S_ .f32 0x00000000#32)
          reducesTo_S4096x512_S4096_d1 h_S_))))) bitsLt_bf16_f32

/-- The labels stacked. -/
def labT (x2 : (⟨S2048, .i32⟩ : BufTy).Contents (Elt Ideal)) : (⟨S4096, .i32⟩ : BufTy).Contents (Elt Ideal) :=
  concatenate S4096 0 [⟨S2048, x2⟩, ⟨S2048, x2⟩] concatenates_S2048_S2048_S4096_d0

/-- The stacked labels as a column. -/
def labColT (x2 : (⟨S2048, .i32⟩ : BufTy).Contents (Elt Ideal)) : (⟨S4096x1, .i32⟩ : BufTy).Contents (Elt Ideal) :=
  shapeCast S4096x1 (labT x2) shapeCasts_S4096_S4096x1

/-- The stacked labels as a row. -/
def labRowT (x2 : (⟨S2048, .i32⟩ : BufTy).Contents (Elt Ideal)) : (⟨S1x4096, .i32⟩ : BufTy).Contents (Elt Ideal) :=
  shapeCast S1x4096 (labT x2) shapeCasts_S4096_S1x4096

/-- The closing operations on the per-row values: their sum from zero over the count's word. -/
def tailT (L : (⟨S4096, .f32⟩ : BufTy).Contents (Elt Ideal)) : (⟨S_, .f32⟩ : BufTy).Contents (Elt Ideal) :=
  Host.divf (F := Ideal) (Host.reduceAdd (F := Ideal) L (constant (F := Ideal) S_ .f32 0x00000000#32) reducesTo_S4096_S_d0 h_S_)
    (constant (F := Ideal) S_ .f32 0x45800000#32)

/-! ## What the buffers hold after the operations -/

/-- After the twelve opening operations the normalised array's buffer holds `zT` of the two feature arguments, -/
theorem after_v7 (W : Valuation τ sig (Elt Ideal)) :
    StableHlo.after (hostOps0 (F := Ideal)) W (Proc.devRef .tc main_v7)
      = zT (W (Proc.devRef .tc main_arg0)) (W (Proc.devRef .tc main_arg1)) := by
  dsimp only [hostOps0]
  after_results
  rfl

/-- the label column's buffer the stacked labels as a column, -/
theorem after_v9 (W : Valuation τ sig (Elt Ideal)) :
    StableHlo.after (hostOps0 (F := Ideal)) W (Proc.devRef .tc main_v9) = labColT (W (Proc.devRef .tc main_arg2)) := by
  dsimp only [hostOps0]
  after_results
  rfl

/-- and the label row's buffer the stacked labels as a row. -/
theorem after_v10 (W : Valuation τ sig (Elt Ideal)) :
    StableHlo.after (hostOps0 (F := Ideal)) W (Proc.devRef .tc main_v10) = labRowT (W (Proc.devRef .tc main_arg2)) := by
  dsimp only [hostOps0]
  after_results
  rfl

/-- After the four closing operations the result's buffer holds `tailT` of the per-row array. -/
theorem after_v13 (W : Valuation τ sig (Elt Ideal)) :
    StableHlo.after (hostOps1 (F := Ideal)) W (Proc.devRef .tc main_v13) = tailT (W (Proc.devRef .tc main_v11)) := by
  dsimp only [hostOps1]
  after_results
  rfl

/-! ## The terms at coordinates -/

/-- The normalised array at (r, k) is the specification's normalised entry: the opening operations are the
    reference's first stages, and the narrowing is the identity. -/
theorem zT_apply (x0 x1 : (⟨S2048x512, .f32⟩ : BufTy).Contents (Elt Ideal)) (r : Fin 4096) (k : Fin 512) :
    zT x0 x1 (ix2 r k) = Cert.Spec.z x0 x1 r k :=
  Cert.ReferenceIdeal.RefValue.v3_eq x0 x1 r k

/-- The stacked labels at r. -/
theorem labT_apply (x2 : (⟨S2048, .i32⟩ : BufTy).Contents (Elt Ideal)) (r : Fin 4096) :
    labT x2 (ix1 r) = Cert.Spec.lab2 x2 r :=
  Cert.ReferenceIdeal.RefValue.v4_eq x2 r

/-- The label column at (r, 0) is row r's label. -/
theorem labColT_apply (x2 : (⟨S2048, .i32⟩ : BufTy).Contents (Elt Ideal)) (r : Fin 4096) (u : Fin 1) :
    labColT x2 (ix2 r u) = Cert.Spec.lab2 x2 r := by
  unfold labColT
  rw [shapeCast_apply (labT x2) shapeCasts_S4096_S4096x1 (ix2 r u) (ix1 r) (by
    have hu : u.val = 0 := by omega
    rw [Shape.rowMajor_val_two, Shape.rowMajor_val_one]
    show r.val = r.val * 1 + u.val
    rw [hu, Nat.mul_one, Nat.add_zero])]
  exact labT_apply x2 r

/-- The label row at (0, c) is row c's label. -/
theorem labRowT_apply (x2 : (⟨S2048, .i32⟩ : BufTy).Contents (Elt Ideal)) (u : Fin 1) (c : Fin 4096) :
    labRowT x2 (ix2 u c) = Cert.Spec.lab2 x2 c := by
  unfold labRowT
  rw [shapeCast_a_1a_apply (labT x2) shapeCasts_S4096_S1x4096 u c]
  exact labT_apply x2 c

/-- The closing operations on the rows' losses give the specification's result, at the result's one index. -/
theorem tailT_eq (L : (⟨S4096, .f32⟩ : BufTy).Contents (Elt Ideal))
    (a0 a1 : (⟨2, ![2048, 512]⟩ : Shape).Idx → EReal) (lab : (⟨1, ![2048]⟩ : Shape).Idx → BitVec 32)
    (h : ∀ r : Fin 4096, L (ix1 r) = Cert.Spec.loss a0 a1 lab r) :
    tailT L = fun _ => Cert.Spec.result a0 a1 lab := by
  funext i
  have hs : Host.reduceAdd (F := Ideal) L (constant (F := Ideal) S_ .f32 0x00000000#32) reducesTo_S4096_S_d0 h_S_ i
      = (constant (F := Ideal) S_ .f32 0x00000000#32) (Shape.Idx.first h_S_) + ∑ j : S4096.Idx, L j := by
    simp only [Host.reduceAdd, Ideal.hostReduceAdd_def]
    exact Ideal.hostReduceAdd_total reducesTo_S4096_S_d0 (fun b => b.elim0) L _ i
  show Ideal.div (Host.reduceAdd (F := Ideal) L (constant (F := Ideal) S_ .f32 0x00000000#32) reducesTo_S4096_S_d0 h_S_ i)
    (Ideal.ofBits .f32 0x45800000#32) = _
  rw [hs]
  show Ideal.div (Ideal.ofBits .f32 0x00000000#32 + _) _ = _
  rw [Ideal.ofBits_zero_f32, zero_add]
  unfold Cert.Spec.result
  refine congrArg (Ideal.div · _) ?_
  exact Fintype.sum_equiv Cert.ReferenceIdeal.RefValue.idxEquiv1 _ _ fun j => by
    rw [eq_ix1 j]; exact h (j 0)

end Cert.KernelIdeal.HostValue

end
-- ==== Proof.KIPayload.lean ====
/-
  The kernel body's pure values, read at coordinates on the extended reals.

  A grid point handles a block of 512 rows against a block of 512 columns. The weight block at (p, q) is the
  exponential of the inner product of row p of the row block with row q of the column block, times the reciprocal
  temperature (a contraction into a zero accumulator is the bare sum; the second operand enters transposed). The
  denominator's step adds each row's sum of the weights to the running column; the numerator's step adds the sum of
  the weights kept where the row's label equals the column's and the global row number differs from the global
  column number, the two numbers compared as 32-bit words. The loss column is minus the logarithm of the
  stabilised quotient of the two finished columns. Casts between equal shapes are the identity, a column cast to a
  vector and back keeps its entries, and a sum along the second axis kept as a column is each row's sum.
-/
import proofs.«163814_j80650895884987_1_alg».proof.Proof.Gen.KernelIdeal.Skeleton
import proofs.«163814_j80650895884987_1_alg».proof.Proof.Spec
import proofs.«163814_j80650895884987_1_alg».proof.Proof.Algebra
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open scoped BigOperators

namespace Cert.KernelIdeal.PayValue

open Cert.KernelIdeal Cert.KernelIdeal.Gen Idealize.ShloMosaic Idealize.ShloMosaic.ValueIdx

/-! ## Layout and reduction pieces -/

section Layout
variable {α : Type}

/-- An [a, 1] column broadcast to [a, b] reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (p, u), the vector's entry p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column cast to an [a] vector reads, at p, the column's entry (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

end Layout

/-- A block's sum along its second axis, kept as a column, reads at (p, u) row p's sum. -/
theorem rowsum_apply (V : FVec Ideal S512x512 .f32) (p : Fin 512) (u : Fin 1) :
    shapeCast S512x1 (multiReduction (F := Ideal) .add [1] S512 V 0x00000000#32 reduces_S512x512_S512 (.inl rfl) rfl)
        shapeCasts_S512_S512x1 (ix2 p u)
      = ∑ q : Fin 512, V (ix2 p q) := by
  refine (shapeCast_a_a1_apply _ shapeCasts_S512_S512x1 p u).trans ?_
  refine (Ideal.multiReduction_add_single V 0x00000000#32 reduces_S512x512_S512 (.inl rfl) rfl (ix1 p)).trans ?_
  exact Finset.sum_congr rfl fun q _ => congrArg V (funext fun a => Fin.ext (by
    match a with
    | ⟨0, _⟩ => rfl
    | ⟨1, _⟩ => rfl))

/-! ## The contraction -/

/-- The block product's dimension numbers: rows by the contracted axis, times the contracted axis by columns. -/
abbrev D : DotDims S512x512 S512x512 S512x512 := dot_S512x512_S512x512_S512x512_1_0_0_1_n_n

theorem lhs_0 (i : S512x512.Idx) (q : D.contr.Idx) : (D.lhsIdx i q 0).val = (i 0).val := by
  unfold DotDims.lhsIdx
  rw [dif_neg (show ¬(0 : Fin S512x512.rank) ∈ D.lhsBatch by decide),
    dif_pos (show (0 : Fin S512x512.rank) ∈ D.lhsNonContracting by decide)]
  rfl
theorem lhs_1 (i : S512x512.Idx) (q : D.contr.Idx) : (D.lhsIdx i q 1).val = (q ⟨0, by decide⟩).val :=
  D.lhsIdx_val_of_single rfl i q
theorem rhs_0 (i : S512x512.Idx) (q : D.contr.Idx) : (D.rhsIdx i q 0).val = (q ⟨0, by decide⟩).val :=
  D.rhsIdx_val_of_single rfl i q
theorem rhs_1 (i : S512x512.Idx) (q : D.contr.Idx) : (D.rhsIdx i q 1).val = (i 1).val := by
  unfold DotDims.rhsIdx
  rw [dif_neg (show ¬(1 : Fin S512x512.rank) ∈ D.rhsBatch by decide),
    dif_pos (show (1 : Fin S512x512.rank) ∈ D.rhsNonContracting by decide)]
  rfl

/-- The block product into a zero accumulator at (p, q): the sum over the contracted axis of the products. -/
theorem matmul_ix2 (A B : FVec Ideal S512x512 .bf16) (p q : Fin 512) :
    matmul (F := Ideal) D none A B (constant (F := Ideal) S512x512 .f32 0x00000000#32) (ix2 p q)
      = ∑ k : Fin 512, A (ix2 p k) * B (ix2 k q) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 p q) ((contrEquiv1 D 512 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 512 rfl rfl).symm k) = ix2 k q := funext fun a => Fin.ext (by
    match a with
    | ⟨0, _⟩ => exact (rhs_0 _ _).trans hk
    | ⟨1, _⟩ => exact rhs_1 _ _)
  rw [el, er]

/-! ## The payloads -/

/-- The named reciprocal temperature denotes 134217728 / 9395241. -/
theorem inv_tau :
    Named.named (F := Ideal) κ "inv_tau" (φ := .f32) 0x41649249#32 = ((134217728 / 9395241 : ℝ) : EReal) :=
  IdealRules.named_const.ideal_named_scalar _ _ _ _ rfl

/-- The weight block at (p, q). -/
theorem pay6_apply (X0 X1 : FVec Ideal S512x512 .bf16) (p q : Fin 512) :
    k0_pay6 (F := Ideal) X0 X1 (ix2 p q)
      = Ideal.exp ((∑ k : Fin 512, X0 (ix2 p k) * X1 (ix2 q k)) * ((134217728 / 9395241 : ℝ) : EReal)) := by
  have hm : matmul (F := Ideal) (φ₁ := .bf16) (φ₂ := .bf16) D none (shapeCast S512x512 X0 shapeCasts_S512x512_S512x512)
      (transpose S512x512 [1, 0] (shapeCast S512x512 X1 shapeCasts_S512x512_S512x512) transposes_S512x512_p1_0_S512x512)
      (constant (F := Ideal) S512x512 .f32 0x00000000#32) (ix2 p q)
      = ∑ k : Fin 512, X0 (ix2 p k) * X1 (ix2 q k) := by
    refine (matmul_ix2 _ _ p q).trans (Finset.sum_congr rfl fun k _ => ?_)
    rw [shapeCast_self, transpose_ix2_apply, shapeCast_self]
  unfold k0_pay6
  refine (congrArg (fun s => Ideal.exp (s * Named.named (F := Ideal) κ "inv_tau" (φ := .f32) 0x41649249#32)) hm).trans ?_
  rw [inv_tau]

/-- When the row block's row p is the normalised row r and the column block's row q is the normalised row c, the
    weight block at (p, q) is the specification's weight of (r, c): the product by the reciprocal temperature is
    the division by the temperature. -/
theorem pay6_eq_e (a0 a1 : (⟨2, ![2048, 512]⟩ : Shape).Idx → EReal) (r c : Fin 4096)
    (X0 X1 : FVec Ideal S512x512 .bf16) (p q : Fin 512)
    (h0 : ∀ k : Fin 512, X0 (ix2 p k) = Cert.Spec.z a0 a1 r k)
    (h1 : ∀ k : Fin 512, X1 (ix2 q k) = Cert.Spec.z a0 a1 c k) :
    k0_pay6 (F := Ideal) X0 X1 (ix2 p q) = Cert.Spec.e a0 a1 r c := by
  rw [pay6_apply, Cert.Spec.mul_inv_tau]
  unfold Cert.Spec.e Cert.Spec.sim
  refine congrArg (fun s => Ideal.exp (Ideal.div s _)) (Finset.sum_congr rfl fun k _ => ?_)
  rw [h0 k, h1 k]

/-- The numerator's and the denominator's reset: the zero column. -/
theorem pay4_eq : k0_pay4 (F := Ideal) = fun _ => 0 := by
  unfold k0_pay4
  funext j
  refine (congrFun (shapeCast_self _ shapeCasts_S512x1_S512x1) j).trans ?_
  exact Ideal.ofBits_zero_f32
theorem pay5_eq : k0_pay5 (F := Ideal) = fun _ => 0 := by
  unfold k0_pay5
  funext j
  refine (congrFun (shapeCast_self _ shapeCasts_S512x1_S512x1) j).trans ?_
  exact Ideal.ofBits_zero_f32

/-- A column stored as it is. -/
theorem pay1_eq (v : FVec Ideal S512x1 .f32) : k0_pay1 (F := Ideal) v = v := by
  unfold k0_pay1
  exact shapeCast_self v shapeCasts_S512x1_S512x1

/-- The denominator's step at row p: the running entry plus the row's sum of the block (no initial zero: a sum
    along an axis inside the body is the bare sum). -/
theorem pay2_apply (v11 : FVec Ideal S512x512 .f32) (ad : FVec Ideal S512x1 .f32) (p : Fin 512) (u : Fin 1) :
    k0_pay2 (F := Ideal) v11 ad (ix2 p u) = ad (ix2 p u) + ∑ q : Fin 512, v11 (ix2 p q) := by
  unfold k0_pay2
  refine (congrFun (shapeCast_self _ shapeCasts_S512x1_S512x1) (ix2 p u)).trans ?_
  exact congrArg (ad (ix2 p u) + ·) (rowsum_apply v11 p u)

/-- The conjunction of one condition with the negation of another, as one-bit words: the first bit and the second
    bit flipped, and-ed, is set exactly when the first condition holds and the second does not. -/
theorem bit_iff (a b : Prop) [Decidable a] [Decidable b] :
    (BitVec.ofBool (decide a) &&& (BitVec.ofBool (decide b) ^^^ 1#1) = 1) ↔ (a ∧ ¬b) := by
  by_cases ha : a <;> by_cases hb : b <;> simp [ha, hb]

/-- The numerator's step at row p of grid point i: the running entry plus the sum over the block's columns of
    the weights kept where the labels agree and the two global numbers differ. -/
theorem pay7_apply (i : grid0.Coords) (X0 X1 : FVec Ideal S512x512 .bf16) (X2 : IVec S512x1 32)
    (X3 : IVec S1x512 32) (an : FVec Ideal S512x1 .f32) (p : Fin 512) (u : Fin 1) :
    k0_pay7 (F := Ideal) i X0 X1 X2 X3 an (ix2 p u)
      = an (ix2 p u) + ∑ q : Fin 512,
          if (X2 (ix2 p (0 : Fin 1)) = X3 (ix2 (0 : Fin 1) q)
              ∧ ¬ (BitVec.ofNat 32 (i 0).val * 512#32 + BitVec.ofNat 32 p.val
                    = BitVec.ofNat 32 (i 1).val * 512#32 + BitVec.ofNat 32 q.val))
          then k0_pay6 (F := Ideal) X0 X1 (ix2 p q) else 0 := by
  unfold k0_pay7
  refine (congrArg (an (ix2 p u) + ·) (rowsum_apply _ p u)).trans ?_
  refine congrArg (an (ix2 p u) + ·) (Finset.sum_congr rfl fun q _ => ?_)
  have h16 : broadcastTo S512x512 (shapeCast S512x1 X2 shapeCasts_S512x1_S512x1) broadcasts_S512x1_S512x512 (ix2 p q)
      = X2 (ix2 p (0 : Fin 1)) := by
    rw [shapeCast_self]; exact broadcastTo_a1_ab_apply X2 broadcasts_S512x1_S512x512 p q
  have h17 : broadcastTo S512x512 (shapeCast S1x512 X3 shapeCasts_S1x512_S1x512) broadcasts_S1x512_S512x512 (ix2 p q)
      = X3 (ix2 (0 : Fin 1) q) := by
    rw [shapeCast_self]; exact broadcastTo_1b_ab_apply X3 broadcasts_S1x512_S512x512 p q
  have h21 : iota .tc S512x512 32 [0] iota_S512x512_d0_w32 (ix2 p q) = BitVec.ofNat 32 p.val :=
    iota_single_apply .tc S512x512 32 0 iota_S512x512_d0_w32 (ix2 p q)
  have h24 : iota .tc S512x512 32 [1] iota_S512x512_d1_w32 (ix2 p q) = BitVec.ofNat 32 q.val :=
    iota_single_apply .tc S512x512 32 1 iota_S512x512_d1_w32 (ix2 p q)
  show Scalar.select (IntOp.andi (IntOp.cmpi .eq
        (broadcastTo S512x512 (shapeCast S512x1 X2 shapeCasts_S512x1_S512x1) broadcasts_S512x1_S512x512 (ix2 p q))
        (broadcastTo S512x512 (shapeCast S1x512 X3 shapeCasts_S1x512_S1x512) broadcasts_S1x512_S512x512 (ix2 p q)))
      (IntOp.xori (IntOp.cmpi .eq
        (IntOp.addi (IntOp.muli (BitVec.ofNat 32 (i 0).val) 512#32) (iota .tc S512x512 32 [0] iota_S512x512_d0_w32 (ix2 p q)))
        (IntOp.addi (IntOp.muli (BitVec.ofNat 32 (i 1).val) 512#32) (iota .tc S512x512 32 [1] iota_S512x512_d1_w32 (ix2 p q))))
        1#1))
      (k0_pay6 (F := Ideal) X0 X1 (ix2 p q)) (Ideal.ofBits .f32 0x00000000#32) = _
  rw [h16, h17, h21, h24, Ideal.ofBits_zero_f32]
  unfold Scalar.select IntOp.andi IntOp.xori IntOp.cmpi IntOp.addi IntOp.muli
  simp only [beq_eq_decide]
  exact if_congr (bit_iff _ _) rfl rfl

/-- The diagonal test: the two global numbers, as 32-bit words, are equal exactly when they are equal. -/
theorem diag_iff (ri ci : ℕ) (hri : ri < 8) (hci : ci < 8) (p q : Fin 512) :
    (BitVec.ofNat 32 ri * 512#32 + BitVec.ofNat 32 p.val = BitVec.ofNat 32 ci * 512#32 + BitVec.ofNat 32 q.val)
      ↔ 512 * ri + p.val = 512 * ci + q.val := by
  have hp := p.isLt; have hq := q.isLt
  constructor
  · intro h
    have ht := congrArg BitVec.toNat h
    simp only [BitVec.toNat_add, BitVec.toNat_mul, BitVec.toNat_ofNat] at ht
    omega
  · intro h
    apply BitVec.eq_of_toNat_eq
    simp only [BitVec.toNat_add, BitVec.toNat_mul, BitVec.toNat_ofNat]
    omega

/-- The loss column at row p, from the finished numerator and denominator columns. -/
theorem pay3_apply (vn vd : FVec Ideal S512x1 .f32) (p : Fin 512) :
    k0_pay3 (F := Ideal) vn vd (ix1 p)
      = -(Ideal.log (Ideal.div (vn (ix2 p (0 : Fin 1))) (vd (ix2 p (0 : Fin 1)) + Ideal.ofBits .f32 0x322BCC77#32)
          + Ideal.ofBits .f32 0x322BCC77#32)) := by
  unfold k0_pay3
  refine (shapeCast_a1_a_apply _ shapeCasts_S512x1_S512 p).trans ?_
  show Ideal.ofBits .f32 0x00000000#32
      - Ideal.log (Ideal.div (vn (ix2 p (0 : Fin 1))) (vd (ix2 p (0 : Fin 1)) + Ideal.ofBits .f32 0x322BCC77#32)
          + Ideal.ofBits .f32 0x322BCC77#32) = _
  rw [Ideal.ofBits_zero_f32, Cert.Spec.zero_sub_eq_neg]

end Cert.KernelIdeal.PayValue

end
-- ==== Proof.KIJoin.lean ====
/-
  The body's steps in the specification's terms, and the eight column blocks joined.

  Grid point (ri, ci) meets the row block ri — global rows 512·ri + p — with the column block ci — global columns
  512·ci + q. When the blocks the body loads are the normalised rows and the labels of those global rows and
  columns, the weight block is the specification's weight, the mask (labels equal, global numbers different) is
  the specification's mask, and each step adds to a running entry the block's part of the row's numerator or
  denominator. Started from zero and stepped through the eight column blocks, the running entries end at the
  row's numerator and denominator (a sum taken in blocks is the whole sum), and the loss column computed from
  them is the row's loss.
-/
import proofs.«163814_j80650895884987_1_alg».proof.Proof.KIPayload

set_option maxRecDepth 16384

noncomputable section

open scoped BigOperators

namespace Cert.KernelIdeal.PayValue

open Cert.KernelIdeal Cert.KernelIdeal.Gen Idealize.ShloMosaic Idealize.ShloMosaic.ValueIdx Finset

/-- The global number of place p in block b: 512·b + p. -/
abbrev gidx (b : ℕ) (hb : b < 8) (p : Fin 512) : Fin 4096 := ⟨512 * b + p.val, by have := p.isLt; omega⟩

/-! ## The steps -/

/-- The weight a row contributes to its numerator at a column: the weight at a positive, zero elsewhere. -/
def fnum (a0 a1 : (⟨2, ![2048, 512]⟩ : Shape).Idx → EReal) (lab : (⟨1, ![2048]⟩ : Shape).Idx → BitVec 32)
    (r c : Fin 4096) : EReal :=
  if Cert.Spec.mask lab r c then Cert.Spec.e a0 a1 r c else 0

/-- The specification's numerator is the sum of those contributions. -/
theorem num_eq_sum (a0 a1 : (⟨2, ![2048, 512]⟩ : Shape).Idx → EReal) (lab : (⟨1, ![2048]⟩ : Shape).Idx → BitVec 32)
    (r : Fin 4096) : Cert.Spec.num a0 a1 lab r = ∑ c : Fin 4096, fnum a0 a1 lab r c := rfl

/-- The numerator's step at grid point i, row p: the running entry plus the column block's part of the row's
    numerator. -/
theorem pay7_step (a0 a1 : (⟨2, ![2048, 512]⟩ : Shape).Idx → EReal) (lab : (⟨1, ![2048]⟩ : Shape).Idx → BitVec 32)
    (i : grid0.Coords) (X0 X1 : FVec Ideal S512x512 .bf16) (X2 : IVec S512x1 32) (X3 : IVec S1x512 32)
    (an : FVec Ideal S512x1 .f32) (p : Fin 512) (u : Fin 1)
    (h0 : ∀ k : Fin 512, X0 (ix2 p k) = Cert.Spec.z a0 a1 (gidx (i 0).val (i 0).isLt p) k)
    (h1 : ∀ (q k : Fin 512), X1 (ix2 q k) = Cert.Spec.z a0 a1 (gidx (i 1).val (i 1).isLt q) k)
    (h2 : X2 (ix2 p (0 : Fin 1)) = Cert.Spec.lab2 lab (gidx (i 0).val (i 0).isLt p))
    (h3 : ∀ q : Fin 512, X3 (ix2 (0 : Fin 1) q) = Cert.Spec.lab2 lab (gidx (i 1).val (i 1).isLt q)) :
    k0_pay7 (F := Ideal) i X0 X1 X2 X3 an (ix2 p u)
      = an (ix2 p u) + ∑ q : Fin 512, fnum a0 a1 lab (gidx (i 0).val (i 0).isLt p)
          (gidx (i 1).val (i 1).isLt q) := by
  rw [pay7_apply]
  refine congrArg (an (ix2 p u) + ·) (Finset.sum_congr rfl fun q _ => ?_)
  rw [pay6_eq_e a0 a1 (gidx (i 0).val (i 0).isLt p) (gidx (i 1).val (i 1).isLt q) X0 X1 p q h0 (h1 q), h2, h3 q]
  unfold fnum Cert.Spec.mask
  exact if_congr (and_congr Iff.rfl (not_congr ((diag_iff (i 0).val (i 1).val (i 0).isLt (i 1).isLt p q).trans
    (Fin.ext_iff (a := gidx (i 0).val (i 0).isLt p) (b := gidx (i 1).val (i 1).isLt q)).symm))) rfl rfl

/-- The denominator's step at grid point i, row p: the running entry plus the column block's part of the row's
    denominator. -/
theorem pay2_step (a0 a1 : (⟨2, ![2048, 512]⟩ : Shape).Idx → EReal)
    (i : grid0.Coords) (X0 X1 : FVec Ideal S512x512 .bf16) (ad : FVec Ideal S512x1 .f32) (p : Fin 512) (u : Fin 1)
    (h0 : ∀ k : Fin 512, X0 (ix2 p k) = Cert.Spec.z a0 a1 (gidx (i 0).val (i 0).isLt p) k)
    (h1 : ∀ (q k : Fin 512), X1 (ix2 q k) = Cert.Spec.z a0 a1 (gidx (i 1).val (i 1).isLt q) k) :
    k0_pay2 (F := Ideal) (k0_pay6 (F := Ideal) X0 X1) ad (ix2 p u)
      = ad (ix2 p u) + ∑ q : Fin 512, Cert.Spec.e a0 a1 (gidx (i 0).val (i 0).isLt p)
          (gidx (i 1).val (i 1).isLt q) := by
  rw [pay2_apply]
  refine congrArg (ad (ix2 p u) + ·) (Finset.sum_congr rfl fun q _ => ?_)
  exact pay6_eq_e a0 a1 (gidx (i 0).val (i 0).isLt p) (gidx (i 1).val (i 1).isLt q) X0 X1 p q h0 (h1 q)

/-- The loss column at row p, from columns that hold the row's numerator and denominator. -/
theorem pay3_eq_loss (a0 a1 : (⟨2, ![2048, 512]⟩ : Shape).Idx → EReal) (lab : (⟨1, ![2048]⟩ : Shape).Idx → BitVec 32)
    (r : Fin 4096) (vn vd : FVec Ideal S512x1 .f32) (p : Fin 512)
    (hn : vn (ix2 p (0 : Fin 1)) = Cert.Spec.num a0 a1 lab r) (hd : vd (ix2 p (0 : Fin 1)) = Cert.Spec.den a0 a1 r) :
    k0_pay3 (F := Ideal) vn vd (ix1 p) = Cert.Spec.loss a0 a1 lab r := by
  rw [pay3_apply, hn, hd]
  rfl

/-! ## The eight column blocks joined -/

section Join
variable {M : Type*} [AddCommMonoid M]

/-- The accumulation a_0 = x0, a_{j+1} = a_j + the j-th block's sum holds x0 plus the first j blocks' sum at every
    j up to 8 … -/
theorem acc_eq_partialSum' (f : Fin 4096 → M) (x0 : M) (a : ℕ → M) (h0 : a 0 = x0)
    (hs : ∀ j (hj : j < 8), a (j + 1) = a j + ∑ c' : Fin 512, f ⟨512 * j + c'.val, by have := c'.isLt; omega⟩) :
    ∀ j, j ≤ 8 → a j = x0 + Cert.Spec.partialSum f j
  | 0, _ => by rw [h0, Cert.Spec.partialSum_zero, add_zero]
  | j + 1, hj => by
    rw [hs j (by omega), acc_eq_partialSum' f x0 a h0 hs j (by omega), Cert.Spec.partialSum_succ f j (by omega),
      add_assoc]

/-- … hence x0 plus the whole sum at 8. -/
theorem acc_eight' (f : Fin 4096 → M) (x0 : M) (a : ℕ → M) (h0 : a 0 = x0)
    (hs : ∀ j (hj : j < 8), a (j + 1) = a j + ∑ c' : Fin 512, f ⟨512 * j + c'.val, by have := c'.isLt; omega⟩) :
    a 8 = x0 + ∑ c : Fin 4096, f c := by
  rw [acc_eq_partialSum' f x0 a h0 hs 8 le_rfl, Cert.Spec.partialSum_eight]

end Join

/-- A running numerator started at zero and stepped through the eight column blocks ends at the row's numerator. -/
theorem num_of_steps (a0 a1 : (⟨2, ![2048, 512]⟩ : Shape).Idx → EReal) (lab : (⟨1, ![2048]⟩ : Shape).Idx → BitVec 32)
    (r : Fin 4096) (a : ℕ → EReal) (h0 : a 0 = 0)
    (hs : ∀ j (hj : j < 8), a (j + 1)
      = a j + ∑ c' : Fin 512, fnum a0 a1 lab r ⟨512 * j + c'.val, by have := c'.isLt; omega⟩) :
    a 8 = Cert.Spec.num a0 a1 lab r := by
  rw [acc_eight' (fnum a0 a1 lab r) 0 a h0 hs, zero_add, num_eq_sum]

/-- A running denominator started at zero and stepped through the eight column blocks ends at the row's
    denominator. -/
theorem den_of_steps (a0 a1 : (⟨2, ![2048, 512]⟩ : Shape).Idx → EReal) (r : Fin 4096) (a : ℕ → EReal) (h0 : a 0 = 0)
    (hs : ∀ j (hj : j < 8), a (j + 1)
      = a j + ∑ c' : Fin 512, Cert.Spec.e a0 a1 r ⟨512 * j + c'.val, by have := c'.isLt; omega⟩) :
    a 8 = Cert.Spec.den a0 a1 r := by
  rw [acc_eight' (Cert.Spec.e a0 a1 r) 0 a h0 hs, zero_add]
  rfl

end Cert.KernelIdeal.PayValue

end
-- ==== Proof.KIBlocks.lean ====
/-
  One row block through its eight column blocks: the losses the last point stores.

  The running numerator and denominator columns of row block ri are reset at column block 0 and stepped at every
  column block; whatever terms the eight points load, as long as they are, entry by entry, the normalised rows
  and the labels of the global rows 512·ri + p and columns 512·j + q, the columns after the last step hold the
  rows' numerators and denominators, and the loss column computed from them holds the rows' losses.
-/
import proofs.«163814_j80650895884987_1_alg».proof.Proof.KIJoin

set_option maxRecDepth 16384

noncomputable section

open scoped BigOperators

namespace Cert.KernelIdeal.PayValue

open Cert.KernelIdeal Cert.KernelIdeal.Gen Idealize.ShloMosaic Idealize.ShloMosaic.ValueIdx Finset

/-- The global number depends on the block's number only. -/
theorem gidx_congr {b b' : ℕ} (hb : b < 8) (hb' : b' < 8) (e : b = b') (p : Fin 512) : gidx b hb p = gidx b' hb' p := by
  subst e; rfl

/-- The numerator's step at a grid point whose coordinates are (ri, ci). -/
theorem pay7_step' (a0 a1 : (⟨2, ![2048, 512]⟩ : Shape).Idx → EReal) (lab : (⟨1, ![2048]⟩ : Shape).Idx → BitVec 32)
    (i : grid0.Coords) (ri ci : ℕ) (hri : ri < 8) (hci : ci < 8) (e0 : (i 0).val = ri) (e1 : (i 1).val = ci)
    (X0 X1 : FVec Ideal S512x512 .bf16) (X2 : IVec S512x1 32) (X3 : IVec S1x512 32)
    (an : FVec Ideal S512x1 .f32) (p : Fin 512) (u : Fin 1)
    (h0 : ∀ k : Fin 512, X0 (ix2 p k) = Cert.Spec.z a0 a1 (gidx ri hri p) k)
    (h1 : ∀ (q k : Fin 512), X1 (ix2 q k) = Cert.Spec.z a0 a1 (gidx ci hci q) k)
    (h2 : X2 (ix2 p (0 : Fin 1)) = Cert.Spec.lab2 lab (gidx ri hri p))
    (h3 : ∀ q : Fin 512, X3 (ix2 (0 : Fin 1) q) = Cert.Spec.lab2 lab (gidx ci hci q)) :
    k0_pay7 (F := Ideal) i X0 X1 X2 X3 an (ix2 p u)
      = an (ix2 p u) + ∑ q : Fin 512, fnum a0 a1 lab (gidx ri hri p) (gidx ci hci q) := by
  have g0 : gidx (i 0).val (i 0).isLt p = gidx ri hri p := gidx_congr _ _ e0 p
  have g1 : ∀ q, gidx (i 1).val (i 1).isLt q = gidx ci hci q := fun q => gidx_congr _ _ e1 q
  rw [pay7_step a0 a1 lab i X0 X1 X2 X3 an p u (fun k => by rw [g0]; exact h0 k) (fun q k => by rw [g1]; exact h1 q k)
    (by rw [g0]; exact h2) (fun q => by rw [g1]; exact h3 q), g0]
  exact congrArg (an (ix2 p u) + ·) (Finset.sum_congr rfl fun q _ => by rw [g1])

/-- The denominator's step at a grid point whose coordinates are (ri, ci). -/
theorem pay2_step' (a0 a1 : (⟨2, ![2048, 512]⟩ : Shape).Idx → EReal)
    (ri ci : ℕ) (hri : ri < 8) (hci : ci < 8)
    (X0 X1 : FVec Ideal S512x512 .bf16) (ad : FVec Ideal S512x1 .f32) (p : Fin 512) (u : Fin 1)
    (h0 : ∀ k : Fin 512, X0 (ix2 p k) = Cert.Spec.z a0 a1 (gidx ri hri p) k)
    (h1 : ∀ (q k : Fin 512), X1 (ix2 q k) = Cert.Spec.z a0 a1 (gidx ci hci q) k) :
    k0_pay2 (F := Ideal) (k0_pay6 (F := Ideal) X0 X1) ad (ix2 p u)
      = ad (ix2 p u) + ∑ q : Fin 512, Cert.Spec.e a0 a1 (gidx ri hri p) (gidx ci hci q) := by
  rw [pay2_apply]
  refine congrArg (ad (ix2 p u) + ·) (Finset.sum_congr rfl fun q _ => ?_)
  exact pay6_eq_e a0 a1 (gidx ri hri p) (gidx ci hci q) X0 X1 p q h0 (h1 q)

/-- Row block ri through its eight column blocks: the loss column computed after the last step holds the
    losses of the global rows 512·ri + p. -/
theorem loss_of_blocks (a0 a1 : (⟨2, ![2048, 512]⟩ : Shape).Idx → EReal) (lab : (⟨1, ![2048]⟩ : Shape).Idx → BitVec 32)
    (ri : ℕ) (hri : ri < 8)
    (X0 X1 : ℕ → FVec Ideal S512x512 .bf16) (X2 : ℕ → IVec S512x1 32) (X3 : ℕ → IVec S1x512 32)
    (pts : ℕ → grid0.Coords) (hpts : ∀ j, j < 8 → ((pts j) 0).val = ri ∧ ((pts j) 1).val = j)
    (N D : ℕ → FVec Ideal S512x1 .f32)
    (hN0 : N 0 = k0_pay1 (F := Ideal) (k0_pay7 (F := Ideal) (pts 0) (X0 0) (X1 0) (X2 0) (X3 0) (k0_pay4 (F := Ideal))))
    (hNs : ∀ j, j + 1 < 8 → N (j + 1)
      = k0_pay1 (F := Ideal) (k0_pay7 (F := Ideal) (pts (j + 1)) (X0 (j + 1)) (X1 (j + 1)) (X2 (j + 1)) (X3 (j + 1)) (N j)))
    (hD0 : D 0 = k0_pay2 (F := Ideal) (k0_pay6 (F := Ideal) (X0 0) (X1 0)) (k0_pay5 (F := Ideal)))
    (hDs : ∀ j, j + 1 < 8 → D (j + 1) = k0_pay2 (F := Ideal) (k0_pay6 (F := Ideal) (X0 (j + 1)) (X1 (j + 1))) (D j))
    (hX0 : ∀ j, j < 8 → ∀ p k : Fin 512, X0 j (ix2 p k) = Cert.Spec.z a0 a1 (gidx ri hri p) k)
    (hX1 : ∀ j (hj : j < 8), ∀ q k : Fin 512, X1 j (ix2 q k) = Cert.Spec.z a0 a1 (gidx j hj q) k)
    (hX2 : ∀ j, j < 8 → ∀ p : Fin 512, X2 j (ix2 p (0 : Fin 1)) = Cert.Spec.lab2 lab (gidx ri hri p))
    (hX3 : ∀ j (hj : j < 8), ∀ q : Fin 512, X3 j (ix2 (0 : Fin 1) q) = Cert.Spec.lab2 lab (gidx j hj q)) :
    ∀ p : Fin 512, k0_pay3 (F := Ideal) (N 7) (D 7) (ix1 p) = Cert.Spec.loss a0 a1 lab (gidx ri hri p) := by
  intro p
  -- the running entries of row p, with the reset value in front
  have hnum : N 7 (ix2 p (0 : Fin 1)) = Cert.Spec.num a0 a1 lab (gidx ri hri p) := by
    refine num_of_steps a0 a1 lab (gidx ri hri p) (fun j => Nat.casesOn j 0 fun j' => N j' (ix2 p (0 : Fin 1))) rfl ?_
    intro j hj
    cases j with
    | zero =>
      show N 0 (ix2 p (0 : Fin 1)) = 0 + _
      rw [hN0, pay1_eq, pay7_step' a0 a1 lab (pts 0) ri 0 hri (by omega) (hpts 0 (by omega)).1 (hpts 0 (by omega)).2
        (X0 0) (X1 0) (X2 0) (X3 0) (k0_pay4 (F := Ideal)) p 0 (hX0 0 (by omega) p) (hX1 0 (by omega))
        (hX2 0 (by omega) p) (hX3 0 (by omega)), pay4_eq]
    | succ j =>
      show N (j + 1) (ix2 p (0 : Fin 1)) = N j (ix2 p (0 : Fin 1)) + _
      rw [hNs j hj, pay1_eq, pay7_step' a0 a1 lab (pts (j + 1)) ri (j + 1) hri hj (hpts (j + 1) hj).1 (hpts (j + 1) hj).2
        (X0 (j + 1)) (X1 (j + 1)) (X2 (j + 1)) (X3 (j + 1)) (N j) p 0 (hX0 (j + 1) hj p) (hX1 (j + 1) hj)
        (hX2 (j + 1) hj p) (hX3 (j + 1) hj)]
  have hden : D 7 (ix2 p (0 : Fin 1)) = Cert.Spec.den a0 a1 (gidx ri hri p) := by
    refine den_of_steps a0 a1 (gidx ri hri p) (fun j => Nat.casesOn j 0 fun j' => D j' (ix2 p (0 : Fin 1))) rfl ?_
    intro j hj
    cases j with
    | zero =>
      show D 0 (ix2 p (0 : Fin 1)) = 0 + _
      rw [hD0, pay2_step' a0 a1 ri 0 hri (by omega) (X0 0) (X1 0) (k0_pay5 (F := Ideal)) p 0 (hX0 0 (by omega) p)
        (hX1 0 (by omega)), pay5_eq]
    | succ j =>
      show D (j + 1) (ix2 p (0 : Fin 1)) = D j (ix2 p (0 : Fin 1)) + _
      rw [hDs j hj, pay2_step' a0 a1 ri (j + 1) hri hj (X0 (j + 1)) (X1 (j + 1)) (D j) p 0 (hX0 (j + 1) hj p)
        (hX1 (j + 1) hj)]
  exact pay3_eq_loss a0 a1 lab (gidx ri hri p) (N 7) (D 7) p hnum hden

end Cert.KernelIdeal.PayValue

end
-- ==== Proof.KIWindows.lean ====
/-
  The five windows' blocks of the 8 × 8 grid, read at coordinates.

  Point t of the grid is row block t / 8 against column block t mod 8 (the points are numbered row-major). The
  first feature window's block at t is rows 512·(t / 8) + p of the normalised array, the second's is rows
  512·(t mod 8) + q of the same array; the label column's block is the rows of the first, the label row's block
  the columns of the second; the output window's block is entries 512·(t / 8) + p of the per-row array, and the
  eight points that write it back (the last column block of each row block) cover the array.
-/
import proofs.«163814_j80650895884987_1_alg».proof.Proof.KIShared
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

open Cert.KernelIdeal Cert.KernelIdeal.Gen

variable {F : FTy → Type} [FloatOps F] [Named F]

variable (m : (ℓ : Loc nD τ sig) → Buf (Elt F) ℓ)

/-! ## The grid and the index maps, decided over the 64 points -/

/-- The grid has 64 points, so a point's number is below 64. -/
theorem t_lt (t : Fin cfg0.N) : t.val < 64 := lt_of_lt_of_eq t.isLt (show cfg0.N = 64 from N_0)

/-- Point t's coordinates: row block t / 8, column block t mod 8. -/
theorem coords_facts : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- Each window's block number at point t, per axis. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 1) = t.val / 8 :=
  (by decide +kernel : ∀ t : Fin grid0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 1) = t.val / 8)

/-- The global row of place p in point t's row block, -/
abbrev rowOf (t : Fin cfg0.N) (p : Fin 512) : Fin 4096 :=
  ⟨512 * (t.val / 8) + p.val, by have := t_lt t; have := p.isLt; omega⟩
/-- and the global column of place q in its column block. -/
abbrev colOf (t : Fin cfg0.N) (q : Fin 512) : Fin 4096 :=
  ⟨512 * (t.val % 8) + q.val, by have := t_lt t; have := q.isLt; omega⟩

/-! ## The input windows' blocks -/

/-- The first feature window's block at t: rows 512·(t / 8) + p of the normalised array. -/
theorem iblk0_apply (c : Dev nD) (t : Fin cfg0.N) (p k : Fin 512) :
    (iblk m c 0 t : Vec F S512x512 .bf16) (ix2 p k)
      = (V m c main_v7 : S4096x512.Idx → Elt F .bf16) (ix2 (rowOf t p) k) := by
  obtain ⟨e0, e1, -⟩ := idx_facts t
  unfold iblk
  rw [View.read_apply]
  show V m c main_v7 _ = V m c main_v7 _
  congr 1
  funext a
  apply Fin.ext
  match a with
  | ⟨0, _⟩ => show win0_0.index t (0 : Fin 2) * 512 + 1 * p.val = 512 * (t.val / 8) + p.val; rw [e0]; omega
  | ⟨1, _⟩ => show win0_0.index t (1 : Fin 2) * 512 + 1 * k.val = k.val; rw [e1]; omega

/-- The second feature window's block at t: rows 512·(t mod 8) + q of the normalised array. -/
theorem iblk1_apply (c : Dev nD) (t : Fin cfg0.N) (q k : Fin 512) :
    (iblk m c 1 t : Vec F S512x512 .bf16) (ix2 q k)
      = (V m c main_v7 : S4096x512.Idx → Elt F .bf16) (ix2 (colOf t q) k) := by
  obtain ⟨-, -, e0, e1, -⟩ := idx_facts t
  unfold iblk
  rw [View.read_apply]
  show V m c main_v7 _ = V m c main_v7 _
  congr 1
  funext a
  apply Fin.ext
  match a with
  | ⟨0, _⟩ => show win0_1.index t (0 : Fin 2) * 512 + 1 * q.val = 512 * (t.val % 8) + q.val; rw [e0]; omega
  | ⟨1, _⟩ => show win0_1.index t (1 : Fin 2) * 512 + 1 * k.val = k.val; rw [e1]; omega

/-- The label column's block at t: rows 512·(t / 8) + p of the label column. -/
theorem iblk2_apply (c : Dev nD) (t : Fin cfg0.N) (p : Fin 512) (u : Fin 1) :
    (iblk m c 2 t : Vec F S512x1 .i32) (ix2 p u)
      = (V m c main_v9 : S4096x1.Idx → Elt F .i32) (ix2 (rowOf t p) u) := by
  obtain ⟨-, -, -, -, e0, e1, -⟩ := idx_facts t
  unfold iblk
  rw [View.read_apply]
  show V m c main_v9 _ = V m c main_v9 _
  congr 1
  funext a
  apply Fin.ext
  match a with
  | ⟨0, _⟩ => show win0_2.index t (0 : Fin 2) * 512 + 1 * p.val = 512 * (t.val / 8) + p.val; rw [e0]; omega
  | ⟨1, _⟩ => show win0_2.index t (1 : Fin 2) * 1 + 1 * u.val = u.val; rw [e1]; omega

/-- The label row's block at t: columns 512·(t mod 8) + q of the label row. -/
theorem iblk3_apply (c : Dev nD) (t : Fin cfg0.N) (u : Fin 1) (q : Fin 512) :
    (iblk m c 3 t : Vec F S1x512 .i32) (ix2 u q)
      = (V m c main_v10 : S1x4096.Idx → Elt F .i32) (ix2 u (colOf t q)) := by
  obtain ⟨-, -, -, -, -, -, e0, e1, -⟩ := idx_facts t
  unfold iblk
  rw [View.read_apply]
  show V m c main_v10 _ = V m c main_v10 _
  congr 1
  funext a
  apply Fin.ext
  match a with
  | ⟨0, _⟩ => show win0_3.index t (0 : Fin 2) * 1 + 1 * u.val = u.val; rw [e0]; omega
  | ⟨1, _⟩ => show win0_3.index t (1 : Fin 2) * 512 + 1 * q.val = 512 * (t.val % 8) + q.val; rw [e1]; omega

/-! ## The output window -/

/-- The output window's block at t, read off any contents of its array: entries 512·(t / 8) + p. -/
theorem oblk4_apply (c : Dev nD) (t : Fin cfg0.N) (G : Buf (Elt F) ((cfg0.win 4).arr.view.loc (c : Thread nD τ)))
    (p : Fin 512) :
    (((cfg0.win 4).blk t).view.read (Elt F) G : Vec F S512 .f32) (ix1 p)
      = (G : S4096.Idx → Elt F .f32) (ix1 (rowOf t p)) := by
  obtain ⟨-, -, -, -, -, -, -, -, e0⟩ := idx_facts t
  rw [View.read_apply]
  show (G : S4096.Idx → Elt F .f32) _ = (G : S4096.Idx → Elt F .f32) _
  congr 1
  funext a
  apply Fin.ext
  match a with
  | ⟨0, _⟩ => show win0_4.index t (0 : Fin 1) * 512 + 1 * p.val = 512 * (t.val / 8) + p.val; rw [e0]; omega

/-- An entry of the per-row array is in point t's block exactly when its number is in the block's range. -/
theorem mem_blk4 (t : Fin cfg0.N) (i : S4096.Idx) :
    i ∈ ((cfg0.win 4).blk t).view.set
      ↔ ∀ a : Fin 1, win0_4.index t a * S512.size a ≤ (i a).val ∧ (i a).val < win0_4.index t a * S512.size a + S512.size a := by
  show i ∈ ((View.whole main_v11).slice (win0_4.rect t)).set ↔ _
  rw [View.set_slice_whole, Rect.mem_set_unit]
  exact Iff.rfl

/-- Every entry of the per-row array is in the block of a point that writes it back: entry r in the block of the
    last column block's point of row block r / 512. -/
theorem cover4 (i : S4096.Idx) : ∃ t : Fin cfg0.N, (cfg0.win 4).flush t = true ∧ i ∈ ((cfg0.win 4).blk t).view.set := by
  have hi : (i 0).val < 4096 := (i 0).isLt
  have hN : cfg0.N = 64 := N_0
  let t : Fin cfg0.N := ⟨8 * ((i 0).val / 512) + 7, by rw [hN]; omega⟩
  have ht : t.val = 8 * ((i 0).val / 512) + 7 := rfl
  refine ⟨t, (flush0_4 t).mpr (by rw [ht]; omega), ?_⟩
  obtain ⟨-, -, -, -, -, -, -, -, e0⟩ := idx_facts t
  rw [mem_blk4]
  intro a
  match a with
  | ⟨0, _⟩ =>
    show win0_4.index t (0 : Fin 1) * 512 ≤ (i 0).val ∧ (i 0).val < win0_4.index t (0 : Fin 1) * 512 + 512
    rw [e0, ht]
    omega

end Cert.KernelIdeal.Hand

end
-- ==== Proof.KIValue.lean ====
/-
  The kernel's value at the ideal instance. The region finds the normalised features z and the two label columns in
  its arrays; at point (ri, ci) the feature windows hold rows 512·ri … and 512·ci … of z and the label windows the
  matching labels; the running sums after the point are the sums of exp(z_r·z_c/τ) (masked, for the numerator) over the
  columns of the blocks 0 … ci; at ci = 7 they are the reference's full row sums and the stored block is the row
  block's losses. The blocks written back tile the result array, so it ends holding every row's loss, and the closing
  host operations take the mean.
-/
import proofs.«163814_j80650895884987_1_alg».proof.Proof.KILaunch
import proofs.«163814_j80650895884987_1_alg».proof.Proof.KIPieces
import proofs.«163814_j80650895884987_1_alg».proof.Proof.KIHost
import proofs.«163814_j80650895884987_1_alg».proof.Proof.KIBlocks
import proofs.«163814_j80650895884987_1_alg».proof.Proof.KIWindows
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx
open Cert.KernelIdeal.PayValue (gidx)

local notation "𝕄" => MT nD τ sig Unit (Elt Ideal) ℕ (UR sig nD τ) ℕ

variable (m : (ℓ : Loc nD τ sig) → Buf (Elt Ideal) ℓ) (ρ : Dev nD → PrngReg)

/-- The three argument arrays on core `c`. -/
abbrev arg0 (c : Dev nD) : (⟨S2048x512, .f32⟩ : BufTy).Contents (Elt Ideal) := m ((c : Thread nD τ).loc main_arg0)
abbrev arg1 (c : Dev nD) : (⟨S2048x512, .f32⟩ : BufTy).Contents (Elt Ideal) := m ((c : Thread nD τ).loc main_arg1)
abbrev arg2 (c : Dev nD) : (⟨S2048, .i32⟩ : BufTy).Contents (Elt Ideal) := m ((c : Thread nD τ).loc main_arg2)

/-- What the region finds: the normalised features and the two label columns. -/
theorem V_v7 (c : Dev nD) : V m c main_v7 = HostValue.zT (arg0 m c) (arg1 m c) := HostValue.after_v7 (V₀ m c)
theorem V_v9 (c : Dev nD) : V m c main_v9 = HostValue.labColT (arg2 m c) := HostValue.after_v9 (V₀ m c)
theorem V_v10 (c : Dev nD) : V m c main_v10 = HostValue.labRowT (arg2 m c) := HostValue.after_v10 (V₀ m c)

/-! ## The running sums by position -/

/-- Position `n` as a grid point (the first point past the grid: never read there). -/
def ptAt (n : ℕ) : Fin cfg0.N := if h : n < cfg0.N then ⟨n, h⟩ else ⟨0, by have : cfg0.N = 64 := N_0; omega⟩
theorem ptAt_eq (n : ℕ) (hn : n < cfg0.N) : ptAt n = ⟨n, hn⟩ := dif_pos hn
theorem ptAt_val (n : ℕ) (h : n < 64) : (ptAt n).val = n := by rw [ptAt_eq n (by have : cfg0.N = 64 := N_0; omega)]

/-- The numerator and denominator sums after position `n`. -/
def accN (c : Dev nD) (n : ℕ) : Vec Ideal S512x1 .f32 := if hn : n < cfg0.N then (outsAt m c n hn).2.1 else k0_pay4 (F := Ideal)
def accD (c : Dev nD) (n : ℕ) : Vec Ideal S512x1 .f32 := if hn : n < cfg0.N then (outsAt m c n hn).2.2 else k0_pay5 (F := Ideal)

theorem accN_first (c : Dev nD) (n : ℕ) (hn : n < cfg0.N) (h0 : n % 8 = 0) :
    accN m c n = k0_pay1 (k0_pay7 (grid0.coords (ptAt n)) (iblk m c 0 (ptAt n)) (iblk m c 1 (ptAt n)) (iblk m c 2 (ptAt n)) (iblk m c 3 (ptAt n)) (k0_pay4 (F := Ideal))) := by
  have h7 : ¬n % 8 = 7 := by omega
  unfold accN; rw [dif_pos hn, ptAt_eq n hn]
  exact (congrArg (fun x => x.2.1) (outsAt_A m c ⟨n, hn⟩ h0 h7)).trans
    (outNA_eq c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) scN (Memref.isWhole_whole _) scD (Memref.isWhole_whole _) ((hcond1 ⟨n, hn⟩).mpr h0) (fun h => h7 ((hcond2 ⟨n, hn⟩).mp h)) (iblk m c 0 ⟨n, hn⟩) (iblk m c 1 ⟨n, hn⟩) (iblk m c 2 ⟨n, hn⟩) (iblk m c 3 ⟨n, hn⟩))

theorem accD_first (c : Dev nD) (n : ℕ) (hn : n < cfg0.N) (h0 : n % 8 = 0) :
    accD m c n = k0_pay2 (k0_pay6 (iblk m c 0 (ptAt n)) (iblk m c 1 (ptAt n))) (k0_pay5 (F := Ideal)) := by
  have h7 : ¬n % 8 = 7 := by omega
  unfold accD; rw [dif_pos hn, ptAt_eq n hn]
  exact (congrArg (fun x => x.2.2) (outsAt_A m c ⟨n, hn⟩ h0 h7)).trans
    (outDA_eq c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) scN (Memref.isWhole_whole _) scD (Memref.isWhole_whole _) ((hcond1 ⟨n, hn⟩).mpr h0) (fun h => h7 ((hcond2 ⟨n, hn⟩).mp h)) (iblk m c 0 ⟨n, hn⟩) (iblk m c 1 ⟨n, hn⟩) (iblk m c 2 ⟨n, hn⟩) (iblk m c 3 ⟨n, hn⟩))

theorem accN_next (c : Dev nD) (n : ℕ) (hn : n + 1 < cfg0.N) (h0 : ¬(n + 1) % 8 = 0) :
    accN m c (n + 1) = k0_pay1 (k0_pay7 (grid0.coords (ptAt (n + 1))) (iblk m c 0 (ptAt (n + 1))) (iblk m c 1 (ptAt (n + 1))) (iblk m c 2 (ptAt (n + 1))) (iblk m c 3 (ptAt (n + 1))) (accN m c n)) := by
  unfold accN; rw [dif_pos hn, dif_pos (Nat.lt_of_succ_lt hn), ptAt_eq (n + 1) hn]
  by_cases h7 : (n + 1) % 8 = 7
  · exact (congrArg (fun x => x.2.1) (outsAt_C m c ⟨n + 1, hn⟩ h0 h7)).trans
      (outNC_eq c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) (fun h => h0 ((hcond1 ⟨n + 1, hn⟩).mp h)) ((hcond2 ⟨n + 1, hn⟩).mpr h7) (iblk m c 0 ⟨n + 1, hn⟩) (iblk m c 1 ⟨n + 1, hn⟩) (iblk m c 2 ⟨n + 1, hn⟩) (iblk m c 3 ⟨n + 1, hn⟩) (outsAt m c ((⟨n + 1, hn⟩ : Fin cfg0.N).val - 1) (Nat.lt_of_le_of_lt (Nat.sub_le _ _) (⟨n + 1, hn⟩ : Fin cfg0.N).isLt)).2.1 (outsAt m c ((⟨n + 1, hn⟩ : Fin cfg0.N).val - 1) (Nat.lt_of_le_of_lt (Nat.sub_le _ _) (⟨n + 1, hn⟩ : Fin cfg0.N).isLt)).2.2)
  · have e1 := congrArg (fun x => x.2.1) (outsAt_B m c ⟨n + 1, hn⟩ h0 h7)
    have e2 := outNB_eq c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) (fun h => h0 ((hcond1 ⟨n + 1, hn⟩).mp h)) (fun h => h7 ((hcond2 ⟨n + 1, hn⟩).mp h)) (iblk m c 0 ⟨n + 1, hn⟩) (iblk m c 1 ⟨n + 1, hn⟩) (iblk m c 2 ⟨n + 1, hn⟩) (iblk m c 3 ⟨n + 1, hn⟩) (outsAt m c ((⟨n + 1, hn⟩ : Fin cfg0.N).val - 1) (Nat.lt_of_le_of_lt (Nat.sub_le _ _) (⟨n + 1, hn⟩ : Fin cfg0.N).isLt)).2.1 (outsAt m c ((⟨n + 1, hn⟩ : Fin cfg0.N).val - 1) (Nat.lt_of_le_of_lt (Nat.sub_le _ _) (⟨n + 1, hn⟩ : Fin cfg0.N).isLt)).2.2
    dsimp only at e1 e2
    have e := e1.trans e2
    simp only [Nat.add_one_sub_one] at e
    exact e

theorem prev_eq (c : Dev nD) (n : ℕ) (hn : n + 1 < cfg0.N) :
    (outsAt m c ((⟨n + 1, hn⟩ : Fin cfg0.N).val - 1) (Nat.lt_of_le_of_lt (Nat.sub_le _ _) (⟨n + 1, hn⟩ : Fin cfg0.N).isLt)) = outsAt m c n (Nat.lt_of_succ_lt hn) := rfl

theorem accD_next (c : Dev nD) (n : ℕ) (hn : n + 1 < cfg0.N) (h0 : ¬(n + 1) % 8 = 0) :
    accD m c (n + 1) = k0_pay2 (k0_pay6 (iblk m c 0 (ptAt (n + 1))) (iblk m c 1 (ptAt (n + 1)))) (accD m c n) := by
  unfold accD; rw [dif_pos hn, dif_pos (Nat.lt_of_succ_lt hn), ptAt_eq (n + 1) hn]
  by_cases h7 : (n + 1) % 8 = 7
  · have e1 := congrArg (fun x => x.2.2) (outsAt_C m c ⟨n + 1, hn⟩ h0 h7)
    have e2 := outDC_eq c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) (fun h => h0 ((hcond1 ⟨n + 1, hn⟩).mp h)) ((hcond2 ⟨n + 1, hn⟩).mpr h7) (iblk m c 0 ⟨n + 1, hn⟩) (iblk m c 1 ⟨n + 1, hn⟩) (iblk m c 2 ⟨n + 1, hn⟩) (iblk m c 3 ⟨n + 1, hn⟩) (outsAt m c ((⟨n + 1, hn⟩ : Fin cfg0.N).val - 1) (Nat.lt_of_le_of_lt (Nat.sub_le _ _) (⟨n + 1, hn⟩ : Fin cfg0.N).isLt)).2.1 (outsAt m c ((⟨n + 1, hn⟩ : Fin cfg0.N).val - 1) (Nat.lt_of_le_of_lt (Nat.sub_le _ _) (⟨n + 1, hn⟩ : Fin cfg0.N).isLt)).2.2
    have e := e1.trans e2
    rw [prev_eq m c n hn] at e
    exact e
  · have e1 := congrArg (fun x => x.2.2) (outsAt_B m c ⟨n + 1, hn⟩ h0 h7)
    have e2 := outDB_eq c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) (fun h => h0 ((hcond1 ⟨n + 1, hn⟩).mp h)) (fun h => h7 ((hcond2 ⟨n + 1, hn⟩).mp h)) (iblk m c 0 ⟨n + 1, hn⟩) (iblk m c 1 ⟨n + 1, hn⟩) (iblk m c 2 ⟨n + 1, hn⟩) (iblk m c 3 ⟨n + 1, hn⟩) (outsAt m c ((⟨n + 1, hn⟩ : Fin cfg0.N).val - 1) (Nat.lt_of_le_of_lt (Nat.sub_le _ _) (⟨n + 1, hn⟩ : Fin cfg0.N).isLt)).2.1 (outsAt m c ((⟨n + 1, hn⟩ : Fin cfg0.N).val - 1) (Nat.lt_of_le_of_lt (Nat.sub_le _ _) (⟨n + 1, hn⟩ : Fin cfg0.N).isLt)).2.2
    dsimp only at e1 e2
    have e := e1.trans e2
    simp only [Nat.add_one_sub_one] at e
    exact e

/-- At a last column block the stored block is the losses of the finished sums. -/
theorem out_last (c : Dev nD) (n : ℕ) (hn : n + 1 < cfg0.N) (h7 : (n + 1) % 8 = 7) :
    (outsAt m c (n + 1) hn).1 = k0_pay3 (accN m c (n + 1)) (accD m c (n + 1)) := by
  have h0 : ¬(n + 1) % 8 = 0 := by omega
  rw [accN_next m c n hn h0, accD_next m c n hn h0, ptAt_eq (n + 1) hn]
  have pN : accN m c n = (outsAt m c n (Nat.lt_of_succ_lt hn)).2.1 := dif_pos _
  have pD : accD m c n = (outsAt m c n (Nat.lt_of_succ_lt hn)).2.2 := dif_pos _
  rw [pN, pD]
  exact (congrArg (fun x => x.1) (outsAt_C m c ⟨n + 1, hn⟩ h0 h7)).trans
    (outOC_eq c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scN (Memref.isWhole_whole _) scD (Memref.isWhole_whole _) (fun h => h0 ((hcond1 ⟨n + 1, hn⟩).mp h)) ((hcond2 ⟨n + 1, hn⟩).mpr h7) (iblk m c 0 ⟨n + 1, hn⟩) (iblk m c 1 ⟨n + 1, hn⟩) (iblk m c 2 ⟨n + 1, hn⟩) (iblk m c 3 ⟨n + 1, hn⟩) (outsAt m c ((⟨n + 1, hn⟩ : Fin cfg0.N).val - 1) (Nat.lt_of_le_of_lt (Nat.sub_le _ _) (⟨n + 1, hn⟩ : Fin cfg0.N).isLt)).2.1 (outsAt m c ((⟨n + 1, hn⟩ : Fin cfg0.N).val - 1) (Nat.lt_of_le_of_lt (Nat.sub_le _ _) (⟨n + 1, hn⟩ : Fin cfg0.N).isLt)).2.2)

/-! ## The blocks the windows hold, in the specification's terms -/

theorem blk0_z (c : Dev nD) (ri j : ℕ) (hri : ri < 8) (hj : j < 8) (p k : Fin 512) :
    (iblk m c 0 (ptAt (8 * ri + j)) : Vec Ideal S512x512 .bf16) (ix2 p k) = Cert.Spec.z (arg0 m c) (arg1 m c) (gidx ri hri p) k := by
  have hv : (ptAt (8 * ri + j)).val = 8 * ri + j := ptAt_val _ (by omega)
  refine (iblk0_apply m c (ptAt (8 * ri + j)) p k).trans ?_
  rw [V_v7]
  refine (HostValue.zT_apply _ _ _ k).trans ?_
  congr 1; apply Fin.ext; show 512 * ((ptAt (8 * ri + j)).val / 8) + p.val = 512 * ri + p.val; rw [hv]; omega

theorem blk1_z (c : Dev nD) (ri j : ℕ) (hri : ri < 8) (hj : j < 8) (q k : Fin 512) :
    (iblk m c 1 (ptAt (8 * ri + j)) : Vec Ideal S512x512 .bf16) (ix2 q k) = Cert.Spec.z (arg0 m c) (arg1 m c) (gidx j hj q) k := by
  have hv : (ptAt (8 * ri + j)).val = 8 * ri + j := ptAt_val _ (by omega)
  refine (iblk1_apply m c (ptAt (8 * ri + j)) q k).trans ?_
  rw [V_v7]
  refine (HostValue.zT_apply _ _ _ k).trans ?_
  congr 1; apply Fin.ext; show 512 * ((ptAt (8 * ri + j)).val % 8) + q.val = 512 * j + q.val; rw [hv]; omega

theorem blk2_lab (c : Dev nD) (ri j : ℕ) (hri : ri < 8) (hj : j < 8) (p : Fin 512) :
    (iblk m c 2 (ptAt (8 * ri + j)) : Vec Ideal S512x1 .i32) (ix2 p (0 : Fin 1)) = Cert.Spec.lab2 (arg2 m c) (gidx ri hri p) := by
  have hv : (ptAt (8 * ri + j)).val = 8 * ri + j := ptAt_val _ (by omega)
  refine (iblk2_apply m c (ptAt (8 * ri + j)) p 0).trans ?_
  rw [V_v9]
  refine (HostValue.labColT_apply _ _ 0).trans ?_
  congr 1; apply Fin.ext; show 512 * ((ptAt (8 * ri + j)).val / 8) + p.val = 512 * ri + p.val; rw [hv]; omega

theorem blk3_lab (c : Dev nD) (ri j : ℕ) (hri : ri < 8) (hj : j < 8) (q : Fin 512) :
    (iblk m c 3 (ptAt (8 * ri + j)) : Vec Ideal S1x512 .i32) (ix2 (0 : Fin 1) q) = Cert.Spec.lab2 (arg2 m c) (gidx j hj q) := by
  have hv : (ptAt (8 * ri + j)).val = 8 * ri + j := ptAt_val _ (by omega)
  refine (iblk3_apply m c (ptAt (8 * ri + j)) 0 q).trans ?_
  rw [V_v10]
  refine (HostValue.labRowT_apply _ 0 _).trans ?_
  congr 1; apply Fin.ext; show 512 * ((ptAt (8 * ri + j)).val % 8) + q.val = 512 * j + q.val; rw [hv]; omega

/-! ## A row block's losses -/

/-- After the last column block of row block `ri` the stored block holds the reference's losses of its 512 rows. -/
theorem loss_at (c : Dev nD) (ri : ℕ) (hri : ri < 8) (p : Fin 512) :
    k0_pay3 (F := Ideal) (accN m c (8 * ri + 7)) (accD m c (8 * ri + 7)) (ix1 p)
      = Cert.Spec.loss (arg0 m c) (arg1 m c) (arg2 m c) (gidx ri hri p) :=
  PayValue.loss_of_blocks (arg0 m c) (arg1 m c) (arg2 m c) ri hri
    (fun j => iblk m c 0 (ptAt (8 * ri + j))) (fun j => iblk m c 1 (ptAt (8 * ri + j)))
    (fun j => iblk m c 2 (ptAt (8 * ri + j))) (fun j => iblk m c 3 (ptAt (8 * ri + j)))
    (fun j => grid0.coords (ptAt (8 * ri + j)))
    (fun j hj => by
      have hv : (ptAt (8 * ri + j)).val = 8 * ri + j := ptAt_val _ (by omega)
      have hc := coords_facts (ptAt (8 * ri + j))
      rw [hv] at hc
      exact ⟨by rw [hc.1]; omega, by rw [hc.2]; omega⟩)
    (fun j => accN m c (8 * ri + j)) (fun j => accD m c (8 * ri + j))
    (accN_first m c (8 * ri + 0) (by have : cfg0.N = 64 := N_0; omega) (by omega))
    (fun j hj => accN_next m c (8 * ri + j) (by have : cfg0.N = 64 := N_0; omega) (by omega))
    (accD_first m c (8 * ri + 0) (by have : cfg0.N = 64 := N_0; omega) (by omega))
    (fun j hj => accD_next m c (8 * ri + j) (by have : cfg0.N = 64 := N_0; omega) (by omega))
    (fun j hj p k => blk0_z m c ri j hri hj p k) (fun j hj q k => blk1_z m c ri j hri hj q k)
    (fun j hj p => blk2_lab m c ri j hri hj p) (fun j hj q => blk3_lab m c ri j hri hj q) p

theorem out_last' (c : Dev nD) (t : Fin cfg0.N) (h7 : t.val % 8 = 7) :
    (outsAt m c t.val t.isLt).1 = k0_pay3 (F := Ideal) (accN m c t.val) (accD m c t.val) := by
  obtain ⟨tv, ht⟩ := t
  cases tv with
  | zero => exfalso; have h7' : (0 : ℕ) % 8 = 7 := h7; omega
  | succ n => exact out_last m c n ht h7

/-! ## The result array and the result -/

/-- Every row's loss, as the result array's contents. -/
def G (c : Dev nD) : Buf (Elt Ideal) ((cfg0.win 4).arr.view.loc (c : Thread nD τ)) :=
  fun i => Cert.Spec.loss (arg0 m c) (arg1 m c) (arg2 m c) (i 0)

/-- What a last-column-block point writes back is its row block of `G`. -/
theorem flushed_eq (c : Dev nD) (t : Fin cfg0.N) (hf : (cfg0.win 4).flush t = true) :
    (dats m 0 c).flushed 4 t = ((cfg0.win 4).blk t).view.read (Elt Ideal) (G m c) := by
  have h7 : t.val % 8 = 7 := (flush0_4 t).mp hf
  have hlt := t_lt t
  funext y
  obtain ⟨p, rfl⟩ : ∃ p : Fin 512, y = ix1 p := ⟨y 0, eq_ix1 y⟩
  refine Eq.trans ?_ (oblk4_apply c t (G m c) p).symm
  show (dats m 0 c).after 4 t (ix1 p) = _
  rw [after4, out_last' m c t h7]
  have key := loss_at m c (t.val / 8) (by omega) p
  have e : 8 * (t.val / 8) + 7 = t.val := by omega
  rw [e] at key
  exact key

/-- The result array after the run: every row's loss. -/
theorem final_eq (c : Dev nD) : (dats m 0 c).arrAt 4 cfg0.N = G m c :=
  (dats m 0 c).arrAt_eq_of_cover 4 (G m c) (fun t hf => flushed_eq m c t hf) (fun i => cover4 i)

/-- The result: the specification's, of the argument arrays. -/
theorem res_eq (c : Dev nD) :
    VEnd m c (Proc.devRef .tc main_v13) = fun _ => Cert.Spec.result (arg0 m c) (arg1 m c) (arg2 m c) := by
  unfold VEnd
  rw [HostValue.after_v13, V1_v11, final_eq]
  exact HostValue.tailT_eq _ _ _ _ (fun r => rfl)

/-- THE VALUE RUN: @main runs, its result is the specification's of the argument arrays, and they end unchanged. -/
theorem value_run : θ_run defs (onTc (τ := τ) (main (F := Ideal))) ⟨m, fun _ => 0, ρ⟩ (fun r => ∀ c : Dev nD,
      r.2.mem ((c.tc : Thread nD τ).loc main_v13) = (fun _ => Cert.Spec.result (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_ucRefs main_v13 rfl)).trans (res_eq m c),
     (h c _ (mem_ucRefs main_arg0 rfl)).trans (VEnd_arg m c main_arg0 (by decide) (by decide) (by decide)),
     (h c _ (mem_ucRefs main_arg1 rfl)).trans (VEnd_arg m c main_arg1 (by decide) (by decide) (by decide)),
     (h c _ (mem_ucRefs main_arg2 rfl)).trans (VEnd_arg m c main_arg2 (by decide) (by decide) (by decide))⟩) (run_main m ρ)

end Cert.KernelIdeal.Hand

end
-- ==== Proof.lean ====
/-
  The proof of `Cert.Claim`: a supervised contrastive loss, computed by a tiled kernel against its plain reference.

  Both programs normalise the rows of the stacked features, z = concat(feat1, feat2) / ‖·‖, and take, per row r, the
  loss −log(num r / (den r + ε) + ε) with den r = Σ_c exp(z_r·z_c / τ) and num r the same sum over the columns c ≠ r
  carrying r's label; the result is the mean over the 4096 rows. The kernel walks an 8 × 8 grid of 512 × 512 tiles of
  the similarity matrix, keeping the two row sums in scratch columns across a row block's eight column blocks and
  writing the losses at the last; it multiplies by a constant the source writes as 1/τ, named here as the exact
  reciprocal of the reference's τ, so that at the ideal instance both sides divide by the same number.

  The three frames: the kernel's two (word level and ideal) by the launch of its one region between two stretches of
  host operations (Proof/KBLaunch.lean, Proof/KILaunch.lean), the reference's by its generated run. The value claim:
  the kernel's result is read off its frame run (Proof/KIValue.lean) and the reference's off its run
  (Proof/RefValue.lean); both are Proof/Spec.lean's `result` of the argument arrays.
-/
import proofs.«163814_j80650895884987_1_alg».proof.Defs
import proofs.«163814_j80650895884987_1_alg».proof.Proof.KBLaunch
import proofs.«163814_j80650895884987_1_alg».proof.Proof.KIValue
import proofs.«163814_j80650895884987_1_alg».proof.Proof.RefValue
import proofs.«163814_j80650895884987_1_alg».proof.Proof.Gen.Kernel
import proofs.«163814_j80650895884987_1_alg».proof.Proof.Gen.KernelIdeal
import proofs.«163814_j80650895884987_1_alg».proof.Proof.Gen.ReferenceIdeal
import proofs.«163814_j80650895884987_1_alg».proof.Proof.Gen.ReferenceIdeal.Run
import proofs.«163814_j80650895884987_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the kernel's scale constant is named the exact reciprocal of the reference's τ. -/
theorem preserves : Cert.preserves_Kernel_KernelIdeal :=
  IdealRules.named_const.statement Cert.KernelIdeal.κ "inv_tau" .f32 0x41649249#32 ((134217728 / 9395241 : ℝ) : EReal) rfl

/-- Both idealized programs end with the specification's result of the (agreeing) argument arrays. -/
theorem algebraic : Cert.algebraic_KernelIdeal_ReferenceIdeal := by
  intro m ρ m' ρ' _ hag
  refine ⟨fun c => fun _ => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.value_run m ρ, ?_⟩
  exact (θ_run Cert.ReferenceIdeal.defs _ _).mono
    (fun _ h c => ⟨by rw [(h c).1, Cert.ReferenceIdeal.RefValue.res_eq, (hag c).1, (hag c).2.1, (hag c).2.2]; rfl, (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
